-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v27_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S800000x3 : S_.BroadcastsInDim S800000x3 (![] : Fin 0 → Fin S800000x3.rank)
  reducesTo_S800000x3_S_d0_1 : S800000x3.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg19 : FVec F S64 .f32) (main_arg20 : FVec F S64x64 .f32) (main_arg21 : FVec F S64 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg20
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S192x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x64 .f32 := Host.absf main_arg10
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S16x64 .f32) (main_arg7 : FVec F S64 .f32) (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x5 .f32) (main_arg1 : IVec S2x800000 32) (main_arg2 : FVec F S800000x16 .f32) (main_arg3 : FVec F S800000x3 .f32) (main_arg4 : FVec F S5x64 .f32) (main_arg5 : FVec F S64 .f32) (main_arg6 : FVec F S16x64 .f32) (main_arg7 : FVec F S64 .f32) (main_arg8 : FVec F S64x64 .f32) (main_arg9 : FVec F S64 .f32) (main_arg10 : FVec F S192x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S192x64 .f32) (main_arg19 : FVec F S64 .f32) (main_arg20 : FVec F S64x64 .f32) (main_arg21 : FVec F S64 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000x3 .f32 := Host.absf main_arg3
  let main_cst_2 : FVec F S_ .f32 := constant S_ .f32 0x7F800000#32
  let main_v10 : FVec F S800000x3 .f32 := broadcastInDim S800000x3 ![] bcast_S_S800000x3 main_cst_2
  let main_v11 : IVec S800000x3 1 := cmpf .olt main_v9 main_v10
  let main_c_3 : IVec S_ 1 := constantI S_ 1 1#1
  let main_v12 : IVec S_ 1 := (fun x v => Host.reduce IntOp.andi x v reducesTo_S800000x3_S_d0_1 h_S_) main_v11 main_c_3
  let main_v13 : IVec S_ 1 := andi main_v8 main_v12
  let main_v14 : FVec F S5x64 .f32 := Host.absf main_arg4
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x5 : Shape := ⟨2, ![5000, 5]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S800000x256 : Shape := ⟨2, ![800000, 256]⟩
abbrev S3200x16 : Shape := ⟨2, ![3200, 16]⟩
abbrev S3200x64 : Shape := ⟨2, ![3200, 64]⟩
abbrev S3200x3 : Shape := ⟨2, ![3200, 3]⟩
abbrev S3200x256 : Shape := ⟨2, ![3200, 256]⟩
abbrev S3200x1 : Shape := ⟨2, ![3200, 1]⟩
abbrev S50000x256 : Shape := ⟨2, ![50000, 256]⟩
abbrev S50000x192 : Shape := ⟨2, ![50000, 192]⟩
abbrev S50000x3x64 : Shape := ⟨3, ![50000, 3, 64]⟩
abbrev S50000x64x3 : Shape := ⟨3, ![50000, 64, 3]⟩
abbrev S5000x128 : Shape := ⟨2, ![5000, 128]⟩

abbrev nBuf : Space → Nat
  | .hbm => 67
  | .vmem => 40
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S800000x16, .f32⟩
  | .hbm, ⟨3, _⟩ => ⟨S800000x3, .f32⟩
  | .hbm, ⟨4, _⟩ => ⟨S5x64, .f32⟩
  | .hbm, ⟨5, _⟩ => ⟨S64, .f32⟩
  | .hbm, ⟨6, _⟩ => ⟨S16x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S192x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S192x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S1x64, .f32⟩
  | .hbm, ⟨27, _⟩ => ⟨S50000x64, .f32⟩
  | .hbm, ⟨28, _⟩ => ⟨S50000x64, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .bf16⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S800000x64, .f32⟩
  | .hbm, ⟨54, _⟩ => ⟨S800000x256, .bf16⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x64, .f32⟩
  | .hbm, ⟨61, _⟩ => ⟨S50000x192, .f32⟩
  | .hbm, ⟨62, _⟩ => ⟨S50000x3x64, .f32⟩
  | .hbm, ⟨63, _⟩ => ⟨S50000x64x3, .f32⟩
  | .hbm, ⟨64, _⟩ => ⟨S1x64, .f32⟩
  | .hbm, ⟨65, _⟩ => ⟨S1x64, .f32⟩
  | .hbm, ⟨66, _⟩ => ⟨S50000x64, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S3200x16, .f32⟩
  | .local _ .vmem, ⟨7, _⟩ => ⟨S3200x16, .f32⟩
  | .local _ .vmem, ⟨8, _⟩ => ⟨S3200x64, .bf16⟩
  | .local _ .vmem, ⟨9, _⟩ => ⟨S3200x64, .bf16⟩
  | .local _ .vmem, ⟨10, _⟩ => ⟨S3200x64, .bf16⟩
  | .local _ .vmem, ⟨11, _⟩ => ⟨S3200x64, .bf16⟩
  | .local _ .vmem, ⟨12, _⟩ => ⟨S3200x3, .f32⟩
  | .local _ .vmem, ⟨13, _⟩ => ⟨S3200x3, .f32⟩
  | .local _ .vmem, ⟨14, _⟩ => ⟨S16x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S192x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S192x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S3200x64, .f32⟩
  | .local _ .vmem, ⟨27, _⟩ => ⟨S3200x64, .f32⟩
  | .local _ .vmem, ⟨28, _⟩ => ⟨S3200x256, .bf16⟩
  | .local _ .vmem, ⟨29, _⟩ => ⟨S3200x256, .bf16⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S128x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg16_1 : Ref sig .tc := ⟨.vmem, 27, rfl⟩
abbrev cc1_stg17_0 : Ref sig .tc := ⟨.vmem, 28, rfl⟩
abbrev cc1_stg17_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem16_1 : DmaSem sig := 27
abbrev cc1_sem17_0 : DmaSem sig := 28
abbrev cc1_sem17_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S192x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S192x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S3200x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S3200x256 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  inb_S3200x16_S3200x16_0_0 : ∀ a, (![0, 0] : Fin 2 → Nat) a + S3200x16.size a ≤ S3200x16.size a
  h_S3200x16 : 0 < S3200x16.numel
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x3_S3200x3_0_0 : ∀ a, (![0, 0] : Fin 2 → Nat) a + S3200x3.size a ≤ S3200x3.size a
  h_S3200x3 : 0 < S3200x3.numel
  inb_S16x64_S16x64_0_0 : ∀ a, (![0, 0] : Fin 2 → Nat) a + S16x64.size a ≤ S16x64.size a
  h_S16x64 : 0 < S16x64.numel
  broadcasts_S1x64_S3200x64 : S1x64.Broadcasts S3200x64
  inb_S64x64_S64x64_0_0 : ∀ a, (![0, 0] : Fin 2 → Nat) a + S64x64.size a ≤ S64x64.size a
  h_S64x64 : 0 < S64x64.numel
  inb_S192x64_S64x64_0_0 : ∀ a, (![0, 0] : Fin 2 → Nat) a + S64x64.size a ≤ S192x64.size a
  inb_S192x64_S64x64_64_0 : ∀ a, (![64, 0] : Fin 2 → Nat) a + S64x64.size a ≤ S192x64.size a
  inb_S192x64_S64x64_128_0 : ∀ a, (![128, 0] : Fin 2 → Nat) a + S64x64.size a ≤ S192x64.size a
  slices_S3200x3_o0_0_S3200x1 : S3200x3.Slices ![0, 0] S3200x1
  broadcasts_S3200x1_S3200x64 : S3200x1.Broadcasts S3200x64
  slices_S3200x3_o0_1_S3200x1 : S3200x3.Slices ![0, 1] S3200x1
  slices_S3200x3_o0_2_S3200x1 : S3200x3.Slices ![0, 2] S3200x1
  concatenates_S3200x64_S3200x64_S3200x64_S3200x64_S3200x256_d1 : Shape.Concatenates [S3200x64, S3200x64, S3200x64, S3200x64] S3200x256 1
  inb_S3200x256_S3200x256_0_0 : ∀ a, (![0, 0] : Fin 2 → Nat) a + S3200x256.size a ≤ S3200x256.size a
  h_S3200x256 : 0 < S3200x256.numel
  packedbf16_S3200x256_S3200x256_0_0 : (Rect.unit (s := S3200x256) ![0, 0] S3200x256.size inb_S3200x256_S3200x256_0_0).PackedRows (EltTy.packing .bf16)
  bcast_S_S50000x256 : S_.BroadcastsInDim S50000x256 (![] : Fin 0 → Fin S50000x256.rank)
  slices_S50000x256_S50000x64_0_0 : S50000x256.Slices ![0, 0] S50000x64
  slices_S50000x256_S50000x192_0_64 : S50000x256.Slices ![0, 64] S50000x192
  shapeCasts_S50000x192_S50000x3x64 : S50000x192.ShapeCasts S50000x3x64
  transposes_S50000x3x64_S50000x64x3_0_2_1 : S50000x3x64.Transposes [0, 2, 1] S50000x64x3
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  dot_S5000x5_S5x64_S5000x64_1_0_0_1_n_n_wf : DotDims.WF S5000x5 S5x64 S5000x64 [1] [0] [0] [1] [] []
  gather_S50000x64_S800000x1_S800000x64_1_0_n_n_0_1_164_wf : GatherDims.WF S50000x64 S800000x1 S800000x64 [1] [0] [] [0] [] 1 ![1, 64]
  dot_S3200x16_S16x64_S3200x64_1_0_0_1_n_n_wf : DotDims.WF S3200x16 S16x64 S3200x64 [1] [0] [0] [1] [] []
  dot_S3200x64_S64x64_S3200x64_1_0_0_1_n_n_wf : DotDims.WF S3200x64 S64x64 S3200x64 [1] [0] [0] [1] [] []
  scatter_S50000x256_S800000x1_S800000x256_1_0_0_1_wf : ScatterDims.WF S50000x256 S800000x1 S800000x256 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x16.size a ≤ S800000x16.size a
  hwx1_0 : ∀ i : grid1.Coords, EltTy.bits .f32 = 32 ∨ (Rect.block (s := S800000x16) S3200x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .bf16 = 32 ∨ (Rect.block (s := S800000x64) S3200x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S800000x64.size a
  hwx1_2 : ∀ i : grid1.Coords, EltTy.bits .bf16 = 32 ∨ (Rect.block (s := S800000x64) S3200x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x3.size a ≤ S800000x3.size a
  hwx1_3 : ∀ i : grid1.Coords, EltTy.bits .f32 = 32 ∨ (Rect.block (s := S800000x3) S3200x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S192x64.size a ≤ S192x64.size a
  hwx1_8 : ∀ i : grid1.Coords, EltTy.bits .f32 = 32 ∨ (Rect.block (s := S192x64) S192x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S192x64.size a ≤ S192x64.size a
  hwx1_12 : ∀ i : grid1.Coords, EltTy.bits .f32 = 32 ∨ (Rect.block (s := S192x64) S192x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64x64.size a ≤ S64x64.size a
  hwx1_14 : ∀ i : grid1.Coords, EltTy.bits .f32 = 32 ∨ (Rect.block (s := S64x64) S64x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x64.size a ≤ S1x64.size a
  hwx1_15 : ∀ i : grid1.Coords, EltTy.bits .f32 = 32 ∨ (Rect.block (s := S1x64) S1x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S3200x64.size a ≤ S800000x64.size a
  hwx1_16 : ∀ i : grid1.Coords, EltTy.bits .f32 = 32 ∨ (Rect.block (s := S800000x64) S3200x64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S3200x256.size a ≤ S800000x256.size a
  hwx1_17 : ∀ i : grid1.Coords, EltTy.bits .bf16 = 32 ∨ (Rect.block (s := S800000x256) S3200x256.size (cc1_transform_17 i) (hinb1_17 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x16_S16x64_S3200x64_1_0_0_1_n_n : DotDims S3200x16 S16x64 S3200x64 where
  lhsContracting := [1]
  rhsContracting := [0]
  lhsNonContracting := [0]
  rhsNonContracting := [1]
  lhsBatch := []
  rhsBatch := []
  wf := dot_S3200x16_S16x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S3200x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S3200x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S3200x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S192x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S192x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v25) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg20) S64x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v26) S1x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v27_0) S3200x64.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v27_1) S3200x256.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S800000x16 : Shape := ⟨2, ![800000, 16]⟩
abbrev S800000x3 : Shape := ⟨2, ![800000, 3]⟩
abbrev S5x64 : Shape := ⟨2, ![5, 64]⟩
abbrev S64 : Shape := ⟨1, ![64]⟩
abbrev S16x64 : Shape := ⟨2, ![16, 64]⟩
abbrev S64x64 : Shape := ⟨2, ![64, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S800000x192 : Shape := ⟨2, ![800000, 192]⟩
abbrev S50000x128 : Shape := ⟨2, ![50000, 128]⟩
abbrev S800000x1x3 : Shape := ⟨3, ![800000, 1, 3]⟩
abbrev S800000x64x1 : Shape := ⟨3, ![800000, 64, 1]⟩
abbrev S800000x64x3 : Shape := ⟨3, ![800000, 64, 3]⟩
abbrev S50000x64x3 : Shape := ⟨3, ![50000, 64, 3]⟩

abbrev nBuf : Space → Nat
  | .hbm => 132
  | .vmem => 0
  | .smem => 0
  | _ => 0

abbrev hbmTy0_0 (i : Nat) : BufTy := match i % 128 with
  | 0 => ⟨S50000x5, .f32⟩
  | 1 => ⟨S2x800000, .i32⟩
  | 2 => ⟨S800000x16, .f32⟩
  | 3 => ⟨S800000x3, .f32⟩
  | 4 => ⟨S5x64, .f32⟩
  | 5 => ⟨S64, .f32⟩
  | 6 => ⟨S16x64, .f32⟩
  | 7 => ⟨S64, .f32⟩
  | 8 => ⟨S64x64, .f32⟩
  | 9 => ⟨S64, .f32⟩
  | 10 => ⟨S192x64, .f32⟩
  | 11 => ⟨S64, .f32⟩
  | 12 => ⟨S64x64, .f32⟩
  | 13 => ⟨S64, .f32⟩
  | 14 => ⟨S128x64, .f32⟩
  | 15 => ⟨S64, .f32⟩
  | 16 => ⟨S64x64, .f32⟩
  | 17 => ⟨S64, .f32⟩
  | 18 => ⟨S192x64, .f32⟩
  | 19 => ⟨S64, .f32⟩
  | 20 => ⟨S64x64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S50000x64, .f32⟩
  | 27 => ⟨S1x64, .f32⟩
  | 28 => ⟨S50000x64, .f32⟩
  | 29 => ⟨S50000x64, .f32⟩
  | 30 => ⟨S800000x64, .f32⟩
  | 31 => ⟨S1x64, .f32⟩
  | 32 => ⟨S800000x64, .f32⟩
  | 33 => ⟨S800000x64, .f32⟩
  | 34 => ⟨S800000x64, .f32⟩
  | 35 => ⟨S800000x64, .f32⟩
  | 36 => ⟨S_, .f32⟩
  | 37 => ⟨S800000x64, .f32⟩
  | 38 => ⟨S800000x64, .f32⟩
  | 39 => ⟨S_, .f32⟩
  | 40 => ⟨S800000x64, .f32⟩
  | 41 => ⟨S800000x64, .f32⟩
  | 42 => ⟨S800000x64, .f32⟩
  | 43 => ⟨S800000x64, .f32⟩
  | 44 => ⟨S1x64, .f32⟩
  | 45 => ⟨S800000x64, .f32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x192, .f32⟩
  | 66 => ⟨S800000x64, .f32⟩
  | 67 => ⟨S1x64, .f32⟩
  | 68 => ⟨S800000x64, .f32⟩
  | 69 => ⟨S800000x64, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x64, .f32⟩
  | 79 => ⟨S800000x64, .f32⟩
  | 80 => ⟨S1x64, .f32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S50000x128, .f32⟩
  | 89 => ⟨S50000x64, .f32⟩
  | 90 => ⟨S1x64, .f32⟩
  | 91 => ⟨S50000x64, .f32⟩
  | 92 => ⟨S50000x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S800000x1x3, .f32⟩
  | 107 => ⟨S800000x64, .f32⟩
  | 108 => ⟨S1x64, .f32⟩
  | 109 => ⟨S800000x64, .f32⟩
  | 110 => ⟨S800000x64, .f32⟩
  | 111 => ⟨S800000x64, .f32⟩
  | 112 => ⟨S800000x64, .f32⟩
  | 113 => ⟨S_, .f32⟩
  | 114 => ⟨S800000x64, .f32⟩
  | 115 => ⟨S800000x64, .f32⟩
  | 116 => ⟨S_, .f32⟩
  | 117 => ⟨S800000x64, .f32⟩
  | 118 => ⟨S800000x64, .f32⟩
  | 119 => ⟨S800000x64, .f32⟩
  | 120 => ⟨S800000x64, .f32⟩
  | 121 => ⟨S1x64, .f32⟩
  | 122 => ⟨S800000x64, .f32⟩
  | 123 => ⟨S800000x64, .f32⟩
  | 124 => ⟨S800000x64x1, .f32⟩
  | 125 => ⟨S800000x64x3, .f32⟩
  | 126 => ⟨S800000x64x3, .f32⟩
  | 127 => ⟨S800000x64x3, .f32⟩
  | _ => ⟨S50000x5, .f32⟩

abbrev hbmTy0_1 (i : Nat) : BufTy := match i % 128 with
  | 0 => ⟨S_, .f32⟩
  | 1 => ⟨S50000x64x3, .f32⟩
  | 2 => ⟨S800000x1, .i32⟩
  | 3 => ⟨S50000x64x3, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_1 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_3 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S_S50000x64 : S_.BroadcastsInDim S50000x64 (![] : Fin 0 → Fin S50000x64.rank)
  concatenates_S50000x64_S50000x64_S50000x128_d1 : Shape.Concatenates [S50000x64, S50000x64] S50000x128 1
  bcast_S800000x3_S800000x1x3_0_2 : S800000x3.BroadcastsInDim S800000x1x3 (![0, 2] : Fin 2 → Fin S800000x1x3.rank)
  bcast_S800000x64_S800000x64x1_0_1 : S800000x64.BroadcastsInDim S800000x64x1 (![0, 1] : Fin 2 → Fin S800000x64x1.rank)
  bcast_S800000x1x3_S800000x64x3_0_1_2 : S800000x1x3.BroadcastsInDim S800000x64x3 (![0, 1, 2] : Fin 3 → Fin S800000x64x3.rank)
  bcast_S800000x64x1_S800000x64x3_0_1_2 : S800000x64x1.BroadcastsInDim S800000x64x3 (![0, 1, 2] : Fin 3 → Fin S800000x64x3.rank)
  bcast_S_S50000x64x3 : S_.BroadcastsInDim S50000x64x3 (![] : Fin 0 → Fin S50000x64x3.rank)
  dot_S50000x5_S5x64_S50000x64_1_0_0_1_n_n_wf : DotDims.WF S50000x5 S5x64 S50000x64 [1] [0] [0] [1] [] []
  dot_S800000x16_S16x64_S800000x64_1_0_0_1_n_n_wf : DotDims.WF S800000x16 S16x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000x64x3_S800000x1_S800000x64x3_12_0_0_1_wf : ScatterDims.WF S50000x64x3 S800000x1 S800000x64x3 [1, 2] [0] [0] 1

variable [Facts₀]

def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64x3_S800000x1_S800000x64x3_12_0_0_1 : ScatterDims S50000x64x3 S800000x1 S800000x64x3 where
  updateWindowDims := [1, 2]
  insertedWindowDims := [0]
  scatterDimsToOperandDims := [0]
  indexVectorDim := 1
  wf := scatter_S50000x64x3_S800000x1_S800000x64x3_12_0_0_1_wf

class Facts : Prop extends Facts₀ where

variable [Facts]
-- ==== Proof.KernelRun.lean ====
/-
  The idealized kernel program's run with every buffer NAMED at its end: @main is three kernel regions among stretches of
  host operations, and at the return every unscoped buffer of a core holds what the fold through those six segments
  leaves in it (the last boundary's contents).  The three results and the arguments are read off this one statement.
-/
import proofs.«174115_j6777458393829_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of every
    core holds the contents the fold through @main's segments gives it. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.KRun

end
-- ==== Proof.KernelHost.lean ====
/-
  The buffers of the idealized kernel program at the boundaries between its segments, as terms of the argument arrays.

  @main is: a stretch of host operations (index rows cut out of the edge list, a bias reshaped), the node-embedding
  region, a stretch (the embeddings gathered per edge at both ends, the biases reshaped to rows), the edge region, a
  stretch (the edge messages summed per receiving node by a scatter-add, cut and re-laid), the node-update region.
  Each stretch's results are its operations applied to the contents at its entry; a region changes only its output
  arrays; so every buffer a later segment reads walks back to the argument arrays and the earlier regions' outputs.
-/
import proofs.«174115_j6777458393829_2_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.KHost

open Cert.KernelIdeal Cert.KernelIdeal.Gen Idealize.ShloMosaic Idealize.ShloMosaic.TcCoe Idealize.SL.Sem Idealize.ShloMosaic.StableHlo

/-- Row 0 of the edge list as a vector of node numbers: the sending ends. -/
def rowsI (a1 : (⟨S2x800000, .i32⟩ : BufTy).Contents (Elt Ideal)) : (⟨S800000, .i32⟩ : BufTy).Contents (Elt Ideal) :=
  shapeCast S800000 (extractStridedSlice S1x800000 ![0, 0] a1 slices_S2x800000_S1x800000_0_0) shapeCasts_S1x800000_S800000

/-- Row 1 of the edge list: the receiving ends. -/
def rowsJ (a1 : (⟨S2x800000, .i32⟩ : BufTy).Contents (Elt Ideal)) : (⟨S800000, .i32⟩ : BufTy).Contents (Elt Ideal) :=
  shapeCast S800000 (extractStridedSlice S1x800000 ![1, 0] a1 slices_S2x800000_S1x800000_1_0) shapeCasts_S1x800000_S800000

/-- A vector of node numbers as the column of row numbers a gather of rows reads: a negative number counted from the
    end (50000 added). -/
def gatherCol (J : (⟨S800000, .i32⟩ : BufTy).Contents (Elt Ideal)) : (⟨S800000x1, .i32⟩ : BufTy).Contents (Elt Ideal) :=
  broadcastInDim S800000x1 ![0] bcast_S800000_S800000x1_0
    (select (cmpi .slt J (broadcastInDim S800000 ![] bcast_S_S800000 (constantI S_ 32 0#32)))
      (addi J (broadcastInDim S800000 ![] bcast_S_S800000 (constantI S_ 32 50000#32))) J)

/-- A vector of node numbers as the column of segment numbers a scatter-add reads. -/
def segCol (J : (⟨S800000, .i32⟩ : BufTy).Contents (Elt Ideal)) : (⟨S800000x1, .i32⟩ : BufTy).Contents (Elt Ideal) :=
  broadcastInDim S800000x1 ![0] bcast_S800000_S800000x1_0 J

variable (m : (ℓ : Loc nD τ sig) → Buf (Elt Ideal) ℓ) (ρ : Dev nD → PrngReg) (c : Dev nD)

/-! ## After the first stretch -/

theorem w1_arg0 : W1 m ρ c (Proc.devRef .tc main_arg0) = (m ((c : Thread nD τ).loc main_arg0)) := by
  dsimp only [W1, hostOps0]; after_results <;> rfl
theorem w1_arg1 : W1 m ρ c (Proc.devRef .tc main_arg1) = (m ((c : Thread nD τ).loc main_arg1)) := by
  dsimp only [W1, hostOps0]; after_results <;> rfl
theorem w1_arg2 : W1 m ρ c (Proc.devRef .tc main_arg2) = (m ((c : Thread nD τ).loc main_arg2)) := by
  dsimp only [W1, hostOps0]; after_results <;> rfl
theorem w1_arg3 : W1 m ρ c (Proc.devRef .tc main_arg3) = (m ((c : Thread nD τ).loc main_arg3)) := by
  dsimp only [W1, hostOps0]; after_results <;> rfl
theorem w1_arg4 : W1 m ρ c (Proc.devRef .tc main_arg4) = (m ((c : Thread nD τ).loc main_arg4)) := by
  dsimp only [W1, hostOps0]; after_results <;> rfl
theorem w1_arg5 : W1 m ρ c (Proc.devRef .tc main_arg5) = (m ((c : Thread nD τ).loc main_arg5)) := by
  dsimp only [W1, hostOps0]; after_results <;> rfl
theorem w1_arg6 : W1 m ρ c (Proc.devRef .tc main_arg6) = (m ((c : Thread nD τ).loc main_arg6)) := by
  dsimp only [W1, hostOps0]; after_results <;> rfl
theorem w1_arg7 : W1 m ρ c (Proc.devRef .tc main_arg7) = (m ((c : Thread nD τ).loc main_arg7)) := by
  dsimp only [W1, hostOps0]; after_results <;> rfl
theorem w1_arg8 : W1 m ρ c (Proc.devRef .tc main_arg8) = (m ((c : Thread nD τ).loc main_arg8)) := by
  dsimp only [W1, hostOps0]; after_results <;> rfl
theorem w1_arg9 : W1 m ρ c (Proc.devRef .tc main_arg9) = (m ((c : Thread nD τ).loc main_arg9)) := by
  dsimp only [W1, hostOps0]; after_results <;> rfl
theorem w1_arg10 : W1 m ρ c (Proc.devRef .tc main_arg10) = (m ((c : Thread nD τ).loc main_arg10)) := by
  dsimp only [W1, hostOps0]; after_results <;> rfl
theorem w1_arg11 : W1 m ρ c (Proc.devRef .tc main_arg11) = (m ((c : Thread nD τ).loc main_arg11)) := by
  dsimp only [W1, hostOps0]; after_results <;> rfl
theorem w1_arg12 : W1 m ρ c (Proc.devRef .tc main_arg12) = (m ((c : Thread nD τ).loc main_arg12)) := by
  dsimp only [W1, hostOps0]; after_results <;> rfl
theorem w1_arg13 : W1 m ρ c (Proc.devRef .tc main_arg13) = (m ((c : Thread nD τ).loc main_arg13)) := by
  dsimp only [W1, hostOps0]; after_results <;> rfl
theorem w1_arg14 : W1 m ρ c (Proc.devRef .tc main_arg14) = (m ((c : Thread nD τ).loc main_arg14)) := by
  dsimp only [W1, hostOps0]; after_results <;> rfl
theorem w1_arg15 : W1 m ρ c (Proc.devRef .tc main_arg15) = (m ((c : Thread nD τ).loc main_arg15)) := by
  dsimp only [W1, hostOps0]; after_results <;> rfl
theorem w1_arg16 : W1 m ρ c (Proc.devRef .tc main_arg16) = (m ((c : Thread nD τ).loc main_arg16)) := by
  dsimp only [W1, hostOps0]; after_results <;> rfl
theorem w1_arg17 : W1 m ρ c (Proc.devRef .tc main_arg17) = (m ((c : Thread nD τ).loc main_arg17)) := by
  dsimp only [W1, hostOps0]; after_results <;> rfl
theorem w1_arg18 : W1 m ρ c (Proc.devRef .tc main_arg18) = (m ((c : Thread nD τ).loc main_arg18)) := by
  dsimp only [W1, hostOps0]; after_results <;> rfl
theorem w1_arg19 : W1 m ρ c (Proc.devRef .tc main_arg19) = (m ((c : Thread nD τ).loc main_arg19)) := by
  dsimp only [W1, hostOps0]; after_results <;> rfl
theorem w1_arg20 : W1 m ρ c (Proc.devRef .tc main_arg20) = (m ((c : Thread nD τ).loc main_arg20)) := by
  dsimp only [W1, hostOps0]; after_results <;> rfl
theorem w1_arg21 : W1 m ρ c (Proc.devRef .tc main_arg21) = (m ((c : Thread nD τ).loc main_arg21)) := by
  dsimp only [W1, hostOps0]; after_results <;> rfl
theorem w1_v1 : W1 m ρ c (Proc.devRef .tc main_v1) = rowsI (m ((c : Thread nD τ).loc main_arg1)) := by
  dsimp only [W1, hostOps0]; after_results; rfl
theorem w1_v3 : W1 m ρ c (Proc.devRef .tc main_v3) = rowsJ (m ((c : Thread nD τ).loc main_arg1)) := by
  dsimp only [W1, hostOps0]; after_results; rfl
theorem w1_v4 : W1 m ρ c (Proc.devRef .tc main_v4) = shapeCast S1x64 (m ((c : Thread nD τ).loc main_arg5)) shapeCasts_S64_S1x64 := by
  dsimp only [W1, hostOps0]; after_results; rfl

/-! ## After the node-embedding region: only its output array changed -/

theorem w2_arg1 : W2 m ρ c (Proc.devRef .tc main_arg1) = (m ((c : Thread nD τ).loc main_arg1)) :=
  (W2_of_ne m ρ c main_arg1 (by decide)).trans (w1_arg1 m ρ c)
theorem w2_arg2 : W2 m ρ c (Proc.devRef .tc main_arg2) = (m ((c : Thread nD τ).loc main_arg2)) :=
  (W2_of_ne m ρ c main_arg2 (by decide)).trans (w1_arg2 m ρ c)
theorem w2_arg3 : W2 m ρ c (Proc.devRef .tc main_arg3) = (m ((c : Thread nD τ).loc main_arg3)) :=
  (W2_of_ne m ρ c main_arg3 (by decide)).trans (w1_arg3 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)
theorem w2_arg11 : W2 m ρ c (Proc.devRef .tc main_arg11) = (m ((c : Thread nD τ).loc main_arg11)) :=
  (W2_of_ne m ρ c main_arg11 (by decide)).trans (w1_arg11 m ρ c)
theorem w2_arg12 : W2 m ρ c (Proc.devRef .tc main_arg12) = (m ((c : Thread nD τ).loc main_arg12)) :=
  (W2_of_ne m ρ c main_arg12 (by decide)).trans (w1_arg12 m ρ c)
theorem w2_arg13 : W2 m ρ c (Proc.devRef .tc main_arg13) = (m ((c : Thread nD τ).loc main_arg13)) :=
  (W2_of_ne m ρ c main_arg13 (by decide)).trans (w1_arg13 m ρ c)
theorem w2_arg14 : W2 m ρ c (Proc.devRef .tc main_arg14) = (m ((c : Thread nD τ).loc main_arg14)) :=
  (W2_of_ne m ρ c main_arg14 (by decide)).trans (w1_arg14 m ρ c)
theorem w2_arg15 : W2 m ρ c (Proc.devRef .tc main_arg15) = (m ((c : Thread nD τ).loc main_arg15)) :=
  (W2_of_ne m ρ c main_arg15 (by decide)).trans (w1_arg15 m ρ c)
theorem w2_arg16 : W2 m ρ c (Proc.devRef .tc main_arg16) = (m ((c : Thread nD τ).loc main_arg16)) :=
  (W2_of_ne m ρ c main_arg16 (by decide)).trans (w1_arg16 m ρ c)
theorem w2_arg17 : W2 m ρ c (Proc.devRef .tc main_arg17) = (m ((c : Thread nD τ).loc main_arg17)) :=
  (W2_of_ne m ρ c main_arg17 (by decide)).trans (w1_arg17 m ρ c)
theorem w2_arg18 : W2 m ρ c (Proc.devRef .tc main_arg18) = (m ((c : Thread nD τ).loc main_arg18)) :=
  (W2_of_ne m ρ c main_arg18 (by decide)).trans (w1_arg18 m ρ c)
theorem w2_arg19 : W2 m ρ c (Proc.devRef .tc main_arg19) = (m ((c : Thread nD τ).loc main_arg19)) :=
  (W2_of_ne m ρ c main_arg19 (by decide)).trans (w1_arg19 m ρ c)
theorem w2_arg20 : W2 m ρ c (Proc.devRef .tc main_arg20) = (m ((c : Thread nD τ).loc main_arg20)) :=
  (W2_of_ne m ρ c main_arg20 (by decide)).trans (w1_arg20 m ρ c)
theorem w2_arg21 : W2 m ρ c (Proc.devRef .tc main_arg21) = (m ((c : Thread nD τ).loc main_arg21)) :=
  (W2_of_ne m ρ c main_arg21 (by decide)).trans (w1_arg21 m ρ c)
theorem w2_v1 : W2 m ρ c (Proc.devRef .tc main_v1) = rowsI (m ((c : Thread nD τ).loc main_arg1)) := (W2_of_ne m ρ c main_v1 (by decide)).trans (w1_v1 m ρ c)
theorem w2_v3 : W2 m ρ c (Proc.devRef .tc main_v3) = rowsJ (m ((c : Thread nD τ).loc main_arg1)) := (W2_of_ne m ρ c main_v3 (by decide)).trans (w1_v3 m ρ c)

/-! ## After the second stretch -/

theorem w3_arg2 : W3 m ρ c (Proc.devRef .tc main_arg2) = (m ((c : Thread nD τ).loc main_arg2)) :=
  (by dsimp only [W3, hostOps1]; after_results : W3 m ρ c (Proc.devRef .tc main_arg2) = W2 m ρ c (Proc.devRef .tc main_arg2)).trans (w2_arg2 m ρ c)
theorem w3_arg3 : W3 m ρ c (Proc.devRef .tc main_arg3) = (m ((c : Thread nD τ).loc main_arg3)) :=
  (by dsimp only [W3, hostOps1]; after_results : W3 m ρ c (Proc.devRef .tc main_arg3) = W2 m ρ c (Proc.devRef .tc main_arg3)).trans (w2_arg3 m ρ c)
theorem w3_arg6 : W3 m ρ c (Proc.devRef .tc main_arg6) = (m ((c : Thread nD τ).loc main_arg6)) :=
  (by dsimp only [W3, hostOps1]; after_results : W3 m ρ c (Proc.devRef .tc main_arg6) = W2 m ρ c (Proc.devRef .tc main_arg6)).trans (w2_arg6 m ρ c)
theorem w3_arg8 : W3 m ρ c (Proc.devRef .tc main_arg8) = (m ((c : Thread nD τ).loc main_arg8)) :=
  (by dsimp only [W3, hostOps1]; after_results : W3 m ρ c (Proc.devRef .tc main_arg8) = W2 m ρ c (Proc.devRef .tc main_arg8)).trans (w2_arg8 m ρ c)
theorem w3_arg10 : W3 m ρ c (Proc.devRef .tc main_arg10) = (m ((c : Thread nD τ).loc main_arg10)) :=
  (by dsimp only [W3, hostOps1]; after_results : W3 m ρ c (Proc.devRef .tc main_arg10) = W2 m ρ c (Proc.devRef .tc main_arg10)).trans (w2_arg10 m ρ c)
theorem w3_arg12 : W3 m ρ c (Proc.devRef .tc main_arg12) = (m ((c : Thread nD τ).loc main_arg12)) :=
  (by dsimp only [W3, hostOps1]; after_results : W3 m ρ c (Proc.devRef .tc main_arg12) = W2 m ρ c (Proc.devRef .tc main_arg12)).trans (w2_arg12 m ρ c)
theorem w3_arg14 : W3 m ρ c (Proc.devRef .tc main_arg14) = (m ((c : Thread nD τ).loc main_arg14)) :=
  (by dsimp only [W3, hostOps1]; after_results : W3 m ρ c (Proc.devRef .tc main_arg14) = W2 m ρ c (Proc.devRef .tc main_arg14)).trans (w2_arg14 m ρ c)
theorem w3_arg15 : W3 m ρ c (Proc.devRef .tc main_arg15) = (m ((c : Thread nD τ).loc main_arg15)) :=
  (by dsimp only [W3, hostOps1]; after_results : W3 m ρ c (Proc.devRef .tc main_arg15) = W2 m ρ c (Proc.devRef .tc main_arg15)).trans (w2_arg15 m ρ c)
theorem w3_arg16 : W3 m ρ c (Proc.devRef .tc main_arg16) = (m ((c : Thread nD τ).loc main_arg16)) :=
  (by dsimp only [W3, hostOps1]; after_results : W3 m ρ c (Proc.devRef .tc main_arg16) = W2 m ρ c (Proc.devRef .tc main_arg16)).trans (w2_arg16 m ρ c)
theorem w3_arg17 : W3 m ρ c (Proc.devRef .tc main_arg17) = (m ((c : Thread nD τ).loc main_arg17)) :=
  (by dsimp only [W3, hostOps1]; after_results : W3 m ρ c (Proc.devRef .tc main_arg17) = W2 m ρ c (Proc.devRef .tc main_arg17)).trans (w2_arg17 m ρ c)
theorem w3_arg18 : W3 m ρ c (Proc.devRef .tc main_arg18) = (m ((c : Thread nD τ).loc main_arg18)) :=
  (by dsimp only [W3, hostOps1]; after_results : W3 m ρ c (Proc.devRef .tc main_arg18) = W2 m ρ c (Proc.devRef .tc main_arg18)).trans (w2_arg18 m ρ c)
theorem w3_arg20 : W3 m ρ c (Proc.devRef .tc main_arg20) = (m ((c : Thread nD τ).loc main_arg20)) :=
  (by dsimp only [W3, hostOps1]; after_results : W3 m ρ c (Proc.devRef .tc main_arg20) = W2 m ρ c (Proc.devRef .tc main_arg20)).trans (w2_arg20 m ρ c)
theorem w3_v3 : W3 m ρ c (Proc.devRef .tc main_v3) = rowsJ (m ((c : Thread nD τ).loc main_arg1)) :=
  (by dsimp only [W3, hostOps1]; after_results : W3 m ρ c (Proc.devRef .tc main_v3) = W2 m ρ c (Proc.devRef .tc main_v3)).trans (w2_v3 m ρ c)
theorem w3_v5 : W3 m ρ c (Proc.devRef .tc main_v5) = W2 m ρ c (Proc.devRef .tc main_v5) := by
  dsimp only [W3, hostOps1]; after_results
theorem w3_v13 : W3 m ρ c (Proc.devRef .tc main_v13)
    = (Host.gather gather_S50000x64_S800000x1_S800000x64_1_0_n_n_0_1_164
        (truncf (F := Ideal) .bf16 (W2 m ρ c (Proc.devRef .tc main_v5) : FVec Ideal S50000x64 .f32) bitsLt_bf16_f32)
        (gatherCol (rowsI (m ((c : Thread nD τ).loc main_arg1)))) : (⟨S800000x64, .bf16⟩ : BufTy).Contents (Elt Ideal)) := by
  rw [← w2_v1 m ρ c]
  dsimp only [W3, hostOps1]; after_results; rfl
theorem w3_v20 : W3 m ρ c (Proc.devRef .tc main_v20)
    = (Host.gather gather_S50000x64_S800000x1_S800000x64_1_0_n_n_0_1_164
        (truncf (F := Ideal) .bf16 (W2 m ρ c (Proc.devRef .tc main_v5) : FVec Ideal S50000x64 .f32) bitsLt_bf16_f32)
        (gatherCol (rowsJ (m ((c : Thread nD τ).loc main_arg1)))) : (⟨S800000x64, .bf16⟩ : BufTy).Contents (Elt Ideal)) := by
  rw [← w2_v3 m ρ c]
  dsimp only [W3, hostOps1]; after_results; rfl
theorem w3_v21 : W3 m ρ c (Proc.devRef .tc main_v21) = shapeCast S1x64 (m ((c : Thread nD τ).loc main_arg7)) shapeCasts_S64_S1x64 := by
  rw [← w2_arg7 m ρ c]
  dsimp only [W3, hostOps1]; after_results; rfl
theorem w3_v22 : W3 m ρ c (Proc.devRef .tc main_v22) = shapeCast S1x64 (m ((c : Thread nD τ).loc main_arg9)) shapeCasts_S64_S1x64 := by
  rw [← w2_arg9 m ρ c]
  dsimp only [W3, hostOps1]; after_results; rfl
theorem w3_v23 : W3 m ρ c (Proc.devRef .tc main_v23) = shapeCast S1x64 (m ((c : Thread nD τ).loc main_arg11)) shapeCasts_S64_S1x64 := by
  rw [← w2_arg11 m ρ c]
  dsimp only [W3, hostOps1]; after_results; rfl
theorem w3_v24 : W3 m ρ c (Proc.devRef .tc main_v24) = shapeCast S1x64 (m ((c : Thread nD τ).loc main_arg13)) shapeCasts_S64_S1x64 := by
  rw [← w2_arg13 m ρ c]
  dsimp only [W3, hostOps1]; after_results; rfl
theorem w3_v25 : W3 m ρ c (Proc.devRef .tc main_v25) = shapeCast S1x64 (m ((c : Thread nD τ).loc main_arg19)) shapeCasts_S64_S1x64 := by
  rw [← w2_arg19 m ρ c]
  dsimp only [W3, hostOps1]; after_results; rfl
theorem w3_v26 : W3 m ρ c (Proc.devRef .tc main_v26) = shapeCast S1x64 (m ((c : Thread nD τ).loc main_arg21)) shapeCasts_S64_S1x64 := by
  rw [← w2_arg21 m ρ c]
  dsimp only [W3, hostOps1]; after_results; rfl

/-! ## After the edge region: only its two output arrays changed -/

theorem w4_arg14 : W4 m ρ c (Proc.devRef .tc main_arg14) = (m ((c : Thread nD τ).loc main_arg14)) :=
  (W4_of_ne m ρ c main_arg14 (by decide)).trans (w3_arg14 m ρ c)
theorem w4_arg15 : W4 m ρ c (Proc.devRef .tc main_arg15) = (m ((c : Thread nD τ).loc main_arg15)) :=
  (W4_of_ne m ρ c main_arg15 (by decide)).trans (w3_arg15 m ρ c)
theorem w4_arg16 : W4 m ρ c (Proc.devRef .tc main_arg16) = (m ((c : Thread nD τ).loc main_arg16)) :=
  (W4_of_ne m ρ c main_arg16 (by decide)).trans (w3_arg16 m ρ c)
theorem w4_arg17 : W4 m ρ c (Proc.devRef .tc main_arg17) = (m ((c : Thread nD τ).loc main_arg17)) :=
  (W4_of_ne m ρ c main_arg17 (by decide)).trans (w3_arg17 m ρ c)
theorem w4_v3 : W4 m ρ c (Proc.devRef .tc main_v3) = rowsJ (m ((c : Thread nD τ).loc main_arg1)) := (W4_of_ne m ρ c main_v3 (by decide)).trans (w3_v3 m ρ c)
theorem w4_v5 : W4 m ρ c (Proc.devRef .tc main_v5) = W2 m ρ c (Proc.devRef .tc main_v5) := (W4_of_ne m ρ c main_v5 (by decide)).trans (w3_v5 m ρ c)

/-! ## After the third stretch -/

theorem w5_arg14 : W5 m ρ c (Proc.devRef .tc main_arg14) = (m ((c : Thread nD τ).loc main_arg14)) :=
  (by dsimp only [W5, hostOps2]; after_results : W5 m ρ c (Proc.devRef .tc main_arg14) = W4 m ρ c (Proc.devRef .tc main_arg14)).trans (w4_arg14 m ρ c)
theorem w5_arg16 : W5 m ρ c (Proc.devRef .tc main_arg16) = (m ((c : Thread nD τ).loc main_arg16)) :=
  (by dsimp only [W5, hostOps2]; after_results : W5 m ρ c (Proc.devRef .tc main_arg16) = W4 m ρ c (Proc.devRef .tc main_arg16)).trans (w4_arg16 m ρ c)
theorem w5_v5 : W5 m ρ c (Proc.devRef .tc main_v5) = W2 m ρ c (Proc.devRef .tc main_v5) :=
  (by dsimp only [W5, hostOps2]; after_results : W5 m ρ c (Proc.devRef .tc main_v5) = W4 m ρ c (Proc.devRef .tc main_v5)).trans (w4_v5 m ρ c)
theorem w5_v27_0 : W5 m ρ c (Proc.devRef .tc main_v27_0) = W4 m ρ c (Proc.devRef .tc main_v27_0) := by
  dsimp only [W5, hostOps2]; after_results
theorem w5_v36 : W5 m ρ c (Proc.devRef .tc main_v36) = shapeCast S1x64 (m ((c : Thread nD τ).loc main_arg15)) shapeCasts_S64_S1x64 := by
  rw [← w4_arg15 m ρ c]
  dsimp only [W5, hostOps2]; after_results; rfl
theorem w5_v37 : W5 m ρ c (Proc.devRef .tc main_v37) = shapeCast S1x64 (m ((c : Thread nD τ).loc main_arg17)) shapeCasts_S64_S1x64 := by
  rw [← w4_arg17 m ρ c]
  dsimp only [W5, hostOps2]; after_results; rfl

/-- The per-node sums of the 256 message numbers: a scatter-add from zero over the receiving ends. -/
def agg (col : (⟨S800000x1, .i32⟩ : BufTy).Contents (Elt Ideal)) (msg : (⟨S800000x256, .bf16⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) col
    (extf .f32 msg bitsLt_bf16_f32)

theorem w5_v32 : W5 m ρ c (Proc.devRef .tc main_v32)
    = extractStridedSlice S50000x64 ![0, 0] (agg (segCol (rowsJ (m ((c : Thread nD τ).loc main_arg1)))) (W4 m ρ c (Proc.devRef .tc main_v27_1))) slices_S50000x256_S50000x64_0_0 := by
  rw [← w4_v3 m ρ c]
  dsimp only [W5, hostOps2]; after_results; rfl
theorem w5_v35 : W5 m ρ c (Proc.devRef .tc main_v35)
    = transpose S50000x64x3 [0, 2, 1]
        (shapeCast S50000x3x64 (extractStridedSlice S50000x192 ![0, 64] (agg (segCol (rowsJ (m ((c : Thread nD τ).loc main_arg1)))) (W4 m ρ c (Proc.devRef .tc main_v27_1)))
          slices_S50000x256_S50000x192_0_64) shapeCasts_S50000x192_S50000x3x64) transposes_S50000x3x64_S50000x64x3_0_2_1 := by
  rw [← w4_v3 m ρ c]
  dsimp only [W5, hostOps2]; after_results; rfl

end Cert.KernelIdeal.KHost

end
-- ==== Proof.Spec.lean ====
/-
  The mathematics both programs compute, written once over coordinates.

  A graph network layer over 50000 nodes and 800000 directed edges (i → j).  Every node gets an embedding
  f_n = sp_n · Wa + ba (64 numbers).  Every edge e gets
    * an embedded attribute  ea_e = mlp(attr_e; Wb1, bb1, Wb2, bb2)              (a dense layer, x·σ(x), a dense layer),
    * the row  E_e = [ f_{i(e)} | f_{j(e)} | ea_e ]  of 192 numbers,
    * a scalar message  ms_e = mlp(E_e; Ws1, bs1, Ws2, bs2) ⊙ f_{i(e)}  and a vector weight  mv_e = mlp(E_e; Wv1, …).
  Node n collects  aggs_n = ∑_{e : seg(e) = n} ms_e  and  v0_{n,d,k} = ∑_{e : seg(e) = n} vec_{e,k} · mv_{e,d},
  and ends with  h0_n = mlp([ f_n | aggs_n ]; Wh1, bh1, Wh2, bh2).
  The three results are h0, v0 and ea.  All sums are finite sums of extended reals.
-/
import Idealize.ShloMosaic.PureOps.Ideal
import Mathlib.Algebra.BigOperators.Fin

noncomputable section

open scoped BigOperators

namespace Cert.Spec

open Idealize.ShloMosaic

/-- x · σ(x), σ the logistic function. -/
def silu (x : EReal) : EReal := x * Ideal.logistic x

/-- One dense layer on a row: entry c of x · W + b. -/
def dense {k n : Nat} (x : Fin k → EReal) (W : Fin k → Fin n → EReal) (b : Fin n → EReal) (c : Fin n) : EReal :=
  (∑ q, x q * W q c) + b c

/-- A dense layer, x · σ(x) entry by entry, a dense layer. -/
def mlp {k h n : Nat} (x : Fin k → EReal) (W1 : Fin k → Fin h → EReal) (b1 : Fin h → EReal)
    (W2 : Fin h → Fin n → EReal) (b2 : Fin n → EReal) (c : Fin n) : EReal :=
  dense (fun q => silu (dense x W1 b1 q)) W2 b2 c

/-- Two rows of 64 numbers side by side. -/
def cat2 (x y : Fin 64 → EReal) (k : Fin 128) : EReal :=
  if h : k.val < 64 then x ⟨k.val, h⟩ else y ⟨k.val - 64, by have := k.isLt; omega⟩

/-- Three rows of 64 numbers side by side. -/
def cat3 (x y z : Fin 64 → EReal) (k : Fin 192) : EReal :=
  if h : k.val < 64 then x ⟨k.val, h⟩
  else if h2 : k.val < 128 then y ⟨k.val - 64, by omega⟩ else z ⟨k.val - 128, by have := k.isLt; omega⟩

/-- The first layer on a row of three parts, each part against its own 64 rows of the weight, the three partial products
    added left to right and the bias last. -/
def dense3 {n : Nat} (x y z : Fin 64 → EReal) (W : Fin 192 → Fin n → EReal) (b : Fin n → EReal) (c : Fin n) : EReal :=
  (((∑ q : Fin 64, x q * W ⟨q.val, by have := q.isLt; omega⟩ c) + ∑ q : Fin 64, y q * W ⟨64 + q.val, by have := q.isLt; omega⟩ c)
    + ∑ q : Fin 64, z q * W ⟨128 + q.val, by have := q.isLt; omega⟩ c) + b c

/-- A sum over 192 terms is the sum of its three runs of 64. -/
theorem sum192 (f : Fin 192 → EReal) :
    ∑ k, f k = ((∑ q : Fin 64, f ⟨q.val, by have := q.isLt; omega⟩) + ∑ q : Fin 64, f ⟨64 + q.val, by have := q.isLt; omega⟩)
      + ∑ q : Fin 64, f ⟨128 + q.val, by have := q.isLt; omega⟩ := by
  have e0 : ∑ k, f k = ∑ i : Fin (128 + 64), f (Fin.cast (by norm_num) i) :=
    (Fintype.sum_equiv (finCongr (by norm_num : 128 + 64 = 192)) _ _ (fun i => rfl)).symm
  have h1 : ∑ i : Fin (128 + 64), f (Fin.cast (by norm_num) i)
      = ∑ i : Fin 128, f (Fin.cast (by norm_num) (Fin.castAdd 64 i)) + ∑ i : Fin 64, f (Fin.cast (by norm_num) (Fin.natAdd 128 i)) :=
    Fin.sum_univ_add _
  have e1 : ∑ i : Fin 128, f (Fin.cast (by norm_num : 128 + 64 = 192) (Fin.castAdd 64 i))
      = ∑ i : Fin (64 + 64), f (Fin.cast (by norm_num : 128 + 64 = 192) (Fin.castAdd 64 (Fin.cast (by norm_num : 64 + 64 = 128) i))) :=
    (Fintype.sum_equiv (finCongr (by norm_num : 64 + 64 = 128)) _ _ (fun i => rfl)).symm
  have h2 : ∑ i : Fin (64 + 64), f (Fin.cast (by norm_num : 128 + 64 = 192) (Fin.castAdd 64 (Fin.cast (by norm_num : 64 + 64 = 128) i)))
      = ∑ i : Fin 64, f (Fin.cast (by norm_num : 128 + 64 = 192) (Fin.castAdd 64 (Fin.cast (by norm_num : 64 + 64 = 128) (Fin.castAdd 64 i))))
        + ∑ i : Fin 64, f (Fin.cast (by norm_num : 128 + 64 = 192) (Fin.castAdd 64 (Fin.cast (by norm_num : 64 + 64 = 128) (Fin.natAdd 64 i)))) :=
    Fin.sum_univ_add _
  rw [e0, h1, e1, h2]
  rfl

/-- The split first layer is the dense layer on the three parts laid side by side: the sum over the 192 inputs is the
    sum of its three runs, and on each run the joined row is one of the parts. -/
theorem dense_cat3 {n : Nat} (x y z : Fin 64 → EReal) (W : Fin 192 → Fin n → EReal) (b : Fin n → EReal) (c : Fin n) :
    dense (cat3 x y z) W b c = dense3 x y z W b c := by
  unfold dense dense3
  rw [sum192]
  refine congrArg (· + b c) ?_
  refine congrArg₂ (· + ·) (congrArg₂ (· + ·) ?_ ?_) ?_
  · refine Finset.sum_congr rfl fun q _ => ?_
    have hq := q.isLt
    simp only [cat3, dif_pos hq]
  · refine Finset.sum_congr rfl fun q _ => ?_
    have hq := q.isLt
    have h1 : ¬ (64 + q.val < 64) := by omega
    have h2 : 64 + q.val < 128 := by omega
    simp only [cat3, dif_neg h1, dif_pos h2]
    congr 2
    exact Fin.ext (by show 64 + q.val - 64 = q.val; omega)
  · refine Finset.sum_congr rfl fun q _ => ?_
    have hq := q.isLt
    have h1 : ¬ (128 + q.val < 64) := by omega
    have h2 : ¬ (128 + q.val < 128) := by omega
    simp only [cat3, dif_neg h1, dif_neg h2]
    congr 2
    exact Fin.ext (by show 128 + q.val - 128 = q.val; omega)

/-- The inputs, by coordinates: the arrays' entries, the node each edge reads as i(e) and as j(e), and the segment
    (a signed integer) each edge's messages are added to. -/
structure Inputs where
  sp : Fin 50000 → Fin 5 → EReal
  attr : Fin 800000 → Fin 16 → EReal
  vec : Fin 800000 → Fin 3 → EReal
  Wa : Fin 5 → Fin 64 → EReal
  ba : Fin 64 → EReal
  Wb1 : Fin 16 → Fin 64 → EReal
  bb1 : Fin 64 → EReal
  Wb2 : Fin 64 → Fin 64 → EReal
  bb2 : Fin 64 → EReal
  Ws1 : Fin 192 → Fin 64 → EReal
  bs1 : Fin 64 → EReal
  Ws2 : Fin 64 → Fin 64 → EReal
  bs2 : Fin 64 → EReal
  Wh1 : Fin 128 → Fin 64 → EReal
  bh1 : Fin 64 → EReal
  Wh2 : Fin 64 → Fin 64 → EReal
  bh2 : Fin 64 → EReal
  Wv1 : Fin 192 → Fin 64 → EReal
  bv1 : Fin 64 → EReal
  Wv2 : Fin 64 → Fin 64 → EReal
  bv2 : Fin 64 → EReal
  rowI : Fin 800000 → Fin 50000
  rowJ : Fin 800000 → Fin 50000
  seg : Fin 800000 → Int

variable (I : Inputs)

/-- Node embedding. -/
def F (n : Fin 50000) : Fin 64 → EReal := dense (I.sp n) I.Wa I.ba
/-- Embedded edge attribute: the third result. -/
def EA (e : Fin 800000) : Fin 64 → EReal := mlp (I.attr e) I.Wb1 I.bb1 I.Wb2 I.bb2
/-- The 192 inputs of an edge's two message networks. -/
def E (e : Fin 800000) : Fin 192 → EReal := cat3 (F I (I.rowI e)) (F I (I.rowJ e)) (EA I e)
/-- Scalar message. -/
def MS (e : Fin 800000) (d : Fin 64) : EReal := mlp (E I e) I.Ws1 I.bs1 I.Ws2 I.bs2 d * F I (I.rowI e) d
/-- Vector message weight. -/
def MV (e : Fin 800000) : Fin 64 → EReal := mlp (E I e) I.Wv1 I.bv1 I.Wv2 I.bv2
/-- The scalar messages collected at a node. -/
def AGGS (n : Fin 50000) (d : Fin 64) : EReal :=
  ∑ e ∈ Finset.univ.filter (fun e : Fin 800000 => I.seg e = (n.val : Int)), MS I e d
/-- The first result. -/
def H0 (n : Fin 50000) : Fin 64 → EReal := mlp (cat2 (F I n) (AGGS I n)) I.Wh1 I.bh1 I.Wh2 I.bh2
/-- The second result. -/
def V0 (n : Fin 50000) (d : Fin 64) (k : Fin 3) : EReal :=
  ∑ e ∈ Finset.univ.filter (fun e : Fin 800000 => I.seg e = (n.val : Int)), I.vec e k * MV I e d

end Cert.Spec

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«174115_j6777458393829_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.KernelPay.lean ====
/-
  What each kernel body computes on its blocks, entry by entry, at the ideal values.

  All three bodies are row-local: row p of an output block depends on row p of the row-blocked inputs and on the whole
  weight matrices and bias rows.  A matrix product into the zero accumulator is the inner product of a row with a column;
  a bias row is added to every row; a change of float format is the identity; the logistic gate x · σ(x) acts entry by
  entry.  So the node-embedding body is one dense layer, the edge body's first output is the two-layer network on the
  edge's attribute row, its second output lays side by side the scalar message (the two-layer network on the three
  64-wide parts, first layer as three partial products, times the first part) and the three vector messages (an
  edge-vector coordinate times the second network's row), and the node-update body is the two-layer network on the
  node's two 64-wide parts laid side by side.
-/
import proofs.«174115_j6777458393829_2_alg».proof.Proof.Gen.KernelIdeal.Skeleton
import proofs.«174115_j6777458393829_2_alg».proof.Proof.Spec
import proofs.«174115_j6777458393829_2_alg».proof.Proof.LibMatmulPlain
import proofs.«174115_j6777458393829_2_alg».proof.Proof.LibRows
import proofs.«174115_j6777458393829_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KPay

open Cert.KernelIdeal Cert.KernelIdeal.Gen Idealize.ShloMosaic Idealize.ShloMosaic.ValueIdx Cert.Spec

/-! ## Generic layers -/

/-- A dense layer as a kernel spells it — product into the zero accumulator plus the bias row broadcast down the rows —
    at an entry. -/
theorem kdense {m k n : Nat} {φ₁ φ₂ : FTy} (dd : DotDims ⟨2, ![m, k]⟩ ⟨2, ![k, n]⟩ ⟨2, ![m, n]⟩)
    (hdd : dd = DotDims.plain m k n) (A : FVec Ideal ⟨2, ![m, k]⟩ φ₁) (B : FVec Ideal ⟨2, ![k, n]⟩ φ₂)
    (b : FVec Ideal ⟨2, ![1, n]⟩ .f32) (h1 : (⟨2, ![1, n]⟩ : Shape).ShapeCasts ⟨2, ![1, n]⟩)
    (hb : (⟨2, ![1, n]⟩ : Shape).Broadcasts ⟨2, ![m, n]⟩) (r : Fin m) (c : Fin n) :
    addf (matmul dd none A B (constant (F := Ideal) ⟨2, ![m, n]⟩ .f32 0x00000000#32))
        (broadcastTo ⟨2, ![m, n]⟩ (shapeCast ⟨2, ![1, n]⟩ b h1) hb) (ix2 r c)
      = dense (fun q => A (ix2 r q)) (fun q c => B (ix2 q c)) (fun c => b (ix2 (0 : Fin 1) c)) c := by
  subst hdd
  rw [addf_apply, LibMatmulPlain.matmul_plain_zero_apply, broadcastTo_1b_ab_apply, shapeCast_self]
  rfl

/-- Two dense layers with the logistic gate between them, as a kernel spells them, at an entry. -/
theorem kmlp {m k h n : Nat} {φ₁ φ₂ φ₃ : FTy}
    (dd1 : DotDims ⟨2, ![m, k]⟩ ⟨2, ![k, h]⟩ ⟨2, ![m, h]⟩) (hdd1 : dd1 = DotDims.plain m k h)
    (dd2 : DotDims ⟨2, ![m, h]⟩ ⟨2, ![h, n]⟩ ⟨2, ![m, n]⟩) (hdd2 : dd2 = DotDims.plain m h n)
    (A : FVec Ideal ⟨2, ![m, k]⟩ φ₁) (W1 : FVec Ideal ⟨2, ![k, h]⟩ φ₂) (b1 : FVec Ideal ⟨2, ![1, h]⟩ .f32)
    (W2 : FVec Ideal ⟨2, ![h, n]⟩ φ₃) (b2 : FVec Ideal ⟨2, ![1, n]⟩ .f32)
    (hs1 : (⟨2, ![1, h]⟩ : Shape).ShapeCasts ⟨2, ![1, h]⟩) (hb1 : (⟨2, ![1, h]⟩ : Shape).Broadcasts ⟨2, ![m, h]⟩)
    (hs2 : (⟨2, ![1, n]⟩ : Shape).ShapeCasts ⟨2, ![1, n]⟩) (hb2 : (⟨2, ![1, n]⟩ : Shape).Broadcasts ⟨2, ![m, n]⟩)
    (hlt : FTy.bf16.bits < FTy.f32.bits) (r : Fin m) (c : Fin n) :
    addf (matmul dd2 none
          (truncf .bf16
            (mulf (addf (matmul dd1 none A W1 (constant (F := Ideal) ⟨2, ![m, h]⟩ .f32 0x00000000#32))
                    (broadcastTo ⟨2, ![m, h]⟩ (shapeCast ⟨2, ![1, h]⟩ b1 hs1) hb1))
              (logistic (addf (matmul dd1 none A W1 (constant (F := Ideal) ⟨2, ![m, h]⟩ .f32 0x00000000#32))
                    (broadcastTo ⟨2, ![m, h]⟩ (shapeCast ⟨2, ![1, h]⟩ b1 hs1) hb1)))) hlt)
          W2 (constant (F := Ideal) ⟨2, ![m, n]⟩ .f32 0x00000000#32))
        (broadcastTo ⟨2, ![m, n]⟩ (shapeCast ⟨2, ![1, n]⟩ b2 hs2) hb2) (ix2 r c)
      = mlp (fun q => A (ix2 r q)) (fun q c => W1 (ix2 q c)) (fun c => b1 (ix2 (0 : Fin 1) c))
          (fun q c => W2 (ix2 q c)) (fun c => b2 (ix2 (0 : Fin 1) c)) c := by
  refine (kdense dd2 hdd2 _ W2 b2 hs2 hb2 r c).trans ?_
  unfold mlp
  refine congrArg (fun x => dense x (fun q c => W2 (ix2 q c)) (fun c => b2 (ix2 (0 : Fin 1) c)) c) (funext fun q => ?_)
  exact congrArg silu (kdense dd1 hdd1 A W1 b1 hs1 hb1 r q)

/-- A first layer on three 64-wide parts, each against its own matrix, the partial products added left to right. -/
def dense3r {n : Nat} (x y z : Fin 64 → EReal) (W1 W2 W3 : Fin 64 → Fin n → EReal) (b : Fin n → EReal) (c : Fin n) : EReal :=
  (((∑ q, x q * W1 q c) + ∑ q, y q * W2 q c) + ∑ q, z q * W3 q c) + b c

/-- Three products into zero accumulators added left to right, plus the bias row, at an entry. -/
theorem kdense3 {m n : Nat} {φ₁ φ₂ φ₃ ψ₁ ψ₂ ψ₃ : FTy} (dd : DotDims ⟨2, ![m, 64]⟩ ⟨2, ![64, n]⟩ ⟨2, ![m, n]⟩)
    (hdd : dd = DotDims.plain m 64 n)
    (A1 : FVec Ideal ⟨2, ![m, 64]⟩ φ₁) (A2 : FVec Ideal ⟨2, ![m, 64]⟩ φ₂) (A3 : FVec Ideal ⟨2, ![m, 64]⟩ φ₃)
    (B1 : FVec Ideal ⟨2, ![64, n]⟩ ψ₁) (B2 : FVec Ideal ⟨2, ![64, n]⟩ ψ₂) (B3 : FVec Ideal ⟨2, ![64, n]⟩ ψ₃)
    (b : FVec Ideal ⟨2, ![1, n]⟩ .f32) (h1 : (⟨2, ![1, n]⟩ : Shape).ShapeCasts ⟨2, ![1, n]⟩)
    (hb : (⟨2, ![1, n]⟩ : Shape).Broadcasts ⟨2, ![m, n]⟩) (r : Fin m) (c : Fin n) :
    addf (addf (addf (matmul dd none A1 B1 (constant (F := Ideal) ⟨2, ![m, n]⟩ .f32 0x00000000#32))
                (matmul dd none A2 B2 (constant (F := Ideal) ⟨2, ![m, n]⟩ .f32 0x00000000#32)))
            (matmul dd none A3 B3 (constant (F := Ideal) ⟨2, ![m, n]⟩ .f32 0x00000000#32)))
        (broadcastTo ⟨2, ![m, n]⟩ (shapeCast ⟨2, ![1, n]⟩ b h1) hb) (ix2 r c)
      = dense3r (fun q => A1 (ix2 r q)) (fun q => A2 (ix2 r q)) (fun q => A3 (ix2 r q))
          (fun q c => B1 (ix2 q c)) (fun q c => B2 (ix2 q c)) (fun q c => B3 (ix2 q c)) (fun c => b (ix2 (0 : Fin 1) c)) c := by
  subst hdd
  rw [addf_apply, addf_apply, addf_apply, LibMatmulPlain.matmul_plain_zero_apply, LibMatmulPlain.matmul_plain_zero_apply,
    LibMatmulPlain.matmul_plain_zero_apply, broadcastTo_1b_ab_apply, shapeCast_self]
  rfl

/-! ## The node-embedding body -/

/-- Row p, column c of the node-embedding block: one dense layer on row p. -/
theorem pay0 (x0 : Vec Ideal S5000x5 .f32) (x1 : Vec Ideal S5x64 .f32) (x2 : Vec Ideal S1x64 .f32) (p : Fin 5000) (c : Fin 64) :
    k0_pay1 x0 x1 x2 (ix2 p c)
      = dense (fun q => x0 (ix2 p q)) (fun q c => x1 (ix2 q c)) (fun c => x2 (ix2 (0 : Fin 1) c)) c :=
  kdense dot_S5000x5_S5x64_S5000x64_1_0_0_1_n_n rfl (truncf .bf16 x0 bitsLt_bf16_f32) (truncf .bf16 x1 bitsLt_bf16_f32) x2
    shapeCasts_S1x64_S1x64 broadcasts_S1x64_S5000x64 p c

/-! ## The edge body -/

/-- The edge body's first output, row p: the two-layer network on the attribute row. -/
theorem pay_ea (x0 : Vec Ideal S3200x16 .f32) (w1 : Vec Ideal S16x64 .f32) (b1 : Vec Ideal S1x64 .f32)
    (w2 : Vec Ideal S64x64 .f32) (b2 : Vec Ideal S1x64 .f32) (p : Fin 3200) (c : Fin 64) :
    k1_pay4 x0 w1 b1 w2 b2 (ix2 p c)
      = mlp (fun q => x0 (ix2 p q)) (fun q c => w1 (ix2 q c)) (fun c => b1 (ix2 (0 : Fin 1) c))
          (fun q c => w2 (ix2 q c)) (fun c => b2 (ix2 (0 : Fin 1) c)) c :=
  kmlp dot_S3200x16_S16x64_S3200x64_1_0_0_1_n_n rfl dot_S3200x64_S64x64_S3200x64_1_0_0_1_n_n rfl
    (truncf .bf16 x0 bitsLt_bf16_f32) (truncf .bf16 w1 bitsLt_bf16_f32) b1 (truncf .bf16 w2 bitsLt_bf16_f32) b2
    shapeCasts_S1x64_S1x64 broadcasts_S1x64_S3200x64 shapeCasts_S1x64_S1x64 broadcasts_S1x64_S3200x64 bitsLt_bf16_f32 p c

/-- The scalar message, row p: the network on the three parts (first layer as three partial products), times the first
    part. -/
theorem pay_ms (ea : FVec Ideal S3200x64 .f32) (a1 a2 : Vec Ideal S3200x64 .bf16) (w6 w7 w8 : Vec Ideal S64x64 .f32)
    (b9 : Vec Ideal S1x64 .f32) (w10 : Vec Ideal S64x64 .f32) (b11 : Vec Ideal S1x64 .f32) (p : Fin 3200) (c : Fin 64) :
    k1_pay9 ea (k1_pay5 a1) (k1_pay6 w8) (k1_pay7 a1 w6) (k1_pay8 a2 w7) b9 w10 b11 (ix2 p c)
      = dense (fun q => silu (dense3r (fun k => a1 (ix2 p k)) (fun k => a2 (ix2 p k)) (fun k => ea (ix2 p k))
            (fun k c => w6 (ix2 k c)) (fun k c => w7 (ix2 k c)) (fun k c => w8 (ix2 k c)) (fun c => b9 (ix2 (0 : Fin 1) c)) q))
          (fun q c => w10 (ix2 q c)) (fun c => b11 (ix2 (0 : Fin 1) c)) c * a1 (ix2 p c) := by
  unfold k1_pay9 k1_pay5 k1_pay6 k1_pay7 k1_pay8 k1_pay2 k1_pay3
  rw [mulf_apply]
  refine congrArg₂ (· * ·) ?_ ?_
  · refine (kdense dot_S3200x64_S64x64_S3200x64_1_0_0_1_n_n rfl _ (truncf .bf16 w10 bitsLt_bf16_f32) b11
      shapeCasts_S1x64_S1x64 broadcasts_S1x64_S3200x64 p c).trans ?_
    refine congrArg (fun x => dense x (fun q c => w10 (ix2 q c)) (fun c => b11 (ix2 (0 : Fin 1) c)) c) (funext fun q => ?_)
    refine congrArg silu ?_
    refine (kdense3 dot_S3200x64_S64x64_S3200x64_1_0_0_1_n_n rfl
      (shapeCast S3200x64 a1 shapeCasts_S3200x64_S3200x64) (shapeCast S3200x64 a2 shapeCasts_S3200x64_S3200x64)
      (truncf .bf16 ea bitsLt_bf16_f32) (truncf .bf16 w6 bitsLt_bf16_f32) (truncf .bf16 w7 bitsLt_bf16_f32)
      (truncf .bf16 w8 bitsLt_bf16_f32) b9 shapeCasts_S1x64_S1x64 broadcasts_S1x64_S3200x64 p q).trans ?_
    simp only [shapeCast_self]
    rfl
  · show shapeCast S3200x64 a1 shapeCasts_S3200x64_S3200x64 (ix2 p c) = a1 (ix2 p c)
    rw [shapeCast_self]

/-- A cast of a block to its own shape changes nothing. -/
theorem pay2_eq (x : Vec Ideal S3200x64 .bf16) : k1_pay2 x = x := shapeCast_self _ _
theorem pay3_eq (x : Vec Ideal S3200x64 .bf16) : k1_pay3 x = x := shapeCast_self _ _

/-- The gated first stage of the vector network, row p. -/
theorem pay_mvh (a1 a2 : FVec Ideal S3200x64 .bf16) (ea : FVec Ideal S3200x64 .f32) (w6 w7 w8 : Vec Ideal S64x64 .f32)
    (b13 : Vec Ideal S1x64 .f32) (p : Fin 3200) (q : Fin 64) :
    k1_pay10 a1 a2 ea w6 w7 w8 b13 (ix2 p q)
      = silu (dense3r (fun k => a1 (ix2 p k)) (fun k => a2 (ix2 p k)) (fun k => ea (ix2 p k))
            (fun k c => w6 (ix2 k c)) (fun k c => w7 (ix2 k c)) (fun k c => w8 (ix2 k c)) (fun c => b13 (ix2 (0 : Fin 1) c)) q) := by
  unfold k1_pay10
  refine congrArg silu ?_
  exact kdense3 dot_S3200x64_S64x64_S3200x64_1_0_0_1_n_n rfl a1 a2
    (truncf .bf16 ea bitsLt_bf16_f32) (truncf .bf16 w6 bitsLt_bf16_f32) (truncf .bf16 w7 bitsLt_bf16_f32)
    (truncf .bf16 w8 bitsLt_bf16_f32) b13 shapeCasts_S1x64_S1x64 broadcasts_S1x64_S3200x64 p q

end Cert.KernelIdeal.KPay

end
-- ==== Proof.KernelBlocks0.lean ====
/-
  The node-embedding region, block by block and then as one array.

  The region's output array [50000, 64] is written in ten row blocks of 5000 rows; grid point t writes rows
  5000·t … 5000·t + 4999 from the same rows of the node-feature array and the whole weight and bias-row arrays.  Every
  row lies in exactly one block, so after the region the array holds, at (n, d), the dense layer on row n.
-/
import proofs.«174115_j6777458393829_2_alg».proof.Proof.Gen.KernelIdeal.Frame
import proofs.«174115_j6777458393829_2_alg».proof.Proof.KernelPay
import Idealize.ShloMosaic.Lib.Pipeline.Value
import Idealize.ShloMosaic.Lib.ValueIdx

set_option maxRecDepth 16384

noncomputable section

open scoped BigOperators

namespace Cert.KernelIdeal.KBlocks0

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as a function of the arrays the region reads: at (n, d) the dense layer on row n. -/
def G (a0 : S50000x5.Idx → EReal) (a1 : S5x64.Idx → EReal) (a2 : S1x64.Idx → EReal) : S50000x64.Idx → EReal :=
  fun i => dense (fun q => a0 (ix2 (⟨(i 0).val, (i 0).isLt⟩ : Fin 50000) q)) (fun q c => a1 (ix2 q c))
    (fun c => a2 (ix2 (0 : Fin 1) c)) (⟨(i 1).val, (i 1).isLt⟩ : Fin 64)

/-- The printed index maps over the ten grid points: the row-blocked windows move together, block t at point t; the
    weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of G of the arrays as the region finds them. -/
theorem flushed_eq (c : Dev nD) (t : Fin cfg0.N) :
    (dat0 V c).flushed 3 t
      = ((cfg0.win 3).blk t).view.read (Elt Ideal) (G (V c main_arg0) (V c main_arg4) (V c main_v4)) := by
  show (cfg0.win 3).cut (grid0.coords t) ((dat0 V c).after 3 t) = _
  rw [after0_3]
  unfold out0_3
  rw [View.canon_unit_zero hz]
  simp only [View.ld_unit_zero (S := S5000x5) hz, View.ld_unit_zero (S := S5x64) hz, View.ld_unit_zero (S := S1x64) hz]
  obtain ⟨e0, e1, e2, e3, e4, e5, e6, e7⟩ := idx_facts t
  have ht : t.val < 10 := t.isLt
  funext j
  obtain ⟨p, q, rfl⟩ : ∃ (p : Fin 5000) (q : Fin 64), j = ix2 p q := ⟨j 0, j 1, eq_ix2 j⟩
  refine (KPay.pay0 (iblk0 V c 0 t) (iblk0 V c 1 t) (iblk0 V c 2 t) p q).trans ?_
  have hp := p.isLt
  have hq := q.isLt
  have hrow : ∀ k : Fin 5, ((cfg0.win 0).blk t).view.emb (ix2 p k)
      = ix2 (⟨t.val * 5000 + p.val, by omega⟩ : Fin 50000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 5 + 1 * k.val = k.val; omega
  have hw : ∀ (k : Fin 5) (d : Fin 64), ((cfg0.win 1).blk t).view.emb (ix2 k d) = ix2 k d := by
    intro k d; funext a; apply Fin.ext
    match a with
    | ⟨0, _⟩ => show win0_1.index t (0 : Fin 2) * 5 + 1 * k.val = k.val; omega
    | ⟨1, _⟩ => show win0_1.index t (1 : Fin 2) * 64 + 1 * d.val = d.val; omega
  have hb : ∀ d : Fin 64, ((cfg0.win 2).blk t).view.emb (ix2 (0 : Fin 1) d) = ix2 (0 : Fin 1) d := by
    intro d; funext a; apply Fin.ext
    match a with
    | ⟨0, _⟩ => show win0_2.index t (0 : Fin 2) * 1 + 1 * 0 = 0; omega
    | ⟨1, _⟩ => show win0_2.index t (1 : Fin 2) * 64 + 1 * d.val = d.val; omega
  have ho : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show dense (fun k => V c main_arg0 (((cfg0.win 0).blk t).view.emb (ix2 p k)))
      (fun k d => V c main_arg4 (((cfg0.win 1).blk t).view.emb (ix2 k d)))
      (fun d => V c main_v4 (((cfg0.win 2).blk t).view.emb (ix2 (0 : Fin 1) d))) q
    = G (V c main_arg0) (V c main_arg4) (V c main_v4) (((cfg0.win 3).blk t).view.emb (ix2 p q))
  rw [ho]
  simp only [hrow, hw, hb]
  rfl

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Every row lies in the block of the point numbered by the row's quotient by 5000. -/
theorem cover (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  let t : Fin cfg0.N := ⟨(i 0).val / 5000, by show (i 0).val / 5000 < 10; omega⟩
  obtain ⟨e0, e1, e2, e3, e4, e5, e6, e7⟩ := idx_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array after the region. -/
theorem final (c : Dev nD) :
    (dat0 V c).arrAt 3 cfg0.N = G (V c main_arg0) (V c main_arg4) (V c main_v4) :=
  (dat0 V c).arrAt_eq_of_cover 3 _ (fun t _ => flushed_eq V c t) cover

end Cert.KernelIdeal.KBlocks0

end
-- ==== Proof.KernelPay2.lean ====
/-
  The two bodies that lay pieces side by side, entry by entry at the ideal values.

  The edge body's second output is a row of 256 numbers: columns 0…63 are the scalar message; columns 64 + 64·k + d
  (k = 0, 1, 2) are coordinate k of the edge vector, broadcast along the row, times entry d of the second network's row.
  The node-update body joins the node's embedding row and its collected scalar messages into 128 numbers and applies the
  two-layer network.
-/
import proofs.«174115_j6777458393829_2_alg».proof.Proof.KernelPay

set_option maxRecDepth 16384

noncomputable section

open scoped BigOperators

namespace Cert.KernelIdeal.KPay

open Cert.KernelIdeal Cert.KernelIdeal.Gen Idealize.ShloMosaic Idealize.ShloMosaic.ValueIdx Cert.Spec

/-- Four blocks of 64 columns side by side: columns 0…63 read piece 0. -/
theorem cat4_0 (y0 y1 y2 y3 : S3200x64.Idx → EReal) (p : Fin 3200) (d : Fin 64) :
    concatenate S3200x256 1 [⟨S3200x64, y0⟩, ⟨S3200x64, y1⟩, ⟨S3200x64, y2⟩, ⟨S3200x64, y3⟩]
        concatenates_S3200x64_S3200x64_S3200x64_S3200x64_S3200x256_d1 (ix2 p (⟨d.val, by have := d.isLt; omega⟩ : Fin 256))
      = y0 (ix2 p d) := by
  refine concatenate_apply_piece (t := S3200x256) (1 : Fin 2) [⟨S3200x64, y0⟩, ⟨S3200x64, y1⟩, ⟨S3200x64, y2⟩, ⟨S3200x64, y3⟩]
    concatenates_S3200x64_S3200x64_S3200x64_S3200x64_S3200x256_d1 _ 0 (by show (0 : Nat) < 4; decide) S3200x64 y0 rfl rfl 0 rfl (ix2 p d)
    (fun b hb => ?_) ?_
  · match b with
    | ⟨0, _⟩ => rfl
    | ⟨1, _⟩ => exact absurd rfl hb
  · show 0 + d.val = d.val; omega

/-- Four blocks of 64 columns side by side: columns 64…127 read piece 1. -/
theorem cat4_1 (y0 y1 y2 y3 : S3200x64.Idx → EReal) (p : Fin 3200) (d : Fin 64) :
    concatenate S3200x256 1 [⟨S3200x64, y0⟩, ⟨S3200x64, y1⟩, ⟨S3200x64, y2⟩, ⟨S3200x64, y3⟩]
        concatenates_S3200x64_S3200x64_S3200x64_S3200x64_S3200x256_d1 (ix2 p (⟨64 + d.val, by have := d.isLt; omega⟩ : Fin 256))
      = y1 (ix2 p d) := by
  refine concatenate_apply_piece (t := S3200x256) (1 : Fin 2) [⟨S3200x64, y0⟩, ⟨S3200x64, y1⟩, ⟨S3200x64, y2⟩, ⟨S3200x64, y3⟩]
    concatenates_S3200x64_S3200x64_S3200x64_S3200x64_S3200x256_d1 _ 1 (by show (1 : Nat) < 4; decide) S3200x64 y1 rfl rfl 64 rfl (ix2 p d)
    (fun b hb => ?_) ?_
  · match b with
    | ⟨0, _⟩ => rfl
    | ⟨1, _⟩ => exact absurd rfl hb
  · show 64 + d.val = 64 + d.val; rfl

/-- Four blocks of 64 columns side by side: columns 128…191 read piece 2. -/
theorem cat4_2 (y0 y1 y2 y3 : S3200x64.Idx → EReal) (p : Fin 3200) (d : Fin 64) :
    concatenate S3200x256 1 [⟨S3200x64, y0⟩, ⟨S3200x64, y1⟩, ⟨S3200x64, y2⟩, ⟨S3200x64, y3⟩]
        concatenates_S3200x64_S3200x64_S3200x64_S3200x64_S3200x256_d1 (ix2 p (⟨128 + d.val, by have := d.isLt; omega⟩ : Fin 256))
      = y2 (ix2 p d) := by
  refine concatenate_apply_piece (t := S3200x256) (1 : Fin 2) [⟨S3200x64, y0⟩, ⟨S3200x64, y1⟩, ⟨S3200x64, y2⟩, ⟨S3200x64, y3⟩]
    concatenates_S3200x64_S3200x64_S3200x64_S3200x64_S3200x256_d1 _ 2 (by show (2 : Nat) < 4; decide) S3200x64 y2 rfl rfl 128 rfl (ix2 p d)
    (fun b hb => ?_) ?_
  · match b with
    | ⟨0, _⟩ => rfl
    | ⟨1, _⟩ => exact absurd rfl hb
  · show 128 + d.val = 128 + d.val; rfl

/-- Four blocks of 64 columns side by side: columns 192…255 read piece 3. -/
theorem cat4_3 (y0 y1 y2 y3 : S3200x64.Idx → EReal) (p : Fin 3200) (d : Fin 64) :
    concatenate S3200x256 1 [⟨S3200x64, y0⟩, ⟨S3200x64, y1⟩, ⟨S3200x64, y2⟩, ⟨S3200x64, y3⟩]
        concatenates_S3200x64_S3200x64_S3200x64_S3200x64_S3200x256_d1 (ix2 p (⟨192 + d.val, by have := d.isLt; omega⟩ : Fin 256))
      = y3 (ix2 p d) := by
  refine concatenate_apply_piece (t := S3200x256) (1 : Fin 2) [⟨S3200x64, y0⟩, ⟨S3200x64, y1⟩, ⟨S3200x64, y2⟩, ⟨S3200x64, y3⟩]
    concatenates_S3200x64_S3200x64_S3200x64_S3200x64_S3200x256_d1 _ 3 (by show (3 : Nat) < 4; decide) S3200x64 y3 rfl rfl 192 rfl (ix2 p d)
    (fun b hb => ?_) ?_
  · match b with
    | ⟨0, _⟩ => rfl
    | ⟨1, _⟩ => exact absurd rfl hb
  · show 192 + d.val = 192 + d.val; rfl

/-- Columns 0…63 of the joined message row: the first piece. -/
theorem pay_msg_s (ev : Vec Ideal S3200x3 .f32) (sv : FVec Ideal S3200x64 .f32) (vv : FVec Ideal S3200x64 .bf16)
    (w14 : Vec Ideal S64x64 .f32) (b15 : Vec Ideal S1x64 .f32) (p : Fin 3200) (d : Fin 64) :
    k1_pay1 ev sv vv w14 b15 (ix2 p (⟨d.val, by have := d.isLt; omega⟩ : Fin 256)) = sv (ix2 p d) := by
  unfold k1_pay1
  rw [truncf_apply]
  exact (cat4_0 _ _ _ _ p d)

/-- One edge-vector coordinate broadcast along a row of 64. -/
theorem ev_col (ev : Vec Ideal S3200x3 .f32) (k : Fin 3) (hs : S3200x3.Slices ![0, k.val] S3200x1) (p : Fin 3200) (d : Fin 64) :
    broadcastTo S3200x64 (extractStridedSlice S3200x1 ![0, k.val] ev hs) broadcasts_S3200x1_S3200x64 (ix2 p d) = ev (ix2 p k) := by
  rw [Keepdims.broadcastTo_a1_ab_apply]
  refine extractStridedSlice_apply ![0, k.val] ev hs (ix2 p (0 : Fin 1)) (ix2 p k) fun a => ?_
  match a with
  | ⟨0, _⟩ => show p.val = 0 + p.val; omega
  | ⟨1, _⟩ => show k.val = k.val + 0; omega

/-- Columns 64 + 64·k + d of the joined message row: coordinate k of the edge vector times entry d of the second
    network's row. -/
theorem pay_msg_v (ev : Vec Ideal S3200x3 .f32) (sv : FVec Ideal S3200x64 .f32) (vv : FVec Ideal S3200x64 .bf16)
    (w14 : Vec Ideal S64x64 .f32) (b15 : Vec Ideal S1x64 .f32) (p : Fin 3200) (k : Fin 3) (d : Fin 64) :
    k1_pay1 ev sv vv w14 b15 (ix2 p (⟨64 + 64 * k.val + d.val, by have := d.isLt; have := k.isLt; omega⟩ : Fin 256))
      = ev (ix2 p k) * dense (fun q => vv (ix2 p q)) (fun q c => w14 (ix2 q c)) (fun c => b15 (ix2 (0 : Fin 1) c)) d := by
  have hmv : ∀ d : Fin 64, addf (matmul dot_S3200x64_S64x64_S3200x64_1_0_0_1_n_n none vv (truncf .bf16 w14 bitsLt_bf16_f32)
        (constant (F := Ideal) S3200x64 .f32 0x00000000#32))
      (broadcastTo S3200x64 (shapeCast S1x64 b15 shapeCasts_S1x64_S1x64) broadcasts_S1x64_S3200x64) (ix2 p d)
      = dense (fun q => vv (ix2 p q)) (fun q c => w14 (ix2 q c)) (fun c => b15 (ix2 (0 : Fin 1) c)) d := fun d =>
    kdense dot_S3200x64_S64x64_S3200x64_1_0_0_1_n_n rfl vv (truncf .bf16 w14 bitsLt_bf16_f32) b15
      shapeCasts_S1x64_S1x64 broadcasts_S1x64_S3200x64 p d
  unfold k1_pay1
  rw [truncf_apply]
  match k with
  | ⟨0, _⟩ =>
    refine (cat4_1 _ _ _ _ p d).trans ?_
    rw [mulf_apply]
    exact congrArg₂ (· * ·) (ev_col ev 0 slices_S3200x3_o0_0_S3200x1 p d) (hmv d)
  | ⟨1, _⟩ =>
    refine (cat4_2 _ _ _ _ p d).trans ?_
    rw [mulf_apply]
    exact congrArg₂ (· * ·) (ev_col ev 1 slices_S3200x3_o0_1_S3200x1 p d) (hmv d)
  | ⟨2, _⟩ =>
    refine (cat4_3 _ _ _ _ p d).trans ?_
    rw [mulf_apply]
    exact congrArg₂ (· * ·) (ev_col ev 2 slices_S3200x3_o0_2_S3200x1 p d) (hmv d)

/-- Two rows of 64 laid side by side by the node-update body, at a column. -/
theorem cat_row (x0 x1 : Vec Ideal S5000x64 .f32) (p : Fin 5000) (q : Fin 128) :
    concatenate S5000x128 1 [⟨S5000x64, shapeCast S5000x64 x0 shapeCasts_S5000x64_S5000x64⟩,
        ⟨S5000x64, shapeCast S5000x64 x1 shapeCasts_S5000x64_S5000x64⟩] concatenates_S5000x64_S5000x64_S5000x128_d1 (ix2 p q)
      = cat2 (fun k => x0 (ix2 p k)) (fun k => x1 (ix2 p k)) q := by
  have hq := q.isLt
  unfold cat2
  by_cases h : q.val < 64
  · rw [dif_pos h]
    refine (LibRows.concat_cols_left _ _ concatenates_S5000x64_S5000x64_S5000x128_d1 p q h).trans ?_
    rw [shapeCast_self]
  · rw [dif_neg h]
    refine (LibRows.concat_cols_right _ _ concatenates_S5000x64_S5000x64_S5000x128_d1 p q (by omega) (by omega)).trans ?_
    rw [shapeCast_self]

/-- The node-update block, row p: the two-layer network on the two parts laid side by side. -/
theorem pay_h0 (x0 x1 : Vec Ideal S5000x64 .f32) (w1 : Vec Ideal S128x64 .f32) (b1 : Vec Ideal S1x64 .f32)
    (w2 : Vec Ideal S64x64 .f32) (b2 : Vec Ideal S1x64 .f32) (p : Fin 5000) (c : Fin 64) :
    k2_pay1 x0 x1 w1 b1 w2 b2 (ix2 p c)
      = mlp (cat2 (fun k => x0 (ix2 p k)) (fun k => x1 (ix2 p k))) (fun q c => w1 (ix2 q c)) (fun c => b1 (ix2 (0 : Fin 1) c))
          (fun q c => w2 (ix2 q c)) (fun c => b2 (ix2 (0 : Fin 1) c)) c := by
  refine (kmlp dot_S5000x128_S128x64_S5000x64_1_0_0_1_n_n rfl dot_S5000x64_S64x64_S5000x64_1_0_0_1_n_n rfl
    (truncf .bf16 (concatenate S5000x128 1 [⟨S5000x64, shapeCast S5000x64 x0 shapeCasts_S5000x64_S5000x64⟩,
        ⟨S5000x64, shapeCast S5000x64 x1 shapeCasts_S5000x64_S5000x64⟩] concatenates_S5000x64_S5000x64_S5000x128_d1) bitsLt_bf16_f32)
    (truncf .bf16 w1 bitsLt_bf16_f32) b1 (truncf .bf16 w2 bitsLt_bf16_f32) b2
    shapeCasts_S1x64_S1x64 broadcasts_S1x64_S5000x64 shapeCasts_S1x64_S1x64 broadcasts_S1x64_S5000x64 bitsLt_bf16_f32 p c).trans ?_
  refine congrArg (fun x => mlp x (fun q c => w1 (ix2 q c)) (fun c => b1 (ix2 (0 : Fin 1) c))
    (fun q c => w2 (ix2 q c)) (fun c => b2 (ix2 (0 : Fin 1) c)) c) (funext fun q => ?_)
  exact cat_row x0 x1 p q

end Cert.KernelIdeal.KPay

end
-- ==== Proof.SpecRows.lean ====
/-
  The edge computation on one edge's rows: from the two gathered node rows, the attribute row and the edge vector to the
  edge's 256 message numbers — 64 scalar messages, then for each of the three vector coordinates 64 products of that
  coordinate with the vector network's row.
-/
import proofs.«174115_j6777458393829_2_alg».proof.Proof.Spec

noncomputable section

open scoped BigOperators

namespace Cert.Spec

/-- The scalar message of an edge from its rows: the gated first layer on the three parts, the second layer, times the
    first part. -/
def msRow (fi fj ea : Fin 64 → EReal) (W1 : Fin 192 → Fin 64 → EReal) (b1 : Fin 64 → EReal)
    (W2 : Fin 64 → Fin 64 → EReal) (b2 : Fin 64 → EReal) (d : Fin 64) : EReal :=
  dense (fun q => silu (dense3 fi fj ea W1 b1 q)) W2 b2 d * fi d

/-- The vector network's row of an edge from its rows. -/
def mvRow (fi fj ea : Fin 64 → EReal) (W1 : Fin 192 → Fin 64 → EReal) (b1 : Fin 64 → EReal)
    (W2 : Fin 64 → Fin 64 → EReal) (b2 : Fin 64 → EReal) (d : Fin 64) : EReal :=
  dense (fun q => silu (dense3 fi fj ea W1 b1 q)) W2 b2 d

/-- An edge's 256 message numbers. -/
def msgRow (fi fj : Fin 64 → EReal) (attr : Fin 16 → EReal) (vec : Fin 3 → EReal)
    (Wb1 : Fin 16 → Fin 64 → EReal) (bb1 : Fin 64 → EReal) (Wb2 : Fin 64 → Fin 64 → EReal) (bb2 : Fin 64 → EReal)
    (Ws1 : Fin 192 → Fin 64 → EReal) (bs1 : Fin 64 → EReal) (Ws2 : Fin 64 → Fin 64 → EReal) (bs2 : Fin 64 → EReal)
    (Wv1 : Fin 192 → Fin 64 → EReal) (bv1 : Fin 64 → EReal) (Wv2 : Fin 64 → Fin 64 → EReal) (bv2 : Fin 64 → EReal)
    (j : Fin 256) : EReal :=
  if h : j.val < 64 then msRow fi fj (mlp attr Wb1 bb1 Wb2 bb2) Ws1 bs1 Ws2 bs2 ⟨j.val, h⟩
  else vec ⟨(j.val - 64) / 64, by have := j.isLt; omega⟩
    * mvRow fi fj (mlp attr Wb1 bb1 Wb2 bb2) Wv1 bv1 Wv2 bv2 ⟨(j.val - 64) % 64, Nat.mod_lt _ (by norm_num)⟩

section Columns
variable (fi fj : Fin 64 → EReal) (attr : Fin 16 → EReal) (vec : Fin 3 → EReal)
    (Wb1 : Fin 16 → Fin 64 → EReal) (bb1 : Fin 64 → EReal) (Wb2 : Fin 64 → Fin 64 → EReal) (bb2 : Fin 64 → EReal)
    (Ws1 : Fin 192 → Fin 64 → EReal) (bs1 : Fin 64 → EReal) (Ws2 : Fin 64 → Fin 64 → EReal) (bs2 : Fin 64 → EReal)
    (Wv1 : Fin 192 → Fin 64 → EReal) (bv1 : Fin 64 → EReal) (Wv2 : Fin 64 → Fin 64 → EReal) (bv2 : Fin 64 → EReal)

/-- Columns 0…63 of an edge's message numbers are its scalar messages. -/
theorem msgRow_lo (d : Fin 64) :
    msgRow fi fj attr vec Wb1 bb1 Wb2 bb2 Ws1 bs1 Ws2 bs2 Wv1 bv1 Wv2 bv2 (⟨d.val, by have := d.isLt; omega⟩ : Fin 256)
      = msRow fi fj (mlp attr Wb1 bb1 Wb2 bb2) Ws1 bs1 Ws2 bs2 d := by
  unfold msgRow
  rw [dif_pos (show (⟨d.val, _⟩ : Fin 256).val < 64 from d.isLt)]

/-- Column 64 + 64·k + d is coordinate k of the edge vector times entry d of the vector network's row. -/
theorem msgRow_hi (k : Fin 3) (d : Fin 64) :
    msgRow fi fj attr vec Wb1 bb1 Wb2 bb2 Ws1 bs1 Ws2 bs2 Wv1 bv1 Wv2 bv2
        (⟨64 + 64 * k.val + d.val, by have := d.isLt; have := k.isLt; omega⟩ : Fin 256)
      = vec k * mvRow fi fj (mlp attr Wb1 bb1 Wb2 bb2) Wv1 bv1 Wv2 bv2 d := by
  have hd := d.isLt
  have hk := k.isLt
  unfold msgRow
  rw [dif_neg (show ¬ (⟨64 + 64 * k.val + d.val, _⟩ : Fin 256).val < 64 from by show ¬ (64 + 64 * k.val + d.val < 64); omega)]
  refine congrArg₂ (· * ·) (congrArg vec (Fin.ext ?_)) (congrArg (mvRow fi fj (mlp attr Wb1 bb1 Wb2 bb2) Wv1 bv1 Wv2 bv2) (Fin.ext ?_))
  · show (64 + 64 * k.val + d.val - 64) / 64 = k.val; omega
  · show (64 + 64 * k.val + d.val - 64) % 64 = d.val; omega

end Columns

/-- With the split first layer read as the dense layer on the joined row, the scalar message is the two-layer network
    on the joined row times the first part. -/
theorem msRow_eq (fi fj ea : Fin 64 → EReal) (W1 : Fin 192 → Fin 64 → EReal) (b1 : Fin 64 → EReal)
    (W2 : Fin 64 → Fin 64 → EReal) (b2 : Fin 64 → EReal) (d : Fin 64) :
    msRow fi fj ea W1 b1 W2 b2 d = mlp (cat3 fi fj ea) W1 b1 W2 b2 d * fi d := by
  unfold msRow mlp
  simp only [dense_cat3]

/-- The same for the vector network's row. -/
theorem mvRow_eq (fi fj ea : Fin 64 → EReal) (W1 : Fin 192 → Fin 64 → EReal) (b1 : Fin 64 → EReal)
    (W2 : Fin 64 → Fin 64 → EReal) (b2 : Fin 64 → EReal) (d : Fin 64) :
    mvRow fi fj ea W1 b1 W2 b2 d = mlp (cat3 fi fj ea) W1 b1 W2 b2 d := by
  unfold mvRow mlp
  simp only [dense_cat3]

end Cert.Spec

end
-- ==== Proof.KernelPay3.lean ====
/-
  The edge body's two stored blocks as functions of its sixteen input blocks, row by row: the embedded attribute row,
  and the 256 message numbers of the row's edge.  The body reads the 192-row first-layer weights of both message networks
  in three loads of 64 rows each (rows 0…63, 64…127, 128…191), one per part of the joined input.
-/
import proofs.«174115_j6777458393829_2_alg».proof.Proof.KernelPay2
import proofs.«174115_j6777458393829_2_alg».proof.Proof.SpecRows
import proofs.«174115_j6777458393829_2_alg».proof.Proof.Gen.KernelIdeal.Frame

set_option maxRecDepth 16384

noncomputable section

open scoped BigOperators

namespace Cert.KernelIdeal.KPay

open Cert.KernelIdeal Cert.KernelIdeal.Gen Idealize.ShloMosaic Idealize.ShloMosaic.ValueIdx Cert.Spec

/-- The load of rows 0…63 of a 192-row matrix, at an entry. -/
theorem ld_lo (x : Vec Ideal S192x64 .f32) (k c : Fin 64) :
    View.ld x r1_6 (ix2 k c) = x (ix2 (⟨k.val, by have := k.isLt; omega⟩ : Fin 192) c) := by
  show x (r1_6.emb (ix2 k c)) = _
  refine congrArg x (funext fun a => Fin.ext ?_)
  match a with
  | ⟨0, _⟩ => show 0 + 1 * k.val = k.val; omega
  | ⟨1, _⟩ => show 0 + 1 * c.val = c.val; omega

/-- The load of rows 64…127. -/
theorem ld_mid (x : Vec Ideal S192x64 .f32) (k c : Fin 64) :
    View.ld x r1_7 (ix2 k c) = x (ix2 (⟨64 + k.val, by have := k.isLt; omega⟩ : Fin 192) c) := by
  show x (r1_7.emb (ix2 k c)) = _
  refine congrArg x (funext fun a => Fin.ext ?_)
  match a with
  | ⟨0, _⟩ => show 64 + 1 * k.val = 64 + k.val; omega
  | ⟨1, _⟩ => show 0 + 1 * c.val = c.val; omega

/-- The load of rows 128…191. -/
theorem ld_hi (x : Vec Ideal S192x64 .f32) (k c : Fin 64) :
    View.ld x r1_8 (ix2 k c) = x (ix2 (⟨128 + k.val, by have := k.isLt; omega⟩ : Fin 192) c) := by
  show x (r1_8.emb (ix2 k c)) = _
  refine congrArg x (funext fun a => Fin.ext ?_)
  match a with
  | ⟨0, _⟩ => show 128 + 1 * k.val = 128 + k.val; omega
  | ⟨1, _⟩ => show 0 + 1 * c.val = c.val; omega

/-- The three-part first layer with the three loads as its matrices is the split first layer on the whole matrix. -/
theorem dense3r_ld (x y z : Fin 64 → EReal) (w : Vec Ideal S192x64 .f32) (b : Fin 64 → EReal) (q : Fin 64) :
    dense3r x y z (fun k c => View.ld w r1_6 (ix2 k c)) (fun k c => View.ld w r1_7 (ix2 k c))
        (fun k c => View.ld w r1_8 (ix2 k c)) b q
      = dense3 x y z (fun k c => w (ix2 k c)) b q := by
  unfold dense3r dense3
  refine congrArg (· + b q) ?_
  refine congrArg₂ (· + ·) (congrArg₂ (· + ·) ?_ ?_) ?_
  · exact Finset.sum_congr rfl fun k _ => congrArg (x k * ·) (ld_lo w k q)
  · exact Finset.sum_congr rfl fun k _ => congrArg (y k * ·) (ld_mid w k q)
  · exact Finset.sum_congr rfl fun k _ => congrArg (z k * ·) (ld_hi w k q)

variable (x0 : Vec Ideal S3200x16 .f32) (x1 x2 : Vec Ideal S3200x64 .bf16) (x3 : Vec Ideal S3200x3 .f32)
  (x4 : Vec Ideal S16x64 .f32) (x5 : Vec Ideal S1x64 .f32) (x6 : Vec Ideal S64x64 .f32) (x7 : Vec Ideal S1x64 .f32)
  (x8 : Vec Ideal S192x64 .f32) (x9 : Vec Ideal S1x64 .f32) (x10 : Vec Ideal S64x64 .f32) (x11 : Vec Ideal S1x64 .f32)
  (x12 : Vec Ideal S192x64 .f32) (x13 : Vec Ideal S1x64 .f32) (x14 : Vec Ideal S64x64 .f32) (x15 : Vec Ideal S1x64 .f32)

/-- Row p of the message block: the 256 message numbers of the row's edge. -/
theorem pay_msg (p : Fin 3200) (j : Fin 256) :
    k1_pay1 x3
        (k1_pay9 (k1_pay4 x0 x4 x5 x6 x7) (k1_pay5 x1) (k1_pay6 (View.ld x8 r1_8)) (k1_pay7 x1 (View.ld x8 r1_6))
          (k1_pay8 x2 (View.ld x8 r1_7)) x9 x10 x11)
        (k1_pay10 (k1_pay2 x1) (k1_pay3 x2) (k1_pay4 x0 x4 x5 x6 x7) (View.ld x12 r1_6) (View.ld x12 r1_7)
          (View.ld x12 r1_8) x13) x14 x15 (ix2 p j)
      = msgRow (fun k => x1 (ix2 p k)) (fun k => x2 (ix2 p k)) (fun k => x0 (ix2 p k)) (fun k => x3 (ix2 p k))
          (fun k c => x4 (ix2 k c)) (fun c => x5 (ix2 (0 : Fin 1) c)) (fun k c => x6 (ix2 k c)) (fun c => x7 (ix2 (0 : Fin 1) c))
          (fun k c => x8 (ix2 k c)) (fun c => x9 (ix2 (0 : Fin 1) c)) (fun k c => x10 (ix2 k c)) (fun c => x11 (ix2 (0 : Fin 1) c))
          (fun k c => x12 (ix2 k c)) (fun c => x13 (ix2 (0 : Fin 1) c)) (fun k c => x14 (ix2 k c)) (fun c => x15 (ix2 (0 : Fin 1) c)) j := by
  have hea : (fun k : Fin 64 => k1_pay4 x0 x4 x5 x6 x7 (ix2 p k))
      = mlp (fun k => x0 (ix2 p k)) (fun k c => x4 (ix2 k c)) (fun c => x5 (ix2 (0 : Fin 1) c))
          (fun k c => x6 (ix2 k c)) (fun c => x7 (ix2 (0 : Fin 1) c)) := funext fun k => pay_ea x0 x4 x5 x6 x7 p k
  obtain ⟨jv, hjv⟩ := j
  by_cases h : jv < 64
  · unfold msgRow
    rw [dif_pos (show (⟨jv, hjv⟩ : Fin 256).val < 64 from h)]
    refine (pay_msg_s x3 _ _ x14 x15 p ⟨jv, h⟩).trans ?_
    refine (pay_ms (k1_pay4 x0 x4 x5 x6 x7) x1 x2 (View.ld x8 r1_6) (View.ld x8 r1_7) (View.ld x8 r1_8) x9 x10 x11 p ⟨jv, h⟩).trans ?_
    unfold msRow
    simp only [dense3r_ld, hea]
  · obtain ⟨k, d, rfl⟩ : ∃ (k : Fin 3) (d : Fin 64), jv = 64 + 64 * k.val + d.val :=
      ⟨⟨(jv - 64) / 64, by omega⟩, ⟨(jv - 64) % 64, Nat.mod_lt _ (by norm_num)⟩,
        by show jv = 64 + 64 * ((jv - 64) / 64) + (jv - 64) % 64; omega⟩
    have hd := d.isLt
    have hk := k.isLt
    unfold msgRow
    rw [dif_neg (show ¬ (⟨64 + 64 * k.val + d.val, hjv⟩ : Fin 256).val < 64 from h)]
    refine (pay_msg_v x3 _ _ x14 x15 p k d).trans ?_
    refine congrArg₂ (· * ·) (congrArg (fun u => x3 (ix2 p u)) (Fin.ext ?_)) ?_
    · show k.val = (64 + 64 * k.val + d.val - 64) / 64; omega
    · have hv : (fun q : Fin 64 => k1_pay10 (k1_pay2 x1) (k1_pay3 x2) (k1_pay4 x0 x4 x5 x6 x7) (View.ld x12 r1_6)
          (View.ld x12 r1_7) (View.ld x12 r1_8) x13 (ix2 p q))
          = fun q => silu (dense3 (fun k => x1 (ix2 p k)) (fun k => x2 (ix2 p k))
              (mlp (fun k => x0 (ix2 p k)) (fun k c => x4 (ix2 k c)) (fun c => x5 (ix2 (0 : Fin 1) c))
                (fun k c => x6 (ix2 k c)) (fun c => x7 (ix2 (0 : Fin 1) c)))
              (fun k c => x12 (ix2 k c)) (fun c => x13 (ix2 (0 : Fin 1) c)) q) := funext fun q => by
        refine (pay_mvh (k1_pay2 x1) (k1_pay3 x2) (k1_pay4 x0 x4 x5 x6 x7) (View.ld x12 r1_6) (View.ld x12 r1_7)
          (View.ld x12 r1_8) x13 p q).trans ?_
        refine congrArg silu ?_
        rw [pay2_eq, pay3_eq, ← hea]
        exact dense3r_ld _ _ _ x12 _ q
      unfold mvRow
      rw [hv]
      refine congrArg (dense _ _ _) (Fin.ext ?_)
      show d.val = (64 + 64 * k.val + d.val - 64) % 64
      omega

end Cert.KernelIdeal.KPay

end
-- ==== Proof.KernelBlocks1.lean ====
/-
  The edge region, block by block and then as two arrays.

  Both output arrays are written in 250 row blocks of 3200 edges; grid point t writes rows 3200·t … 3200·t + 3199 from the
  same rows of the four row-blocked inputs (edge attributes, the two gathered node rows, edge vectors) and from the whole
  weight and bias-row arrays.  Every edge lies in exactly one block, so after the region the first array holds each
  edge's embedded attribute row and the second each edge's 256 message numbers.
-/
import proofs.«174115_j6777458393829_2_alg».proof.Proof.Gen.KernelIdeal.Frame
import proofs.«174115_j6777458393829_2_alg».proof.Proof.KernelPay
import proofs.«174115_j6777458393829_2_alg».proof.Proof.KernelPay3
import Idealize.ShloMosaic.Lib.Pipeline.Value
import Idealize.ShloMosaic.Lib.ValueIdx

set_option maxRecDepth 16384
set_option maxHeartbeats 4000000

noncomputable section

open scoped BigOperators

namespace Cert.KernelIdeal.KBlocks1

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The embedded-attribute array as a function of the arrays the region reads. -/
def Gea (a0 : S800000x16.Idx → EReal) (a4 : S16x64.Idx → EReal) (a5 : S1x64.Idx → EReal) (a6 : S64x64.Idx → EReal)
    (a7 : S1x64.Idx → EReal) : S800000x64.Idx → EReal :=
  fun i => mlp (fun k => a0 (ix2 (⟨(i 0).val, (i 0).isLt⟩ : Fin 800000) k)) (fun k c => a4 (ix2 k c)) (fun c => a5 (ix2 (0 : Fin 1) c)) (fun k c => a6 (ix2 k c)) (fun c => a7 (ix2 (0 : Fin 1) c)) (⟨(i 1).val, (i 1).isLt⟩ : Fin 64)

/-- The message array as a function of the arrays the region reads. -/
def Gmsg (a0 : S800000x16.Idx → EReal) (a1 : S800000x64.Idx → EReal) (a2 : S800000x64.Idx → EReal) (a3 : S800000x3.Idx → EReal) (a4 : S16x64.Idx → EReal) (a5 : S1x64.Idx → EReal) (a6 : S64x64.Idx → EReal) (a7 : S1x64.Idx → EReal) (a8 : S192x64.Idx → EReal) (a9 : S1x64.Idx → EReal) (a10 : S64x64.Idx → EReal) (a11 : S1x64.Idx → EReal) (a12 : S192x64.Idx → EReal) (a13 : S1x64.Idx → EReal) (a14 : S64x64.Idx → EReal) (a15 : S1x64.Idx → EReal) : S800000x256.Idx → EReal :=
  fun i => msgRow (fun k => a1 (ix2 (⟨(i 0).val, (i 0).isLt⟩ : Fin 800000) k)) (fun k => a2 (ix2 (⟨(i 0).val, (i 0).isLt⟩ : Fin 800000) k)) (fun k => a0 (ix2 (⟨(i 0).val, (i 0).isLt⟩ : Fin 800000) k)) (fun k => a3 (ix2 (⟨(i 0).val, (i 0).isLt⟩ : Fin 800000) k))
    (fun k c => a4 (ix2 k c)) (fun c => a5 (ix2 (0 : Fin 1) c)) (fun k c => a6 (ix2 k c)) (fun c => a7 (ix2 (0 : Fin 1) c)) (fun k c => a8 (ix2 k c)) (fun c => a9 (ix2 (0 : Fin 1) c)) (fun k c => a10 (ix2 k c)) (fun c => a11 (ix2 (0 : Fin 1) c))
    (fun k c => a12 (ix2 k c)) (fun c => a13 (ix2 (0 : Fin 1) c)) (fun k c => a14 (ix2 k c)) (fun c => a15 (ix2 (0 : Fin 1) c)) (⟨(i 1).val, (i 1).isLt⟩ : Fin 256)

/-- The printed index maps over the 250 grid points: the row-blocked windows move together, block t at point t; the
    weight and bias windows stay at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = 0
    ∧ win1_14.index t (1 : Fin 2) = 0
    ∧ win1_15.index t (0 : Fin 2) = 0
    ∧ win1_15.index t (1 : Fin 2) = 0
    ∧ win1_16.index t (0 : Fin 2) = t.val
    ∧ win1_16.index t (1 : Fin 2) = 0
    ∧ win1_17.index t (0 : Fin 2) = t.val
    ∧ win1_17.index t (1 : Fin 2) = 0 :=
  (by decide +kernel : ∀ t : Fin grid1.N, _)

/-- What point t writes back into the first array is block t of Gea. -/
theorem flushed_ea (c : Dev nD) (t : Fin cfg1.N) :
    (dat1 V c).flushed 16 t
      = ((cfg1.win 16).blk t).view.read (Elt Ideal) (Gea (V c main_arg2) (V c main_arg6) (V c main_v21) (V c main_arg8) (V c main_v22)) := by
  show (cfg1.win 16).cut (grid1.coords t) ((dat1 V c).after 16 t) = _
  rw [after1_16]
  unfold out1_16
  rw [View.canon_unit_zero hz]
  simp only [View.ld_unit_zero (S := S3200x16) hz, View.ld_unit_zero (S := S16x64) hz, View.ld_unit_zero (S := S1x64) hz,
    View.ld_unit_zero (S := S64x64) hz]
  obtain ⟨e0, e1, e2, e3, e4, e5, e6, e7, e8, e9, e10, e11, e12, e13, e14, e15, e16, e17, e18, e19, e20, e21, e22, e23, e24, e25, e26, e27, e28, e29, e30, e31, e32, e33, e34, e35⟩ := idx_facts t
  have ht : t.val < 250 := t.isLt
  funext j
  obtain ⟨p, q, rfl⟩ : ∃ (p : Fin 3200) (q : Fin 64), j = ix2 p q := ⟨j 0, j 1, eq_ix2 j⟩
  refine (KPay.pay_ea (iblk1 V c 0 t) (iblk1 V c 4 t) (iblk1 V c 5 t) (iblk1 V c 6 t) (iblk1 V c 7 t) p q).trans ?_
  have hp := p.isLt
  have hq := q.isLt
  have h0 : ∀ k : Fin 16, ((cfg1.win 0).blk t).view.emb (ix2 p k) = ix2 (⟨t.val * 3200 + p.val, by omega⟩ : Fin 800000) k := by
    intro k; funext a; apply Fin.ext
    match a with
    | ⟨0, _⟩ => show win1_0.index t (0 : Fin 2) * 3200 + 1 * p.val = t.val * 3200 + p.val; omega
    | ⟨1, _⟩ => show win1_0.index t (1 : Fin 2) * 16 + 1 * k.val = k.val; omega
  have h4 : ∀ (k : Fin 16) (d : Fin 64), ((cfg1.win 4).blk t).view.emb (ix2 k d) = ix2 k d := by
    intro k d; funext a; apply Fin.ext
    match a with
    | ⟨0, _⟩ => show win1_4.index t (0 : Fin 2) * 16 + 1 * k.val = k.val; omega
    | ⟨1, _⟩ => show win1_4.index t (1 : Fin 2) * 64 + 1 * d.val = d.val; omega
  have h5 : ∀ d : Fin 64, ((cfg1.win 5).blk t).view.emb (ix2 (0 : Fin 1) d) = ix2 (0 : Fin 1) d := by
    intro d; funext a; apply Fin.ext
    match a with
    | ⟨0, _⟩ => show win1_5.index t (0 : Fin 2) * 1 + 1 * 0 = 0; omega
    | ⟨1, _⟩ => show win1_5.index t (1 : Fin 2) * 64 + 1 * d.val = d.val; omega
  have h6 : ∀ (k : Fin 64) (d : Fin 64), ((cfg1.win 6).blk t).view.emb (ix2 k d) = ix2 k d := by
    intro k d; funext a; apply Fin.ext
    match a with
    | ⟨0, _⟩ => show win1_6.index t (0 : Fin 2) * 64 + 1 * k.val = k.val; omega
    | ⟨1, _⟩ => show win1_6.index t (1 : Fin 2) * 64 + 1 * d.val = d.val; omega
  have h7 : ∀ d : Fin 64, ((cfg1.win 7).blk t).view.emb (ix2 (0 : Fin 1) d) = ix2 (0 : Fin 1) d := by
    intro d; funext a; apply Fin.ext
    match a with
    | ⟨0, _⟩ => show win1_7.index t (0 : Fin 2) * 1 + 1 * 0 = 0; omega
    | ⟨1, _⟩ => show win1_7.index t (1 : Fin 2) * 64 + 1 * d.val = d.val; omega
  have ho : ((cfg1.win 16).blk t).view.emb (ix2 p q) = ix2 (⟨t.val * 3200 + p.val, by omega⟩ : Fin 800000) q := by
    funext a; apply Fin.ext
    match a with
    | ⟨0, _⟩ => show win1_16.index t (0 : Fin 2) * 3200 + 1 * p.val = t.val * 3200 + p.val; omega
    | ⟨1, _⟩ => show win1_16.index t (1 : Fin 2) * 64 + 1 * q.val = q.val; omega
  show mlp (fun k => V c main_arg2 (((cfg1.win 0).blk t).view.emb (ix2 p k))) (fun k d => V c main_arg6 (((cfg1.win 4).blk t).view.emb (ix2 k d))) (fun d => V c main_v21 (((cfg1.win 5).blk t).view.emb (ix2 (0 : Fin 1) d))) (fun k d => V c main_arg8 (((cfg1.win 6).blk t).view.emb (ix2 k d))) (fun d => V c main_v22 (((cfg1.win 7).blk t).view.emb (ix2 (0 : Fin 1) d))) q
    = Gea (V c main_arg2) (V c main_arg6) (V c main_v21) (V c main_arg8) (V c main_v22) (((cfg1.win 16).blk t).view.emb (ix2 p q))
  rw [ho]
  simp only [h0, h4, h5, h6, h7]
  rfl

/-- What point t writes back into the second array is block t of Gmsg. -/
theorem flushed_msg (c : Dev nD) (t : Fin cfg1.N) :
    (dat1 V c).flushed 17 t
      = ((cfg1.win 17).blk t).view.read (Elt Ideal) (Gmsg (V c main_arg2) (V c main_v13) (V c main_v20) (V c main_arg3) (V c main_arg6) (V c main_v21) (V c main_arg8) (V c main_v22) (V c main_arg10) (V c main_v23) (V c main_arg12) (V c main_v24) (V c main_arg18) (V c main_v25) (V c main_arg20) (V c main_v26)) := by
  show (cfg1.win 17).cut (grid1.coords t) ((dat1 V c).after 17 t) = _
  rw [after1_17]
  unfold out1_17
  rw [View.canon_unit_zero hz]
  simp only [View.ld_unit_zero (S := S3200x16) hz, View.ld_unit_zero (S := S3200x64) hz, View.ld_unit_zero (S := S3200x3) hz,
    View.ld_unit_zero (S := S16x64) hz, View.ld_unit_zero (S := S1x64) hz, View.ld_unit_zero (S := S64x64) hz]
  obtain ⟨e0, e1, e2, e3, e4, e5, e6, e7, e8, e9, e10, e11, e12, e13, e14, e15, e16, e17, e18, e19, e20, e21, e22, e23, e24, e25, e26, e27, e28, e29, e30, e31, e32, e33, e34, e35⟩ := idx_facts t
  have ht : t.val < 250 := t.isLt
  funext j
  obtain ⟨p, q, rfl⟩ : ∃ (p : Fin 3200) (q : Fin 256), j = ix2 p q := ⟨j 0, j 1, eq_ix2 j⟩
  refine (KPay.pay_msg (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) p q).trans ?_
  have hp := p.isLt
  have hq := q.isLt
  have h0 : ∀ k : Fin 16, ((cfg1.win 0).blk t).view.emb (ix2 p k) = ix2 (⟨t.val * 3200 + p.val, by omega⟩ : Fin 800000) k := by
    intro k; funext a; apply Fin.ext
    match a with
    | ⟨0, _⟩ => show win1_0.index t (0 : Fin 2) * 3200 + 1 * p.val = t.val * 3200 + p.val; omega
    | ⟨1, _⟩ => show win1_0.index t (1 : Fin 2) * 16 + 1 * k.val = k.val; omega
  have h1 : ∀ k : Fin 64, ((cfg1.win 1).blk t).view.emb (ix2 p k) = ix2 (⟨t.val * 3200 + p.val, by omega⟩ : Fin 800000) k := by
    intro k; funext a; apply Fin.ext
    match a with
    | ⟨0, _⟩ => show win1_1.index t (0 : Fin 2) * 3200 + 1 * p.val = t.val * 3200 + p.val; omega
    | ⟨1, _⟩ => show win1_1.index t (1 : Fin 2) * 64 + 1 * k.val = k.val; omega
  have h2 : ∀ k : Fin 64, ((cfg1.win 2).blk t).view.emb (ix2 p k) = ix2 (⟨t.val * 3200 + p.val, by omega⟩ : Fin 800000) k := by
    intro k; funext a; apply Fin.ext
    match a with
    | ⟨0, _⟩ => show win1_2.index t (0 : Fin 2) * 3200 + 1 * p.val = t.val * 3200 + p.val; omega
    | ⟨1, _⟩ => show win1_2.index t (1 : Fin 2) * 64 + 1 * k.val = k.val; omega
  have h3 : ∀ k : Fin 3, ((cfg1.win 3).blk t).view.emb (ix2 p k) = ix2 (⟨t.val * 3200 + p.val, by omega⟩ : Fin 800000) k := by
    intro k; funext a; apply Fin.ext
    match a with
    | ⟨0, _⟩ => show win1_3.index t (0 : Fin 2) * 3200 + 1 * p.val = t.val * 3200 + p.val; omega
    | ⟨1, _⟩ => show win1_3.index t (1 : Fin 2) * 3 + 1 * k.val = k.val; omega
  have h4 : ∀ (k : Fin 16) (d : Fin 64), ((cfg1.win 4).blk t).view.emb (ix2 k d) = ix2 k d := by
    intro k d; funext a; apply Fin.ext
    match a with
    | ⟨0, _⟩ => show win1_4.index t (0 : Fin 2) * 16 + 1 * k.val = k.val; omega
    | ⟨1, _⟩ => show win1_4.index t (1 : Fin 2) * 64 + 1 * d.val = d.val; omega
  have h5 : ∀ d : Fin 64, ((cfg1.win 5).blk t).view.emb (ix2 (0 : Fin 1) d) = ix2 (0 : Fin 1) d := by
    intro d; funext a; apply Fin.ext
    match a with
    | ⟨0, _⟩ => show win1_5.index t (0 : Fin 2) * 1 + 1 * 0 = 0; omega
    | ⟨1, _⟩ => show win1_5.index t (1 : Fin 2) * 64 + 1 * d.val = d.val; omega
  have h6 : ∀ (k : Fin 64) (d : Fin 64), ((cfg1.win 6).blk t).view.emb (ix2 k d) = ix2 k d := by
    intro k d; funext a; apply Fin.ext
    match a with
    | ⟨0, _⟩ => show win1_6.index t (0 : Fin 2) * 64 + 1 * k.val = k.val; omega
    | ⟨1, _⟩ => show win1_6.index t (1 : Fin 2) * 64 + 1 * d.val = d.val; omega
  have h7 : ∀ d : Fin 64, ((cfg1.win 7).blk t).view.emb (ix2 (0 : Fin 1) d) = ix2 (0 : Fin 1) d := by
    intro d; funext a; apply Fin.ext
    match a with
    | ⟨0, _⟩ => show win1_7.index t (0 : Fin 2) * 1 + 1 * 0 = 0; omega
    | ⟨1, _⟩ => show win1_7.index t (1 : Fin 2) * 64 + 1 * d.val = d.val; omega
  have h8 : ∀ (k : Fin 192) (d : Fin 64), ((cfg1.win 8).blk t).view.emb (ix2 k d) = ix2 k d := by
    intro k d; funext a; apply Fin.ext
    match a with
    | ⟨0, _⟩ => show win1_8.index t (0 : Fin 2) * 192 + 1 * k.val = k.val; omega
    | ⟨1, _⟩ => show win1_8.index t (1 : Fin 2) * 64 + 1 * d.val = d.val; omega
  have h9 : ∀ d : Fin 64, ((cfg1.win 9).blk t).view.emb (ix2 (0 : Fin 1) d) = ix2 (0 : Fin 1) d := by
    intro d; funext a; apply Fin.ext
    match a with
    | ⟨0, _⟩ => show win1_9.index t (0 : Fin 2) * 1 + 1 * 0 = 0; omega
    | ⟨1, _⟩ => show win1_9.index t (1 : Fin 2) * 64 + 1 * d.val = d.val; omega
  have h10 : ∀ (k : Fin 64) (d : Fin 64), ((cfg1.win 10).blk t).view.emb (ix2 k d) = ix2 k d := by
    intro k d; funext a; apply Fin.ext
    match a with
    | ⟨0, _⟩ => show win1_10.index t (0 : Fin 2) * 64 + 1 * k.val = k.val; omega
    | ⟨1, _⟩ => show win1_10.index t (1 : Fin 2) * 64 + 1 * d.val = d.val; omega
  have h11 : ∀ d : Fin 64, ((cfg1.win 11).blk t).view.emb (ix2 (0 : Fin 1) d) = ix2 (0 : Fin 1) d := by
    intro d; funext a; apply Fin.ext
    match a with
    | ⟨0, _⟩ => show win1_11.index t (0 : Fin 2) * 1 + 1 * 0 = 0; omega
    | ⟨1, _⟩ => show win1_11.index t (1 : Fin 2) * 64 + 1 * d.val = d.val; omega
  have h12 : ∀ (k : Fin 192) (d : Fin 64), ((cfg1.win 12).blk t).view.emb (ix2 k d) = ix2 k d := by
    intro k d; funext a; apply Fin.ext
    match a with
    | ⟨0, _⟩ => show win1_12.index t (0 : Fin 2) * 192 + 1 * k.val = k.val; omega
    | ⟨1, _⟩ => show win1_12.index t (1 : Fin 2) * 64 + 1 * d.val = d.val; omega
  have h13 : ∀ d : Fin 64, ((cfg1.win 13).blk t).view.emb (ix2 (0 : Fin 1) d) = ix2 (0 : Fin 1) d := by
    intro d; funext a; apply Fin.ext
    match a with
    | ⟨0, _⟩ => show win1_13.index t (0 : Fin 2) * 1 + 1 * 0 = 0; omega
    | ⟨1, _⟩ => show win1_13.index t (1 : Fin 2) * 64 + 1 * d.val = d.val; omega
  have h14 : ∀ (k : Fin 64) (d : Fin 64), ((cfg1.win 14).blk t).view.emb (ix2 k d) = ix2 k d := by
    intro k d; funext a; apply Fin.ext
    match a with
    | ⟨0, _⟩ => show win1_14.index t (0 : Fin 2) * 64 + 1 * k.val = k.val; omega
    | ⟨1, _⟩ => show win1_14.index t (1 : Fin 2) * 64 + 1 * d.val = d.val; omega
  have h15 : ∀ d : Fin 64, ((cfg1.win 15).blk t).view.emb (ix2 (0 : Fin 1) d) = ix2 (0 : Fin 1) d := by
    intro d; funext a; apply Fin.ext
    match a with
    | ⟨0, _⟩ => show win1_15.index t (0 : Fin 2) * 1 + 1 * 0 = 0; omega
    | ⟨1, _⟩ => show win1_15.index t (1 : Fin 2) * 64 + 1 * d.val = d.val; omega
  have ho : ((cfg1.win 17).blk t).view.emb (ix2 p q) = ix2 (⟨t.val * 3200 + p.val, by omega⟩ : Fin 800000) q := by
    funext a; apply Fin.ext
    match a with
    | ⟨0, _⟩ => show win1_17.index t (0 : Fin 2) * 3200 + 1 * p.val = t.val * 3200 + p.val; omega
    | ⟨1, _⟩ => show win1_17.index t (1 : Fin 2) * 256 + 1 * q.val = q.val; omega
  show msgRow (fun k => V c main_v13 (((cfg1.win 1).blk t).view.emb (ix2 p k))) (fun k => V c main_v20 (((cfg1.win 2).blk t).view.emb (ix2 p k))) (fun k => V c main_arg2 (((cfg1.win 0).blk t).view.emb (ix2 p k))) (fun k => V c main_arg3 (((cfg1.win 3).blk t).view.emb (ix2 p k)))
      (fun k d => V c main_arg6 (((cfg1.win 4).blk t).view.emb (ix2 k d))) (fun d => V c main_v21 (((cfg1.win 5).blk t).view.emb (ix2 (0 : Fin 1) d))) (fun k d => V c main_arg8 (((cfg1.win 6).blk t).view.emb (ix2 k d))) (fun d => V c main_v22 (((cfg1.win 7).blk t).view.emb (ix2 (0 : Fin 1) d)))
      (fun k d => V c main_arg10 (((cfg1.win 8).blk t).view.emb (ix2 k d))) (fun d => V c main_v23 (((cfg1.win 9).blk t).view.emb (ix2 (0 : Fin 1) d))) (fun k d => V c main_arg12 (((cfg1.win 10).blk t).view.emb (ix2 k d))) (fun d => V c main_v24 (((cfg1.win 11).blk t).view.emb (ix2 (0 : Fin 1) d)))
      (fun k d => V c main_arg18 (((cfg1.win 12).blk t).view.emb (ix2 k d))) (fun d => V c main_v25 (((cfg1.win 13).blk t).view.emb (ix2 (0 : Fin 1) d))) (fun k d => V c main_arg20 (((cfg1.win 14).blk t).view.emb (ix2 k d))) (fun d => V c main_v26 (((cfg1.win 15).blk t).view.emb (ix2 (0 : Fin 1) d))) q
    = Gmsg (V c main_arg2) (V c main_v13) (V c main_v20) (V c main_arg3) (V c main_arg6) (V c main_v21) (V c main_arg8) (V c main_v22) (V c main_arg10) (V c main_v23) (V c main_arg12) (V c main_v24) (V c main_arg18) (V c main_v25) (V c main_arg20) (V c main_v26) (((cfg1.win 17).blk t).view.emb (ix2 p q))
  rw [ho]
  simp only [h0, h1, h2, h3, h4, h5, h6, h7, h8, h9, h10, h11, h12, h13, h14, h15]
  rfl

/-- An index of the first array is in point t's block iff each coordinate is in the block's range on its axis. -/
theorem mem_blk_ea (t : Fin cfg1.N) (i : S800000x64.Idx) :
    i ∈ ((cfg1.win 16).blk t).view.set ↔ ∀ a : Fin 2, win1_16.index t a * S3200x64.size a ≤ (i a).val
      ∧ (i a).val < win1_16.index t a * S3200x64.size a + S3200x64.size a := by
  show i ∈ ((View.whole main_v27_0).slice (win1_16.rect t)).set ↔ _
  rw [View.set_slice_whole, Rect.mem_set_unit]
  exact Iff.rfl

/-- The same for the second array. -/
theorem mem_blk_msg (t : Fin cfg1.N) (i : S800000x256.Idx) :
    i ∈ ((cfg1.win 17).blk t).view.set ↔ ∀ a : Fin 2, win1_17.index t a * S3200x256.size a ≤ (i a).val
      ∧ (i a).val < win1_17.index t a * S3200x256.size a + S3200x256.size a := by
  show i ∈ ((View.whole main_v27_1).slice (win1_17.rect t)).set ↔ _
  rw [View.set_slice_whole, Rect.mem_set_unit]
  exact Iff.rfl

/-- Every edge lies in the block of the point numbered by the edge's quotient by 3200. -/
theorem cover_ea (i : S800000x64.Idx) :
    ∃ t : Fin cfg1.N, (cfg1.win 16).flush t = true ∧ i ∈ ((cfg1.win 16).blk t).view.set := by
  have h0 : (i 0).val < 800000 := (i 0).isLt
  have h1 : (i 1).val < 64 := (i 1).isLt
  let t : Fin cfg1.N := ⟨(i 0).val / 3200, by show (i 0).val / 3200 < 250; omega⟩
  obtain ⟨e0, e1, e2, e3, e4, e5, e6, e7, e8, e9, e10, e11, e12, e13, e14, e15, e16, e17, e18, e19, e20, e21, e22, e23, e24, e25, e26, e27, e28, e29, e30, e31, e32, e33, e34, e35⟩ := idx_facts t
  have e32' : win1_16.index t (0 : Fin 2) = (i 0).val / 3200 := e32
  refine ⟨t, flush1_16 t, ?_⟩
  rw [mem_blk_ea]
  intro a
  match a with
  | ⟨0, _⟩ => show win1_16.index t (0 : Fin 2) * 3200 ≤ (i 0).val ∧ (i 0).val < win1_16.index t (0 : Fin 2) * 3200 + 3200; omega
  | ⟨1, _⟩ => show win1_16.index t (1 : Fin 2) * 64 ≤ (i 1).val ∧ (i 1).val < win1_16.index t (1 : Fin 2) * 64 + 64; omega

theorem cover_msg (i : S800000x256.Idx) :
    ∃ t : Fin cfg1.N, (cfg1.win 17).flush t = true ∧ i ∈ ((cfg1.win 17).blk t).view.set := by
  have h0 : (i 0).val < 800000 := (i 0).isLt
  have h1 : (i 1).val < 256 := (i 1).isLt
  let t : Fin cfg1.N := ⟨(i 0).val / 3200, by show (i 0).val / 3200 < 250; omega⟩
  obtain ⟨e0, e1, e2, e3, e4, e5, e6, e7, e8, e9, e10, e11, e12, e13, e14, e15, e16, e17, e18, e19, e20, e21, e22, e23, e24, e25, e26, e27, e28, e29, e30, e31, e32, e33, e34, e35⟩ := idx_facts t
  have e34' : win1_17.index t (0 : Fin 2) = (i 0).val / 3200 := e34
  refine ⟨t, flush1_17 t, ?_⟩
  rw [mem_blk_msg]
  intro a
  match a with
  | ⟨0, _⟩ => show win1_17.index t (0 : Fin 2) * 3200 ≤ (i 0).val ∧ (i 0).val < win1_17.index t (0 : Fin 2) * 3200 + 3200; omega
  | ⟨1, _⟩ => show win1_17.index t (1 : Fin 2) * 256 ≤ (i 1).val ∧ (i 1).val < win1_17.index t (1 : Fin 2) * 256 + 256; omega

/-- The two arrays after the region. -/
theorem final_ea (c : Dev nD) :
    (dat1 V c).arrAt 16 cfg1.N = Gea (V c main_arg2) (V c main_arg6) (V c main_v21) (V c main_arg8) (V c main_v22) :=
  (dat1 V c).arrAt_eq_of_cover 16 _ (fun t _ => flushed_ea V c t) cover_ea

theorem final_msg (c : Dev nD) :
    (dat1 V c).arrAt 17 cfg1.N = Gmsg (V c main_arg2) (V c main_v13) (V c main_v20) (V c main_arg3) (V c main_arg6) (V c main_v21) (V c main_arg8) (V c main_v22) (V c main_arg10) (V c main_v23) (V c main_arg12) (V c main_v24) (V c main_arg18) (V c main_v25) (V c main_arg20) (V c main_v26) :=
  (dat1 V c).arrAt_eq_of_cover 17 _ (fun t _ => flushed_msg V c t) cover_msg

end Cert.KernelIdeal.KBlocks1

end
-- ==== Proof.KernelBlocks2.lean ====
/-
  The node-update region, block by block and then as one array.

  The output array [50000, 64] is written in ten row blocks of 5000 rows; grid point t writes rows 5000·t … 5000·t + 4999
  from the same rows of the node-embedding array and of the collected-message array and from the whole weight and bias-row
  arrays.  Every row lies in exactly one block, so after the region the array holds, at (n, d), the two-layer network on
  the node's two rows laid side by side.
-/
import proofs.«174115_j6777458393829_2_alg».proof.Proof.Gen.KernelIdeal.Frame
import proofs.«174115_j6777458393829_2_alg».proof.Proof.KernelPay
import proofs.«174115_j6777458393829_2_alg».proof.Proof.KernelPay2
import Idealize.ShloMosaic.Lib.Pipeline.Value
import Idealize.ShloMosaic.Lib.ValueIdx

set_option maxRecDepth 16384

noncomputable section

open scoped BigOperators

namespace Cert.KernelIdeal.KBlocks2

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as a function of the arrays the region reads. -/
def G (a0 a1 : S50000x64.Idx → EReal) (a2 : S128x64.Idx → EReal) (a3 : S1x64.Idx → EReal) (a4 : S64x64.Idx → EReal)
    (a5 : S1x64.Idx → EReal) : S50000x64.Idx → EReal :=
  fun i => mlp (cat2 (fun k => a0 (ix2 (⟨(i 0).val, (i 0).isLt⟩ : Fin 50000) k)) (fun k => a1 (ix2 (⟨(i 0).val, (i 0).isLt⟩ : Fin 50000) k)))
    (fun q c => a2 (ix2 q c)) (fun c => a3 (ix2 (0 : Fin 1) c)) (fun q c => a4 (ix2 q c)) (fun c => a5 (ix2 (0 : Fin 1) c))
    (⟨(i 1).val, (i 1).isLt⟩ : Fin 64)

/-- The printed index maps over the ten grid points. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of G of the arrays as the region finds them. -/
theorem flushed_eq (c : Dev nD) (t : Fin cfg2.N) :
    (dat2 V c).flushed 6 t
      = ((cfg2.win 6).blk t).view.read (Elt Ideal)
          (G (V c main_v5) (V c main_v32) (V c main_arg14) (V c main_v36) (V c main_arg16) (V c main_v37)) := by
  show (cfg2.win 6).cut (grid2.coords t) ((dat2 V c).after 6 t) = _
  rw [after2_6]
  unfold out2_6
  rw [View.canon_unit_zero hz]
  simp only [View.ld_unit_zero (S := S5000x64) hz, View.ld_unit_zero (S := S128x64) hz, View.ld_unit_zero (S := S1x64) hz,
    View.ld_unit_zero (S := S64x64) hz]
  obtain ⟨e0, e1, e2, e3, e4, e5, e6, e7, e8, e9, e10, e11, e12, e13⟩ := idx_facts t
  have ht : t.val < 10 := t.isLt
  funext j
  obtain ⟨p, q, rfl⟩ : ∃ (p : Fin 5000) (q : Fin 64), j = ix2 p q := ⟨j 0, j 1, eq_ix2 j⟩
  refine (KPay.pay_h0 (iblk2 V c 0 t) (iblk2 V c 1 t) (iblk2 V c 2 t) (iblk2 V c 3 t) (iblk2 V c 4 t) (iblk2 V c 5 t) p q).trans ?_
  have hp := p.isLt
  have hq := q.isLt
  have hr0 : ∀ k : Fin 64, ((cfg2.win 0).blk t).view.emb (ix2 p k) = ix2 (⟨t.val * 5000 + p.val, by omega⟩ : Fin 50000) k := by
    intro k; funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  have hr1 : ∀ k : Fin 64, ((cfg2.win 1).blk t).view.emb (ix2 p k) = ix2 (⟨t.val * 5000 + p.val, by omega⟩ : Fin 50000) k := by
    intro k; funext a; apply Fin.ext
    match a with
    | ⟨0, _⟩ => show win2_1.index t (0 : Fin 2) * 5000 + 1 * p.val = t.val * 5000 + p.val; omega
    | ⟨1, _⟩ => show win2_1.index t (1 : Fin 2) * 64 + 1 * k.val = k.val; omega
  have hw2 : ∀ (k : Fin 128) (d : Fin 64), ((cfg2.win 2).blk t).view.emb (ix2 k d) = ix2 k d := by
    intro k d; funext a; apply Fin.ext
    match a with
    | ⟨0, _⟩ => show win2_2.index t (0 : Fin 2) * 128 + 1 * k.val = k.val; omega
    | ⟨1, _⟩ => show win2_2.index t (1 : Fin 2) * 64 + 1 * d.val = d.val; omega
  have hb3 : ∀ d : Fin 64, ((cfg2.win 3).blk t).view.emb (ix2 (0 : Fin 1) d) = ix2 (0 : Fin 1) d := by
    intro d; funext a; apply Fin.ext
    match a with
    | ⟨0, _⟩ => show win2_3.index t (0 : Fin 2) * 1 + 1 * 0 = 0; omega
    | ⟨1, _⟩ => show win2_3.index t (1 : Fin 2) * 64 + 1 * d.val = d.val; omega
  have hw4 : ∀ (k : Fin 64) (d : Fin 64), ((cfg2.win 4).blk t).view.emb (ix2 k d) = ix2 k d := by
    intro k d; funext a; apply Fin.ext
    match a with
    | ⟨0, _⟩ => show win2_4.index t (0 : Fin 2) * 64 + 1 * k.val = k.val; omega
    | ⟨1, _⟩ => show win2_4.index t (1 : Fin 2) * 64 + 1 * d.val = d.val; omega
  have hb5 : ∀ d : Fin 64, ((cfg2.win 5).blk t).view.emb (ix2 (0 : Fin 1) d) = ix2 (0 : Fin 1) d := by
    intro d; funext a; apply Fin.ext
    match a with
    | ⟨0, _⟩ => show win2_5.index t (0 : Fin 2) * 1 + 1 * 0 = 0; omega
    | ⟨1, _⟩ => show win2_5.index t (1 : Fin 2) * 64 + 1 * d.val = d.val; omega
  have ho : ((cfg2.win 6).blk t).view.emb (ix2 p q) = ix2 (⟨t.val * 5000 + p.val, by omega⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  show mlp (cat2 (fun k => V c main_v5 (((cfg2.win 0).blk t).view.emb (ix2 p k)))
        (fun k => V c main_v32 (((cfg2.win 1).blk t).view.emb (ix2 p k))))
      (fun k d => V c main_arg14 (((cfg2.win 2).blk t).view.emb (ix2 k d)))
      (fun d => V c main_v36 (((cfg2.win 3).blk t).view.emb (ix2 (0 : Fin 1) d)))
      (fun k d => V c main_arg16 (((cfg2.win 4).blk t).view.emb (ix2 k d)))
      (fun d => V c main_v37 (((cfg2.win 5).blk t).view.emb (ix2 (0 : Fin 1) d))) q
    = G (V c main_v5) (V c main_v32) (V c main_arg14) (V c main_v36) (V c main_arg16) (V c main_v37)
        (((cfg2.win 6).blk t).view.emb (ix2 p q))
  rw [ho]
  simp only [hr0, hr1, hw2, hb3, hw4, hb5]
  rfl

/-- An index of the array is in point t's block iff each coordinate is in the block's range on its axis. -/
theorem mem_blk (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v38).slice (win2_6.rect t)).set ↔ _
  rw [View.set_slice_whole, Rect.mem_set_unit]
  exact Iff.rfl

/-- Every row lies in the block of the point numbered by the row's quotient by 5000. -/
theorem cover (i : S50000x64.Idx) :
    ∃ t : Fin cfg2.N, (cfg2.win 6).flush t = true ∧ i ∈ ((cfg2.win 6).blk t).view.set := by
  have h0 : (i 0).val < 50000 := (i 0).isLt
  have h1 : (i 1).val < 64 := (i 1).isLt
  let t : Fin cfg2.N := ⟨(i 0).val / 5000, by show (i 0).val / 5000 < 10; omega⟩
  obtain ⟨e0, e1, e2, e3, e4, e5, e6, e7, e8, e9, e10, e11, e12, e13⟩ := idx_facts t
  have e12' : win2_6.index t (0 : Fin 2) = (i 0).val / 5000 := e12
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The array after the region. -/
theorem final (c : Dev nD) :
    (dat2 V c).arrAt 6 cfg2.N
      = G (V c main_v5) (V c main_v32) (V c main_arg14) (V c main_v36) (V c main_arg16) (V c main_v37) :=
  (dat2 V c).arrAt_eq_of_cover 6 _ (fun t _ => flushed_eq V c t) cover

end Cert.KernelIdeal.KBlocks2

end
-- ==== Proof.LibSegmentSum.lean ====
/-
  A float scatter-add whose scatter indices name ROWS, read at an index.

  `jax.ops.segment_sum(data, ids, num_segments = N)` lowers to a `stablehlo.scatter` with an `add` body over
  scatter indices of shape `[E, 1]`: update row `e` is added to operand row `ids[e]`, read signed, and is dropped
  when that row is outside `[0, N)`. Two layouts occur: updates `[E, D]` into an operand `[N, D]` (a row of `D`
  entries per update: the window axis is axis 1) and updates `[E]` into an operand `[N]` (one entry per update, no
  window axis). At the exact instance both are, entry by entry, the operand plus the sum of the updates over the SAME
  set of edges `{e | ids[e] = n}` (`rows_apply`, `entries_apply`), so a segment sum of differences `g e k - w e`
  with every `w e` real is the difference of the two segment sums (`sum_sub_coe`): on the extended reals the
  subtraction of a REAL distributes over a finite sum, which it does not for infinite `w`.
-/
import Idealize.ShloMosaic.PureOps.Ideal
import Idealize.ShloMosaic.Lib.ValueIdx

noncomputable section

open scoped BigOperators

namespace Cert.SegmentSum

open Idealize.ShloMosaic Idealize.ShloMosaic.ValueIdx

/-! ## The two layouts' dimension numbers -/

/-- Updates `[E, D]` into an operand `[N, D]`, one scatter index per update row. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Updates `[E]` into an operand `[N]`, one scatter index per update entry. -/
abbrev entriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment edge `e` is sent to: its scatter index, read signed. -/
def seg {E w : Nat} (idx : IVec ⟨2, ![E, 1]⟩ w) (e : Fin E) : Int := (idx (ix2 e (0 : Fin 1))).toInt

section Rows
variable {N E D w : Nat} (wf : ScatterDims.WF ⟨2, ![N, D]⟩ ⟨2, ![E, 1]⟩ ⟨2, ![E, D]⟩ [1] [0] [0] 1)
variable (idx : IVec ⟨2, ![E, 1]⟩ w) (e : Fin E) (q : Fin D)

theorem rows_start0 : (rowsDims N E D wf).start (ix2 e q) idx 0 = seg idx e := by
  unfold ScatterDims.start
  rw [dif_pos (show (0 : Fin 2) ∈ (rowsDims N E D wf).scatterDimsToOperandDims from List.mem_singleton.mpr rfl)]
  have hsi : (rowsDims N E D wf).siIdx (ix2 e q) ⟨List.idxOf (0 : Fin 2) (rowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_start1 : (rowsDims N E D wf).start (ix2 e q) idx 1 = 0 := by
  unfold ScatterDims.start
  rw [dif_neg (show ¬ (1 : Fin 2) ∈ (rowsDims N E D wf).scatterDimsToOperandDims by
    show ¬ (1 : Fin 2) ∈ [(0 : Fin 2)]; decide)]

theorem rows_window0 : (rowsDims N E D wf).window (ix2 e q) 0 = 0 := by
  unfold ScatterDims.window
  rw [dif_neg (show ¬ (0 : Fin 2) ∈ (rowsDims N E D wf).sKept by
    show ¬ (0 : Fin 2) ∈ (List.finRange 2).filter (fun a => a ∉ [(0 : Fin 2)]); decide)]

theorem rows_window1 : (rowsDims N E D wf).window (ix2 e q) 1 = q.val := by
  unfold ScatterDims.window
  rw [dif_pos (show (1 : Fin 2) ∈ (rowsDims N E D wf).sKept by
    show (1 : Fin 2) ∈ (List.finRange 2).filter (fun a => a ∉ [(0 : Fin 2)]); decide)]
  rfl

/-- Update entry `(e, q)` lands on operand entry `(n, k)` exactly when edge `e`'s segment is `n` and `q = k`. -/
theorem rows_resultIdx_iff (n : Fin N) (k : Fin D) :
    (rowsDims N E D wf).resultIdx? (ix2 e q) idx = some (ix2 n k) ↔ seg idx e = (n.val : Int) ∧ q = k := by
  have s0 := rows_start0 wf idx e q
  have s1 := rows_start1 wf idx e q
  have w0 := rows_window0 wf e q
  have w1 := rows_window1 wf e q
  unfold ScatterDims.resultIdx?
  split_ifs with h
  · rw [Option.some.injEq]
    constructor
    · intro h'
      have h0 := congrArg Fin.val (congrFun h' 0)
      have h1 := congrArg Fin.val (congrFun h' 1)
      have p0 := (h 0).1
      simp only [s0, w0] at h0 p0
      simp only [s1, w1] at h1
      refine ⟨?_, Fin.ext ?_⟩
      · have : ((seg idx e + ((0 : Nat) : Int)).toNat : Nat) = n.val := h0
        omega
      · have : (((0 : Int) + (q.val : Int)).toNat : Nat) = k.val := h1
        omega
    · rintro ⟨hs, rfl⟩
      funext a; refine Fin.ext ?_
      match a with
      | ⟨0, _⟩ =>
        show ((rowsDims N E D wf).start (ix2 e q) idx 0 + ((rowsDims N E D wf).window (ix2 e q) 0 : Int)).toNat = n.val
        rw [s0, w0, hs]; omega
      | ⟨1, _⟩ =>
        show ((rowsDims N E D wf).start (ix2 e q) idx 1 + ((rowsDims N E D wf).window (ix2 e q) 1 : Int)).toNat = q.val
        rw [s1, w1]; omega
  · constructor
    · intro h'; exact absurd h' (by simp)
    · rintro ⟨hs, rfl⟩
      exfalso; apply h
      intro a
      match a with
      | ⟨0, _⟩ =>
        show 0 ≤ (rowsDims N E D wf).start (ix2 e q) idx 0 + ((rowsDims N E D wf).window (ix2 e q) 0 : Int) ∧
          (rowsDims N E D wf).start (ix2 e q) idx 0 + ((rowsDims N E D wf).window (ix2 e q) 0 : Int) < (N : Int)
        rw [s0, w0, hs]; have := n.isLt; omega
      | ⟨1, _⟩ =>
        show 0 ≤ (rowsDims N E D wf).start (ix2 e q) idx 1 + ((rowsDims N E D wf).window (ix2 e q) 1 : Int) ∧
          (rowsDims N E D wf).start (ix2 e q) idx 1 + ((rowsDims N E D wf).window (ix2 e q) 1 : Int) < (D : Int)
        rw [s1, w1]; have := q.isLt; omega

end Rows

section Entries
variable {N E w : Nat} (wf : ScatterDims.WF ⟨1, ![N]⟩ ⟨2, ![E, 1]⟩ ⟨1, ![E]⟩ [] [0] [0] 1)
variable (idx : IVec ⟨2, ![E, 1]⟩ w) (e : Fin E)

theorem entries_start0 : (entriesDims N E wf).start (ix1 e) idx 0 = seg idx e := by
  unfold ScatterDims.start
  rw [dif_pos (show (0 : Fin 1) ∈ (entriesDims N E wf).scatterDimsToOperandDims from List.mem_singleton.mpr rfl)]
  have hsi : (entriesDims N E wf).siIdx (ix1 e) ⟨List.idxOf (0 : Fin 1) (entriesDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem entries_window0 : (entriesDims N E wf).window (ix1 e) 0 = 0 := by
  unfold ScatterDims.window
  rw [dif_neg (show ¬ (0 : Fin 1) ∈ (entriesDims N E wf).sKept by
    show ¬ (0 : Fin 1) ∈ (List.finRange 1).filter (fun a => a ∉ [(0 : Fin 1)]); decide)]

/-- Update entry `e` lands on operand entry `n` exactly when edge `e`'s segment is `n`. -/
theorem entries_resultIdx_iff (n : Fin N) :
    (entriesDims N E wf).resultIdx? (ix1 e) idx = some (ix1 n) ↔ seg idx e = (n.val : Int) := by
  have s0 := entries_start0 wf idx e
  have w0 := entries_window0 wf e
  unfold ScatterDims.resultIdx?
  split_ifs with h
  · rw [Option.some.injEq]
    constructor
    · intro h'
      have h0 := congrArg Fin.val (congrFun h' 0)
      have p0 := (h 0).1
      simp only [s0, w0] at h0 p0
      have : ((seg idx e + ((0 : Nat) : Int)).toNat : Nat) = n.val := h0
      omega
    · intro hs
      funext a; refine Fin.ext ?_
      match a with
      | ⟨0, _⟩ =>
        show ((entriesDims N E wf).start (ix1 e) idx 0 + ((entriesDims N E wf).window (ix1 e) 0 : Int)).toNat = n.val
        rw [s0, w0, hs]; omega
  · constructor
    · intro h'; exact absurd h' (by simp)
    · intro hs
      exfalso; apply h
      intro a
      match a with
      | ⟨0, _⟩ =>
        show 0 ≤ (entriesDims N E wf).start (ix1 e) idx 0 + ((entriesDims N E wf).window (ix1 e) 0 : Int) ∧
          (entriesDims N E wf).start (ix1 e) idx 0 + ((entriesDims N E wf).window (ix1 e) 0 : Int) < (N : Int)
        rw [s0, w0, hs]; have := n.isLt; omega

end Entries

/-! ## The exact scatter-add at an entry -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE ROWS LAYOUT AT `(n, k)`: the operand's entry plus the sum, over the edges whose segment is `n`, of column
    `k` of their update rows. -/
theorem rows_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd (rowsDims N E D wf) x idx upd (ix2 n k)
      = x (ix2 n k) + ∑ e ∈ Finset.univ.filter (fun e : Fin E => seg idx e = (n.val : Int)), upd (ix2 e k) := by
  unfold Ideal.hostScatterAdd
  congr 1
  rw [Finset.sum_filter, Finset.sum_filter, sum_idx2]
  refine Finset.sum_congr rfl fun e _ => ?_
  by_cases hs : seg idx e = (n.val : Int)
  · rw [if_pos hs, Finset.sum_eq_single k]
    · rw [if_pos ((rows_resultIdx_iff wf idx e k n k).2 ⟨hs, rfl⟩)]
    · intro q _ hq
      rw [if_neg (fun h => hq ((rows_resultIdx_iff wf idx e q n k).1 h).2)]
    · intro h; exact absurd (Finset.mem_univ k) h
  · rw [if_neg hs]
    refine Finset.sum_eq_zero fun q _ => ?_
    rw [if_neg (fun h => hs ((rows_resultIdx_iff wf idx e q n k).1 h).1)]

/-- THE ENTRIES LAYOUT AT `n`: the operand's entry plus the sum of the updates of the edges whose segment is `n`. -/
theorem entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (entriesDims N E wf) x idx upd (ix1 n)
      = x (ix1 n) + ∑ e ∈ Finset.univ.filter (fun e : Fin E => seg idx e = (n.val : Int)), upd (ix1 e) := by
  unfold Ideal.hostScatterAdd
  congr 1
  rw [Finset.sum_filter, Finset.sum_filter, ← Equiv.sum_comp (idxEquiv1 (n := E)).symm]
  refine Finset.sum_congr rfl fun e _ => ?_
  show (if (entriesDims N E wf).resultIdx? (ix1 e) idx = some (ix1 n) then upd (ix1 e) else 0) = _
  by_cases hs : seg idx e = (n.val : Int)
  · rw [if_pos hs, if_pos ((entries_resultIdx_iff wf idx e n).2 hs)]
  · rw [if_neg hs, if_neg (fun h => hs ((entries_resultIdx_iff wf idx e n).1 h))]

/-! ## Subtracting reals under a finite sum -/

/-- On the extended reals, a finite sum of differences `g e - w e` with every `w e` REAL is the difference of the
    sums. (With infinite `w` it is false: `(0 - ⊥) + (0 - ⊤) = ⊥` while `(0 + 0) - (⊥ + ⊤) = ⊤`.) -/
theorem sum_sub_coe {ι : Type*} (s : Finset ι) (g : ι → EReal) (w : ι → ℝ) :
    ∑ e ∈ s, (g e - (w e : EReal)) = ∑ e ∈ s, g e - ∑ e ∈ s, (w e : EReal) := by
  classical
  have hw : ∀ s : Finset ι, ∑ e ∈ s, (w e : EReal) = ((∑ e ∈ s, w e : ℝ) : EReal) := by
    intro s
    induction s using Finset.induction_on with
    | empty => simp
    | insert a s ha ih => rw [Finset.sum_insert ha, Finset.sum_insert ha, ih, EReal.coe_add]
  rw [hw s]
  clear hw
  induction s using Finset.induction_on with
  | empty => simp
  | insert a s ha ih =>
    rw [Finset.sum_insert ha, Finset.sum_insert ha, Finset.sum_insert ha, ih, EReal.coe_add,
      sub_eq_add_neg, sub_eq_add_neg, sub_eq_add_neg, ← EReal.coe_add, ← EReal.coe_neg, ← EReal.coe_neg, ← EReal.coe_neg,
      neg_add, EReal.coe_add, add_add_add_comm]

/-! ## The segment sum of differences -/

/-- SUBTRACTING A REAL PER-EDGE WEIGHT COMMUTES WITH THE SEGMENT SUM. Scatter-adding, into zeros, update rows
    `u e k = u' e k − r e` (`r e` real) gives at `(n, k)` the scatter-add of the rows `u'` at `(n, k)` less the
    scatter-add of the weights `r` at `n`: all three sums run over the edges whose segment is `n`. -/
theorem segment_sum_sub {N E D w : Nat}
    (wf2 : ScatterDims.WF ⟨2, ![N, D]⟩ ⟨2, ![E, 1]⟩ ⟨2, ![E, D]⟩ [1] [0] [0] 1)
    (wf1 : ScatterDims.WF ⟨1, ![N]⟩ ⟨2, ![E, 1]⟩ ⟨1, ![E]⟩ [] [0] [0] 1)
    (z z' : (⟨2, ![N, D]⟩ : Shape).Idx → EReal) (z₁ : (⟨1, ![N]⟩ : Shape).Idx → EReal) (idx : IVec ⟨2, ![E, 1]⟩ w)
    (u u' : (⟨2, ![E, D]⟩ : Shape).Idx → EReal) (v : (⟨1, ![E]⟩ : Shape).Idx → EReal) (r : Fin E → ℝ)
    (n : Fin N) (k : Fin D)
    (hz : z (ix2 n k) = 0) (hz' : z' (ix2 n k) = 0) (hz₁ : z₁ (ix1 n) = 0)
    (hv : ∀ e, v (ix1 e) = (r e : EReal)) (hu : ∀ e, u (ix2 e k) = u' (ix2 e k) - (r e : EReal)) :
    Ideal.hostScatterAdd (rowsDims N E D wf2) z idx u (ix2 n k)
      = Ideal.hostScatterAdd (rowsDims N E D wf2) z' idx u' (ix2 n k)
        - Ideal.hostScatterAdd (entriesDims N E wf1) z₁ idx v (ix1 n) := by
  rw [rows_apply, rows_apply, entries_apply, hz, hz', hz₁, zero_add, zero_add, zero_add,
    Finset.sum_congr rfl (fun e _ => hu e), Finset.sum_congr rfl (fun e _ => hv e)]
  exact sum_sub_coe _ _ _

end Cert.SegmentSum

end
-- ==== Proof.KernelTail.lean ====
/-
  The kernel program's host operations after its second region, read at an entry.

  The second region leaves one message row of 256 numbers per edge. The host widens the rows (the identity at the exact
  values), scatter-adds row `e` into row `col[e]` of a zero array with one row per node, and then cuts the sums in two:
  columns `0 … 63` are the aggregated scalars, and columns `64 … 255`, reshaped to `[node, 3, 64]` and with the last
  two axes exchanged, are the aggregated vectors — entry `(n, d, k)` of the result is column `64 + 64·k + d` of the
  sums' row `n`. Every entry is therefore the sum, over the edges whose segment is `n`, of one column of the message
  rows; no law of arithmetic is used beyond `0 + s = s`.
-/
import proofs.«174115_j6777458393829_2_alg».proof.KernelIdeal
import proofs.«174115_j6777458393829_2_alg».proof.Proof.LibSegmentSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelTail

open Idealize.ShloMosaic Idealize.ShloMosaic.ValueIdx
open Cert.KernelIdeal Cert.KernelIdeal.Facts₀
open Cert.SegmentSum (seg)

variable [Facts₀]

/-- The zero array the sums are accumulated into is `0` at every entry. -/
theorem zeros_apply (n : Fin 50000) (q : Fin 256) :
    broadcastInDim S50000x256 ![] bcast_S_S50000x256 (constant (F := Ideal) S_ .f32 0x00000000#32) (ix2 n q)
      = (0 : EReal) := by
  rw [broadcastInDim_apply _ _ _ _ ix0 (fun a => a.elim0)]
  exact Ideal.ofBits_zero_f32

/-- The host's float scatter-add of rows at the exact values, at any sizes: entry `(n, k)` is the operand's entry plus
    the sum, over the edges whose segment is `n`, of column `k` of their update rows. (The rows layout's lemma, stated for
    the operation as a program spells it and for any dimension record that is the rows layout's.) -/
theorem scatterAdd_rows_apply {N E D w : Nat} {φ : FTy}
    (r : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hr : r = Cert.SegmentSum.rowsDims N E D wf)
    (x : FVec Ideal ⟨2, ![N, D]⟩ φ) (idx : IVec ⟨2, ![E, 1]⟩ w) (upd : FVec Ideal ⟨2, ![E, D]⟩ φ) (n : Fin N) (k : Fin D) :
    Host.scatterAdd (F := Ideal) r x idx upd (ix2 n k)
      = x (ix2 n k) + ∑ e ∈ Finset.univ.filter (fun e : Fin E => seg idx e = (n.val : Int)), upd (ix2 e k) := by
  subst hr
  have h : Host.scatterAdd (F := Ideal) (Cert.SegmentSum.rowsDims N E D wf) x idx upd
      = Ideal.hostScatterAdd (Cert.SegmentSum.rowsDims N E D wf) x idx upd := rfl
  exact (congrFun h (ix2 n k)).trans (Cert.SegmentSum.rows_apply wf x idx upd n k)

/-- THE SCATTER-ADD AT `(n, q)`: the sum, over the edges whose segment is `n`, of column `q` of their message rows. -/
theorem sums_apply (msg : (⟨S800000x256, .bf16⟩ : BufTy).Contents (Elt Ideal))
    (col : (⟨S800000x1, .i32⟩ : BufTy).Contents (Elt Ideal)) (n : Fin 50000) (q : Fin 256) :
    Host.scatterAdd (F := Ideal) scatter_S50000x256_S800000x1_S800000x256_1_0_0_1
        (broadcastInDim S50000x256 ![] bcast_S_S50000x256 (constant (F := Ideal) S_ .f32 0x00000000#32)) col
        (extf .f32 msg bitsLt_bf16_f32) (ix2 n q)
      = ∑ e ∈ Finset.univ.filter (fun e : Fin 800000 => seg col e = (n.val : Int)), msg (ix2 e q) := by
  refine (scatterAdd_rows_apply _ scatter_S50000x256_S800000x1_S800000x256_1_0_0_1_wf rfl _ _ _ n q).trans ?_
  refine (congrArg (· + _) (zeros_apply n q)).trans ?_
  refine (zero_add _).trans ?_
  exact Finset.sum_congr rfl fun e _ => extf_apply _ _ _

/-- THE AGGREGATED SCALARS AT `(n, d)`: column `d` of the message rows, summed over the edges whose segment is `n`. -/
theorem tail_aggs (msg : (⟨S800000x256, .bf16⟩ : BufTy).Contents (Elt Ideal))
    (col : (⟨S800000x1, .i32⟩ : BufTy).Contents (Elt Ideal)) (n : Fin 50000) (d : Fin 64) :
    extractStridedSlice S50000x64 ![0, 0]
        (Host.scatterAdd (F := Ideal) scatter_S50000x256_S800000x1_S800000x256_1_0_0_1
          (broadcastInDim S50000x256 ![] bcast_S_S50000x256 (constant (F := Ideal) S_ .f32 0x00000000#32)) col
          (extf .f32 msg bitsLt_bf16_f32))
        slices_S50000x256_S50000x64_0_0 (ix2 n d)
      = ∑ e ∈ Finset.univ.filter (fun e : Fin 800000 => seg col e = (n.val : Int)),
          msg (ix2 e ⟨d.val, by have := d.isLt; omega⟩) := by
  refine (extractStridedSlice_apply _ _ _ _ (ix2 n (⟨d.val, by have := d.isLt; omega⟩ : Fin 256)) (fun a => by
    match a with
    | ⟨0, _⟩ => show n.val = 0 + n.val; omega
    | ⟨1, _⟩ => show d.val = 0 + d.val; omega)).trans ?_
  exact sums_apply msg col n _

/-- THE AGGREGATED VECTORS AT `(n, d, k)`: column `64 + 64·k + d` of the message rows, summed over the edges whose
    segment is `n`. -/
theorem tail_v0 (msg : (⟨S800000x256, .bf16⟩ : BufTy).Contents (Elt Ideal))
    (col : (⟨S800000x1, .i32⟩ : BufTy).Contents (Elt Ideal)) (n : Fin 50000) (d : Fin 64) (k : Fin 3) :
    transpose S50000x64x3 [0, 2, 1]
        (shapeCast S50000x3x64
          (extractStridedSlice S50000x192 ![0, 64]
            (Host.scatterAdd (F := Ideal) scatter_S50000x256_S800000x1_S800000x256_1_0_0_1
              (broadcastInDim S50000x256 ![] bcast_S_S50000x256 (constant (F := Ideal) S_ .f32 0x00000000#32)) col
              (extf .f32 msg bitsLt_bf16_f32))
            slices_S50000x256_S50000x192_0_64)
          shapeCasts_S50000x192_S50000x3x64)
        transposes_S50000x3x64_S50000x64x3_0_2_1 (ix3 n d k)
      = ∑ e ∈ Finset.univ.filter (fun e : Fin 800000 => seg col e = (n.val : Int)),
          msg (ix2 e ⟨64 + 64 * k.val + d.val, by have := d.isLt; have := k.isLt; omega⟩) := by
  have hd := d.isLt
  have hk := k.isLt
  refine (transpose_ix3_021_apply _ _ n d k).trans ?_
  refine (shapeCast_apply _ _ _ (ix2 n (⟨64 * k.val + d.val, by omega⟩ : Fin 192)) ?_).trans ?_
  · rw [Shape.rowMajor_val_two, Shape.rowMajor_val_three]
    show n.val * 192 + (64 * k.val + d.val) = (n.val * 3 + k.val) * 64 + d.val
    omega
  refine (extractStridedSlice_apply _ _ _ _ (ix2 n (⟨64 + 64 * k.val + d.val, by omega⟩ : Fin 256)) (fun a => by
    match a with
    | ⟨0, _⟩ => show n.val = 0 + n.val; omega
    | ⟨1, _⟩ => show 64 + 64 * k.val + d.val = 64 + (64 * k.val + d.val); omega)).trans ?_
  exact sums_apply msg col n _

end Cert.KernelTail

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.SpecArrays.lean ====
/-
  The coordinate inputs of the layer read off arrays: matrices and vectors entry by entry; the node an edge reads as the
  row number it holds in a column of row numbers, read signed and clamped into the table (how a gather of rows reads it);
  the segment an edge adds to as the signed number it holds in a column of segment numbers (how a scatter-add reads it).
-/
import proofs.«174115_j6777458393829_2_alg».proof.Proof.Spec
import proofs.«174115_j6777458393829_2_alg».proof.Proof.LibGatherRows
import proofs.«174115_j6777458393829_2_alg».proof.Proof.LibSegmentSum
import Idealize.ShloMosaic.Lib.ValueIdx

noncomputable section

namespace Cert.SpecArrays

open Idealize.ShloMosaic Idealize.ShloMosaic.ValueIdx

/-- A matrix of extended reals. -/
abbrev Mat (a b : Nat) : Type := (⟨2, ![a, b]⟩ : Shape).Idx → EReal
/-- A vector of extended reals. -/
abbrev Vc (a : Nat) : Type := (⟨1, ![a]⟩ : Shape).Idx → EReal
/-- A column of 32-bit integers, one per edge. -/
abbrev Col : Type := IVec ⟨2, ![800000, 1]⟩ 32

/-- The layer's inputs from the argument arrays and the three index columns. -/
def inputs (x0 : Mat 50000 5) (x2 : Mat 800000 16) (x3 : Mat 800000 3) (x4 : Mat 5 64) (x5 : Vc 64)
    (x6 : Mat 16 64) (x7 : Vc 64) (x8 : Mat 64 64) (x9 : Vc 64) (x10 : Mat 192 64) (x11 : Vc 64) (x12 : Mat 64 64) (x13 : Vc 64)
    (x14 : Mat 128 64) (x15 : Vc 64) (x16 : Mat 64 64) (x17 : Vc 64) (x18 : Mat 192 64) (x19 : Vc 64) (x20 : Mat 64 64) (x21 : Vc 64)
    (colI colJ colS : Col) : Spec.Inputs where
  sp n k := x0 (ix2 n k)
  attr e k := x2 (ix2 e k)
  vec e k := x3 (ix2 e k)
  Wa k d := x4 (ix2 k d)
  ba d := x5 (ix1 d)
  Wb1 k d := x6 (ix2 k d)
  bb1 d := x7 (ix1 d)
  Wb2 k d := x8 (ix2 k d)
  bb2 d := x9 (ix1 d)
  Ws1 k d := x10 (ix2 k d)
  bs1 d := x11 (ix1 d)
  Ws2 k d := x12 (ix2 k d)
  bs2 d := x13 (ix1 d)
  Wh1 k d := x14 (ix2 k d)
  bh1 d := x15 (ix1 d)
  Wh2 k d := x16 (ix2 k d)
  bh2 d := x17 (ix1 d)
  Wv1 k d := x18 (ix2 k d)
  bv1 d := x19 (ix1 d)
  Wv2 k d := x20 (ix2 k d)
  bv2 d := x21 (ix1 d)
  rowI := GatherRows.rowOf (N := 50000) (by norm_num) colI
  rowJ := GatherRows.rowOf (N := 50000) (by norm_num) colJ
  seg := SegmentSum.seg colS

end Cert.SpecArrays

end
-- ==== Proof.KernelValue.lean ====
/-
  The idealized kernel program's three results, entry by entry, in the layer's own terms.

  Walking @main's segments: the node-embedding region leaves f; the gathers read f at each edge's two ends; the edge region
  leaves the embedded attributes (the third result) and each edge's 256 message numbers; the scatter-add sums those per
  receiving node, its first 64 columns are the collected scalar messages and the other 192, re-laid, are the second
  result; the node-update region leaves the first result.
-/
import proofs.«174115_j6777458393829_2_alg».proof.Proof.KernelHost
import proofs.«174115_j6777458393829_2_alg».proof.Proof.KernelBlocks0
import proofs.«174115_j6777458393829_2_alg».proof.Proof.KernelBlocks1
import proofs.«174115_j6777458393829_2_alg».proof.Proof.KernelBlocks2
import proofs.«174115_j6777458393829_2_alg».proof.Proof.KernelTail
import proofs.«174115_j6777458393829_2_alg».proof.Proof.SpecArrays
import proofs.«174115_j6777458393829_2_alg».proof.Proof.SpecRows
import Idealize.ShloMosaic.Lib.ValueLayout

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Cert.Spec
open Cert.KernelIdeal.KHost

variable (m : (ℓ : Loc nD τ sig) → Buf (Elt Ideal) ℓ) (ρ : Dev nD → PrngReg) (c : Dev nD)

/-- The layer's inputs read off the kernel program's argument arrays. -/
abbrev I : Spec.Inputs :=
  SpecArrays.inputs (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    (gatherCol (rowsI (m ((c : Thread nD τ).loc main_arg1)))) (gatherCol (rowsJ (m ((c : Thread nD τ).loc main_arg1)))) (segCol (rowsJ (m ((c : Thread nD τ).loc main_arg1))))

/-- A bias vector reshaped to one row reads the vector. -/
theorem bias_row (b : (⟨S64, .f32⟩ : BufTy).Contents (Elt Ideal)) :
    (fun d : Fin 64 => shapeCast S1x64 b shapeCasts_S64_S1x64 (ix2 (0 : Fin 1) d)) = fun d => b (ix1 d) :=
  funext fun d => shapeCast_a_1a_apply b shapeCasts_S64_S1x64 (0 : Fin 1) d

/-- The node-embedding region's output: f. -/
theorem kf (n : Fin 50000) (d : Fin 64) :
    W2 m ρ c (Proc.devRef .tc main_v5) (ix2 n d) = F (I m c) n d := by
  have h : W2 m ρ c (Proc.devRef .tc main_v5)
      = KBlocks0.G (m ((c : Thread nD τ).loc main_arg0)) (m ((c : Thread nD τ).loc main_arg4)) (shapeCast S1x64 (m ((c : Thread nD τ).loc main_arg5)) shapeCasts_S64_S1x64) := by
    rw [← w1_arg0 m ρ c, ← w1_arg4 m ρ c, ← w1_v4 m ρ c]
    exact (W2_arr m ρ c 3).trans (KBlocks0.final (V1 m ρ) c)
  rw [h]
  show dense (fun q => (m ((c : Thread nD τ).loc main_arg0)) (ix2 n q)) (fun q c' => (m ((c : Thread nD τ).loc main_arg4)) (ix2 q c'))
      (fun d => shapeCast S1x64 (m ((c : Thread nD τ).loc main_arg5)) shapeCasts_S64_S1x64 (ix2 (0 : Fin 1) d)) d = _
  rw [bias_row]
  rfl

/-- The gathered rows at an edge's sending end. -/
theorem kfi (e : Fin 800000) (q : Fin 64) :
    W3 m ρ c (Proc.devRef .tc main_v13) (ix2 e q) = F (I m c) ((I m c).rowI e) q := by
  rw [w3_v13]
  refine (GatherRows.gather_rows_apply (N := 50000) (E := 800000) (D := 64) (by norm_num)
    gather_S50000x64_S800000x1_S800000x64_1_0_n_n_0_1_164.wf _ (gatherCol (rowsI (m ((c : Thread nD τ).loc main_arg1)))) e q).trans ?_
  exact kf m ρ c _ q

/-- The gathered rows at an edge's receiving end. -/
theorem kfj (e : Fin 800000) (q : Fin 64) :
    W3 m ρ c (Proc.devRef .tc main_v20) (ix2 e q) = F (I m c) ((I m c).rowJ e) q := by
  rw [w3_v20]
  refine (GatherRows.gather_rows_apply (N := 50000) (E := 800000) (D := 64) (by norm_num)
    gather_S50000x64_S800000x1_S800000x64_1_0_n_n_0_1_164.wf _ (gatherCol (rowsJ (m ((c : Thread nD τ).loc main_arg1)))) e q).trans ?_
  exact kf m ρ c _ q

/-- The edge region's first output: the embedded attributes. -/
theorem kea (e : Fin 800000) (d : Fin 64) :
    W4 m ρ c (Proc.devRef .tc main_v27_0) (ix2 e d) = EA (I m c) e d := by
  have h : W4 m ρ c (Proc.devRef .tc main_v27_0)
      = KBlocks1.Gea (m ((c : Thread nD τ).loc main_arg2)) (m ((c : Thread nD τ).loc main_arg6)) (shapeCast S1x64 (m ((c : Thread nD τ).loc main_arg7)) shapeCasts_S64_S1x64) (m ((c : Thread nD τ).loc main_arg8))
          (shapeCast S1x64 (m ((c : Thread nD τ).loc main_arg9)) shapeCasts_S64_S1x64) := by
    rw [← w3_arg2 m ρ c, ← w3_arg6 m ρ c, ← w3_v21 m ρ c, ← w3_arg8 m ρ c, ← w3_v22 m ρ c]
    exact (W4_arr m ρ c 16).trans (KBlocks1.final_ea (V3 m ρ) c)
  rw [h]
  show mlp (fun k => (m ((c : Thread nD τ).loc main_arg2)) (ix2 e k)) (fun k c' => (m ((c : Thread nD τ).loc main_arg6)) (ix2 k c'))
      (fun d => shapeCast S1x64 (m ((c : Thread nD τ).loc main_arg7)) shapeCasts_S64_S1x64 (ix2 (0 : Fin 1) d)) (fun k c' => (m ((c : Thread nD τ).loc main_arg8)) (ix2 k c'))
      (fun d => shapeCast S1x64 (m ((c : Thread nD τ).loc main_arg9)) shapeCasts_S64_S1x64 (ix2 (0 : Fin 1) d)) d = _
  rw [bias_row, bias_row]
  rfl

/-- The edge region's second output: each edge's 256 message numbers. -/
theorem kmsg (e : Fin 800000) (j : Fin 256) :
    W4 m ρ c (Proc.devRef .tc main_v27_1) (ix2 e j)
      = msgRow (F (I m c) ((I m c).rowI e)) (F (I m c) ((I m c).rowJ e)) ((I m c).attr e) ((I m c).vec e)
          (I m c).Wb1 (I m c).bb1 (I m c).Wb2 (I m c).bb2 (I m c).Ws1 (I m c).bs1 (I m c).Ws2 (I m c).bs2
          (I m c).Wv1 (I m c).bv1 (I m c).Wv2 (I m c).bv2 j := by
  have h : W4 m ρ c (Proc.devRef .tc main_v27_1)
      = KBlocks1.Gmsg (m ((c : Thread nD τ).loc main_arg2)) (W3 m ρ c (Proc.devRef .tc main_v13)) (W3 m ρ c (Proc.devRef .tc main_v20)) (m ((c : Thread nD τ).loc main_arg3))
          (m ((c : Thread nD τ).loc main_arg6)) (shapeCast S1x64 (m ((c : Thread nD τ).loc main_arg7)) shapeCasts_S64_S1x64) (m ((c : Thread nD τ).loc main_arg8)) (shapeCast S1x64 (m ((c : Thread nD τ).loc main_arg9)) shapeCasts_S64_S1x64)
          (m ((c : Thread nD τ).loc main_arg10)) (shapeCast S1x64 (m ((c : Thread nD τ).loc main_arg11)) shapeCasts_S64_S1x64) (m ((c : Thread nD τ).loc main_arg12)) (shapeCast S1x64 (m ((c : Thread nD τ).loc main_arg13)) shapeCasts_S64_S1x64)
          (m ((c : Thread nD τ).loc main_arg18)) (shapeCast S1x64 (m ((c : Thread nD τ).loc main_arg19)) shapeCasts_S64_S1x64) (m ((c : Thread nD τ).loc main_arg20)) (shapeCast S1x64 (m ((c : Thread nD τ).loc main_arg21)) shapeCasts_S64_S1x64) := by
    rw [← w3_arg2 m ρ c, ← w3_arg3 m ρ c, ← w3_arg6 m ρ c, ← w3_v21 m ρ c, ← w3_arg8 m ρ c, ← w3_v22 m ρ c,
      ← w3_arg10 m ρ c, ← w3_v23 m ρ c, ← w3_arg12 m ρ c, ← w3_v24 m ρ c, ← w3_arg18 m ρ c, ← w3_v25 m ρ c,
      ← w3_arg20 m ρ c, ← w3_v26 m ρ c]
    exact (W4_arr m ρ c 17).trans (KBlocks1.final_msg (V3 m ρ) c)
  rw [h]
  show msgRow (fun k => W3 m ρ c (Proc.devRef .tc main_v13) (ix2 e k)) (fun k => W3 m ρ c (Proc.devRef .tc main_v20) (ix2 e k))
      (fun k => (m ((c : Thread nD τ).loc main_arg2)) (ix2 e k)) (fun k => (m ((c : Thread nD τ).loc main_arg3)) (ix2 e k))
      (fun k c' => (m ((c : Thread nD τ).loc main_arg6)) (ix2 k c')) (fun d => shapeCast S1x64 (m ((c : Thread nD τ).loc main_arg7)) shapeCasts_S64_S1x64 (ix2 (0 : Fin 1) d))
      (fun k c' => (m ((c : Thread nD τ).loc main_arg8)) (ix2 k c')) (fun d => shapeCast S1x64 (m ((c : Thread nD τ).loc main_arg9)) shapeCasts_S64_S1x64 (ix2 (0 : Fin 1) d))
      (fun k c' => (m ((c : Thread nD τ).loc main_arg10)) (ix2 k c')) (fun d => shapeCast S1x64 (m ((c : Thread nD τ).loc main_arg11)) shapeCasts_S64_S1x64 (ix2 (0 : Fin 1) d))
      (fun k c' => (m ((c : Thread nD τ).loc main_arg12)) (ix2 k c')) (fun d => shapeCast S1x64 (m ((c : Thread nD τ).loc main_arg13)) shapeCasts_S64_S1x64 (ix2 (0 : Fin 1) d))
      (fun k c' => (m ((c : Thread nD τ).loc main_arg18)) (ix2 k c')) (fun d => shapeCast S1x64 (m ((c : Thread nD τ).loc main_arg19)) shapeCasts_S64_S1x64 (ix2 (0 : Fin 1) d))
      (fun k c' => (m ((c : Thread nD τ).loc main_arg20)) (ix2 k c')) (fun d => shapeCast S1x64 (m ((c : Thread nD τ).loc main_arg21)) shapeCasts_S64_S1x64 (ix2 (0 : Fin 1) d)) j = _
  rw [bias_row, bias_row, bias_row, bias_row, bias_row, bias_row,
    show (fun k => W3 m ρ c (Proc.devRef .tc main_v13) (ix2 e k)) = F (I m c) ((I m c).rowI e) from funext fun k => kfi m ρ c e k,
    show (fun k => W3 m ρ c (Proc.devRef .tc main_v20) (ix2 e k)) = F (I m c) ((I m c).rowJ e) from funext fun k => kfj m ρ c e k]
  rfl

/-- The scalar message of an edge is columns 0…63 of its message numbers. -/
theorem kms (e : Fin 800000) (d : Fin 64) :
    W4 m ρ c (Proc.devRef .tc main_v27_1) (ix2 e (⟨d.val, by have := d.isLt; omega⟩ : Fin 256)) = MS (I m c) e d := by
  rw [kmsg, msgRow_lo, msRow_eq]
  rfl

/-- Coordinate k of the edge vector times the vector network's row is columns 64 + 64·k … of the message numbers. -/
theorem kmv (e : Fin 800000) (k : Fin 3) (d : Fin 64) :
    W4 m ρ c (Proc.devRef .tc main_v27_1) (ix2 e (⟨64 + 64 * k.val + d.val, by have := d.isLt; have := k.isLt; omega⟩ : Fin 256))
      = (I m c).vec e k * MV (I m c) e d := by
  rw [kmsg, msgRow_hi, mvRow_eq]
  rfl

/-- The collected scalar messages the node-update region reads. -/
theorem kaggs (n : Fin 50000) (d : Fin 64) :
    W5 m ρ c (Proc.devRef .tc main_v32) (ix2 n d) = AGGS (I m c) n d := by
  rw [w5_v32]
  unfold agg
  refine (KernelTail.tail_aggs (W4 m ρ c (Proc.devRef .tc main_v27_1)) (segCol (rowsJ (m ((c : Thread nD τ).loc main_arg1)))) n d).trans ?_
  unfold AGGS
  exact Finset.sum_congr rfl fun e _ => kms m ρ c e d

/-- The second result. -/
theorem kv0 (n : Fin 50000) (d : Fin 64) (k : Fin 3) :
    W6 m ρ c (Proc.devRef .tc main_v35) (ix3 n d k) = V0 (I m c) n d k := by
  rw [W6_of_ne m ρ c main_v35 (by decide), w5_v35]
  unfold agg
  refine (KernelTail.tail_v0 (W4 m ρ c (Proc.devRef .tc main_v27_1)) (segCol (rowsJ (m ((c : Thread nD τ).loc main_arg1)))) n d k).trans ?_
  unfold V0
  exact Finset.sum_congr rfl fun e _ => kmv m ρ c e k d

/-- The third result. -/
theorem kea_out (e : Fin 800000) (d : Fin 64) :
    W6 m ρ c (Proc.devRef .tc main_v27_0) (ix2 e d) = EA (I m c) e d := by
  rw [W6_of_ne m ρ c main_v27_0 (by decide), w5_v27_0]
  exact kea m ρ c e d

/-- The first result. -/
theorem kh0 (n : Fin 50000) (d : Fin 64) :
    W6 m ρ c (Proc.devRef .tc main_v38) (ix2 n d) = H0 (I m c) n d := by
  have h : W6 m ρ c (Proc.devRef .tc main_v38)
      = KBlocks2.G (W2 m ρ c (Proc.devRef .tc main_v5)) (W5 m ρ c (Proc.devRef .tc main_v32)) (m ((c : Thread nD τ).loc main_arg14))
          (shapeCast S1x64 (m ((c : Thread nD τ).loc main_arg15)) shapeCasts_S64_S1x64) (m ((c : Thread nD τ).loc main_arg16)) (shapeCast S1x64 (m ((c : Thread nD τ).loc main_arg17)) shapeCasts_S64_S1x64) := by
    rw [← w5_v5 m ρ c, ← w5_arg14 m ρ c, ← w5_v36 m ρ c, ← w5_arg16 m ρ c, ← w5_v37 m ρ c]
    exact (W6_arr m ρ c 6).trans (KBlocks2.final (V5 m ρ) c)
  rw [h]
  show mlp (cat2 (fun k => W2 m ρ c (Proc.devRef .tc main_v5) (ix2 n k)) (fun k => W5 m ρ c (Proc.devRef .tc main_v32) (ix2 n k)))
      (fun k c' => (m ((c : Thread nD τ).loc main_arg14)) (ix2 k c')) (fun d => shapeCast S1x64 (m ((c : Thread nD τ).loc main_arg15)) shapeCasts_S64_S1x64 (ix2 (0 : Fin 1) d))
      (fun k c' => (m ((c : Thread nD τ).loc main_arg16)) (ix2 k c')) (fun d => shapeCast S1x64 (m ((c : Thread nD τ).loc main_arg17)) shapeCasts_S64_S1x64 (ix2 (0 : Fin 1) d)) d = _
  rw [bias_row, bias_row,
    show (fun k => W2 m ρ c (Proc.devRef .tc main_v5) (ix2 n k)) = F (I m c) n from funext fun k => kf m ρ c n k,
    show (fun k => W5 m ρ c (Proc.devRef .tc main_v32) (ix2 n k)) = AGGS (I m c) n from funext fun k => kaggs m ρ c n k]
  rfl

end Cert.KernelIdeal.KValue

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«174115_j6777458393829_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibIdxSums.lean ====
/-
  A sum over the index set of a rank-3 or rank-4 array is the iterated sum over its coordinates, first axis outermost
  (the rank-2 form is the library's `ValueIdx.sum_idx2`). Any commutative additive monoid.
-/
import Idealize.ShloMosaic.Lib.ValueIdx

namespace Cert.LibIdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdxSums
-- ==== Proof.LibSegmentSum3.lean ====
/-
  A float scatter-add whose scatter indices name PLANES of a rank-3 operand, read at an index.

  `jax.ops.segment_sum(data, ids, num_segments = N)` on data of shape `[E, D, K]` lowers to a `stablehlo.scatter`
  with an `add` body over scatter indices of shape `[E, 1]`: update plane `e` (a `D × K` block) is added to operand
  plane `ids[e]`, read signed, and is dropped when that plane is outside `[0, N)`. The update's axes 1 and 2 are the
  window axes and go to the operand's axes 1 and 2; the operand's axis 0 is the inserted one and is the only axis the
  scatter index names. At the exact instance the result is, entry by entry, the operand plus the sum of the updates
  over the set of edges `{e | ids[e] = n}` — the same set as in the rank-2 and rank-1 layouts (`planes_apply`).
-/
import Idealize.ShloMosaic.PureOps.Ideal
import Idealize.ShloMosaic.Lib.ValueIdx
import proofs.«174115_j6777458393829_2_alg».proof.Proof.LibSegmentSum
import proofs.«174115_j6777458393829_2_alg».proof.Proof.LibIdxSums

noncomputable section

open scoped BigOperators

namespace Cert.SegmentSum3

open Idealize.ShloMosaic Idealize.ShloMosaic.ValueIdx
open Cert.SegmentSum (seg)

/-! ## The layout's dimension numbers -/

/-- Updates `[E, D, K]` into an operand `[N, D, K]`, one scatter index per update plane. -/
abbrev planesDims (N E D K : Nat)
    (wf : ScatterDims.WF ⟨3, ![N, D, K]⟩ ⟨2, ![E, 1]⟩ ⟨3, ![E, D, K]⟩ [1, 2] [0] [0] 1) :
    ScatterDims ⟨3, ![N, D, K]⟩ ⟨2, ![E, 1]⟩ ⟨3, ![E, D, K]⟩ where
  updateWindowDims := [1, 2]
  insertedWindowDims := [0]
  scatterDimsToOperandDims := [0]
  indexVectorDim := 1
  wf := wf

section Planes
variable {N E D K w : Nat} (wf : ScatterDims.WF ⟨3, ![N, D, K]⟩ ⟨2, ![E, 1]⟩ ⟨3, ![E, D, K]⟩ [1, 2] [0] [0] 1)
variable (idx : IVec ⟨2, ![E, 1]⟩ w) (e : Fin E) (p : Fin D) (q : Fin K)

/-- On the operand's axis 0 the window starts at the edge's segment. -/
theorem planes_start0 : (planesDims N E D K wf).start (ix3 e p q) idx 0 = seg idx e := by
  unfold ScatterDims.start
  rw [dif_pos (show (0 : Fin 3) ∈ (planesDims N E D K wf).scatterDimsToOperandDims from List.mem_singleton.mpr rfl)]
  have hsi : (planesDims N E D K wf).siIdx (ix3 e p q)
      ⟨List.idxOf (0 : Fin 3) (planesDims N E D K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The scatter index names no coordinate on the operand's axis 1. -/
theorem planes_start1 : (planesDims N E D K wf).start (ix3 e p q) idx 1 = 0 := by
  unfold ScatterDims.start
  rw [dif_neg (show ¬ (1 : Fin 3) ∈ (planesDims N E D K wf).scatterDimsToOperandDims by
    show ¬ (1 : Fin 3) ∈ [(0 : Fin 3)]; decide)]

/-- The scatter index names no coordinate on the operand's axis 2. -/
theorem planes_start2 : (planesDims N E D K wf).start (ix3 e p q) idx 2 = 0 := by
  unfold ScatterDims.start
  rw [dif_neg (show ¬ (2 : Fin 3) ∈ (planesDims N E D K wf).scatterDimsToOperandDims by
    show ¬ (2 : Fin 3) ∈ [(0 : Fin 3)]; decide)]

/-- The operand's axis 0 is inserted: no window coordinate. -/
theorem planes_window0 : (planesDims N E D K wf).window (ix3 e p q) 0 = 0 := by
  unfold ScatterDims.window
  rw [dif_neg (show ¬ (0 : Fin 3) ∈ (planesDims N E D K wf).sKept by
    show ¬ (0 : Fin 3) ∈ (List.finRange 3).filter (fun a => a ∉ [(0 : Fin 3)]); decide)]

/-- The operand's axis 1 takes the update's coordinate on its axis 1. -/
theorem planes_window1 : (planesDims N E D K wf).window (ix3 e p q) 1 = p.val := by
  unfold ScatterDims.window
  rw [dif_pos (show (1 : Fin 3) ∈ (planesDims N E D K wf).sKept by
    show (1 : Fin 3) ∈ (List.finRange 3).filter (fun a => a ∉ [(0 : Fin 3)]); decide)]
  rfl

/-- The operand's axis 2 takes the update's coordinate on its axis 2. -/
theorem planes_window2 : (planesDims N E D K wf).window (ix3 e p q) 2 = q.val := by
  unfold ScatterDims.window
  rw [dif_pos (show (2 : Fin 3) ∈ (planesDims N E D K wf).sKept by
    show (2 : Fin 3) ∈ (List.finRange 3).filter (fun a => a ∉ [(0 : Fin 3)]); decide)]
  rfl

/-- Update entry `(e, p, q)` lands on operand entry `(n, d, k)` exactly when edge `e`'s segment is `n`, `p = d` and
    `q = k`. -/
theorem planes_resultIdx_iff (n : Fin N) (d : Fin D) (k : Fin K) :
    (planesDims N E D K wf).resultIdx? (ix3 e p q) idx = some (ix3 n d k)
      ↔ seg idx e = (n.val : Int) ∧ p = d ∧ q = k := by
  have s0 := planes_start0 wf idx e p q
  have s1 := planes_start1 wf idx e p q
  have s2 := planes_start2 wf idx e p q
  have w0 := planes_window0 wf e p q
  have w1 := planes_window1 wf e p q
  have w2 := planes_window2 wf e p q
  unfold ScatterDims.resultIdx?
  split_ifs with h
  · rw [Option.some.injEq]
    constructor
    · intro h'
      have h0 := congrArg Fin.val (congrFun h' 0)
      have h1 := congrArg Fin.val (congrFun h' 1)
      have h2 := congrArg Fin.val (congrFun h' 2)
      have p0 := (h 0).1
      simp only [s0, w0] at h0 p0
      simp only [s1, w1] at h1
      simp only [s2, w2] at h2
      refine ⟨?_, Fin.ext ?_, Fin.ext ?_⟩
      · have : ((seg idx e + ((0 : Nat) : Int)).toNat : Nat) = n.val := h0
        omega
      · have : (((0 : Int) + (p.val : Int)).toNat : Nat) = d.val := h1
        omega
      · have : (((0 : Int) + (q.val : Int)).toNat : Nat) = k.val := h2
        omega
    · rintro ⟨hs, rfl, rfl⟩
      funext a; refine Fin.ext ?_
      match a with
      | ⟨0, _⟩ =>
        show ((planesDims N E D K wf).start (ix3 e p q) idx 0
          + ((planesDims N E D K wf).window (ix3 e p q) 0 : Int)).toNat = n.val
        rw [s0, w0, hs]; omega
      | ⟨1, _⟩ =>
        show ((planesDims N E D K wf).start (ix3 e p q) idx 1
          + ((planesDims N E D K wf).window (ix3 e p q) 1 : Int)).toNat = p.val
        rw [s1, w1]; omega
      | ⟨2, _⟩ =>
        show ((planesDims N E D K wf).start (ix3 e p q) idx 2
          + ((planesDims N E D K wf).window (ix3 e p q) 2 : Int)).toNat = q.val
        rw [s2, w2]; omega
  · constructor
    · intro h'; exact absurd h' (by simp)
    · rintro ⟨hs, rfl, rfl⟩
      exfalso; apply h
      intro a
      match a with
      | ⟨0, _⟩ =>
        show 0 ≤ (planesDims N E D K wf).start (ix3 e p q) idx 0
            + ((planesDims N E D K wf).window (ix3 e p q) 0 : Int) ∧
          (planesDims N E D K wf).start (ix3 e p q) idx 0
            + ((planesDims N E D K wf).window (ix3 e p q) 0 : Int) < (N : Int)
        rw [s0, w0, hs]; have := n.isLt; omega
      | ⟨1, _⟩ =>
        show 0 ≤ (planesDims N E D K wf).start (ix3 e p q) idx 1
            + ((planesDims N E D K wf).window (ix3 e p q) 1 : Int) ∧
          (planesDims N E D K wf).start (ix3 e p q) idx 1
            + ((planesDims N E D K wf).window (ix3 e p q) 1 : Int) < (D : Int)
        rw [s1, w1]; have := p.isLt; omega
      | ⟨2, _⟩ =>
        show 0 ≤ (planesDims N E D K wf).start (ix3 e p q) idx 2
            + ((planesDims N E D K wf).window (ix3 e p q) 2 : Int) ∧
          (planesDims N E D K wf).start (ix3 e p q) idx 2
            + ((planesDims N E D K wf).window (ix3 e p q) 2 : Int) < (K : Int)
        rw [s2, w2]; have := q.isLt; omega

end Planes

/-! ## The exact scatter-add at an entry -/

/-- THE PLANES LAYOUT AT `(n, d, k)`: the operand's entry plus the sum, over the edges whose segment is `n`, of entry
    `(d, k)` of their update planes. -/
theorem planes_apply {N E D K w : Nat}
    (wf : ScatterDims.WF ⟨3, ![N, D, K]⟩ ⟨2, ![E, 1]⟩ ⟨3, ![E, D, K]⟩ [1, 2] [0] [0] 1)
    (x : (⟨3, ![N, D, K]⟩ : Shape).Idx → EReal) (idx : IVec ⟨2, ![E, 1]⟩ w)
    (upd : (⟨3, ![E, D, K]⟩ : Shape).Idx → EReal) (n : Fin N) (d : Fin D) (k : Fin K) :
    Ideal.hostScatterAdd (planesDims N E D K wf) x idx upd (ix3 n d k)
      = x (ix3 n d k)
        + ∑ e ∈ Finset.univ.filter (fun e : Fin E => seg idx e = (n.val : Int)), upd (ix3 e d k) := by
  unfold Ideal.hostScatterAdd
  congr 1
  rw [Finset.sum_filter, Finset.sum_filter, Cert.LibIdxSums.sum_idx3]
  refine Finset.sum_congr rfl fun e _ => ?_
  by_cases hs : seg idx e = (n.val : Int)
  · rw [if_pos hs, Finset.sum_eq_single d]
    · rw [Finset.sum_eq_single k]
      · rw [if_pos ((planes_resultIdx_iff wf idx e d k n d k).2 ⟨hs, rfl, rfl⟩)]
      · intro q _ hq
        rw [if_neg (fun h => hq ((planes_resultIdx_iff wf idx e d q n d k).1 h).2.2)]
      · intro h; exact absurd (Finset.mem_univ k) h
    · intro p _ hp
      refine Finset.sum_eq_zero fun q _ => ?_
      rw [if_neg (fun h => hp ((planes_resultIdx_iff wf idx e p q n d k).1 h).2.1)]
    · intro h; exact absurd (Finset.mem_univ d) h
  · rw [if_neg hs]
    refine Finset.sum_eq_zero fun p _ => ?_
    refine Finset.sum_eq_zero fun q _ => ?_
    rw [if_neg (fun h => hs ((planes_resultIdx_iff wf idx e p q n d k).1 h).1)]

end Cert.SegmentSum3

end
-- ==== Proof.RefEntries.lean ====
/-
  The reference, read entry by entry, is the graph network layer written over coordinates.

  The reference computes the layer with whole-array operations: an affine layer is a matrix product plus the bias laid along
  every row; x · σ(x) is spelt x · (1 / (1 + e^(-x))) with the 1 a broadcast constant; the rows f[i] and f[j] are gathers of
  whole rows; the 192 (128) inputs of a network are pieces laid side by side; the collection at the nodes is a scatter-add of
  rows (of 64 × 3 planes for the vector part) into the zero array.  Each of these is read at one entry, and the readings are
  chained: the node embedding, the embedded edge attribute, the joined row of an edge, the two message networks, the two
  collections, and the node update.
-/
import proofs.«174115_j6777458393829_2_alg».proof.Proof.Gen.ReferenceIdeal.Read
import proofs.«174115_j6777458393829_2_alg».proof.Proof.SpecArrays
import proofs.«174115_j6777458393829_2_alg».proof.Proof.LibRowOps
import proofs.«174115_j6777458393829_2_alg».proof.Proof.LibGatherRows
import proofs.«174115_j6777458393829_2_alg».proof.Proof.LibSegmentSum
import proofs.«174115_j6777458393829_2_alg».proof.Proof.LibSegmentSum3
import proofs.«174115_j6777458393829_2_alg».proof.Proof.LibRows

noncomputable section

open scoped BigOperators

namespace Cert.RefEntries

open Cert.ReferenceIdeal Cert.ReferenceIdeal.Gen Cert.ReferenceIdeal.Read Idealize.ShloMosaic Idealize.ShloMosaic.ValueIdx

/-! ## x · σ(x) as the host spells it -/

/-- The word 0x3F800000 is the number one. -/
theorem one_word : Ideal.ofBits .f32 0x3F800000#32 = 1 := by
  simp [Ideal.ofBits, Ideal.ieee, -EReal.coe_mul]
  norm_num

/-- x · (1 / (1 + e^(-x))) is x · σ(x). -/
theorem silu_host (y : EReal) :
    FloatOps.mulf (F := Ideal) (φ := .f32) y
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) y))))
      = Spec.silu y := by
  show y * Ideal.div (Ideal.ofBits .f32 0x3F800000#32) (Ideal.ofBits .f32 0x3F800000#32 + Ideal.exp (-y)) = Spec.silu y
  rw [one_word]
  rfl

/-- The same over a whole array of any shape, the two ones broadcast constants, read at an entry. -/
theorem host_silu_apply {s : Shape} (hb : (⟨0, ![]⟩ : Shape).BroadcastsInDim s ![]) (Y : FVec Ideal s .f32) (i : s.Idx) :
    mulf (F := Ideal) Y
        (Host.divf (F := Ideal) (broadcastInDim s ![] hb (constant (F := Ideal) ⟨0, ![]⟩ .f32 0x3F800000#32))
          (addf (F := Ideal) (broadcastInDim s ![] hb (constant (F := Ideal) ⟨0, ![]⟩ .f32 0x3F800000#32))
            (Host.exp (F := Ideal) (Host.negf (F := Ideal) Y)))) i
      = Spec.silu (Y i) := by
  have h1 : broadcastInDim s ![] hb (constant (F := Ideal) ⟨0, ![]⟩ .f32 0x3F800000#32) i
      = FloatOps.ofBits (F := Ideal) .f32 0x3F800000#32 :=
    (broadcastInDim_apply _ hb (constant (F := Ideal) ⟨0, ![]⟩ .f32 0x3F800000#32) i (fun a => a.elim0) (fun a => a.elim0)).trans rfl
  refine Eq.trans ?_ (silu_host (Y i))
  show FloatOps.mulf (F := Ideal) (φ := .f32) (Y i) (FloatOps.hostDivf (F := Ideal) (φ := .f32) (broadcastInDim s ![] hb (constant (F := Ideal) ⟨0, ![]⟩ .f32 0x3F800000#32) i)
      (FloatOps.addf (F := Ideal) (φ := .f32) (broadcastInDim s ![] hb (constant (F := Ideal) ⟨0, ![]⟩ .f32 0x3F800000#32) i) _)) = _
  rw [h1]
  rfl

/-! ## A two-layer network as the host spells it -/

/-- A dense layer, x · σ(x) entry by entry, a dense layer — each layer a matrix product plus the bias laid along every row —
    read at an entry: the network of the row's entries. -/
theorem host_mlp_apply {m k h n : Nat}
    (dd1 : DotDims ⟨2, ![m, k]⟩ ⟨2, ![k, h]⟩ ⟨2, ![m, h]⟩) (hdd1 : dd1 = DotDims.plain m k h)
    (dd2 : DotDims ⟨2, ![m, h]⟩ ⟨2, ![h, n]⟩ ⟨2, ![m, n]⟩) (hdd2 : dd2 = DotDims.plain m h n)
    (X : FVec Ideal ⟨2, ![m, k]⟩ .f32) (W1 : FVec Ideal ⟨2, ![k, h]⟩ .f32) (b1 : FVec Ideal ⟨1, ![h]⟩ .f32)
    (W2 : FVec Ideal ⟨2, ![h, n]⟩ .f32) (b2 : FVec Ideal ⟨1, ![n]⟩ .f32)
    (h1a : (⟨1, ![h]⟩ : Shape).BroadcastsInDim ⟨2, ![1, h]⟩ ![1])
    (h1b : (⟨2, ![1, h]⟩ : Shape).BroadcastsInDim ⟨2, ![m, h]⟩ ![0, 1])
    (h2a : (⟨1, ![n]⟩ : Shape).BroadcastsInDim ⟨2, ![1, n]⟩ ![1])
    (h2b : (⟨2, ![1, n]⟩ : Shape).BroadcastsInDim ⟨2, ![m, n]⟩ ![0, 1])
    (hs : (⟨0, ![]⟩ : Shape).BroadcastsInDim ⟨2, ![m, h]⟩ ![])
    (Y : FVec Ideal ⟨2, ![m, h]⟩ .f32)
    (hY : Y = addf (F := Ideal) (Host.dotGeneral dd1 none X W1)
      (broadcastInDim ⟨2, ![m, h]⟩ ![0, 1] h1b (broadcastInDim ⟨2, ![1, h]⟩ ![1] h1a b1)))
    (r : Fin m) (c : Fin n) :
    addf (F := Ideal)
        (Host.dotGeneral dd2 none
          (mulf (F := Ideal) Y
            (Host.divf (F := Ideal) (broadcastInDim ⟨2, ![m, h]⟩ ![] hs (constant (F := Ideal) ⟨0, ![]⟩ .f32 0x3F800000#32))
              (addf (F := Ideal) (broadcastInDim ⟨2, ![m, h]⟩ ![] hs (constant (F := Ideal) ⟨0, ![]⟩ .f32 0x3F800000#32))
                (Host.exp (F := Ideal) (Host.negf (F := Ideal) Y))))) W2)
        (broadcastInDim ⟨2, ![m, n]⟩ ![0, 1] h2b (broadcastInDim ⟨2, ![1, n]⟩ ![1] h2a b2)) (ix2 r c)
      = Spec.mlp (fun q => X (ix2 r q)) (fun q j => W1 (ix2 q j)) (fun j => b1 (ix1 j))
          (fun q j => W2 (ix2 q j)) (fun j => b2 (ix1 j)) c := by
  subst hY
  rw [LibRowOps.host_affine_apply dd2 hdd2 none _ W2 b2 h2a h2b r c]
  unfold Spec.mlp Spec.dense
  refine congrArg (· + b2 (ix1 c)) (Finset.sum_congr rfl fun q _ => congrArg (· * W2 (ix2 q c)) ?_)
  rw [host_silu_apply hs _ (ix2 r q), LibRowOps.host_affine_apply dd1 hdd1 none X W1 b1 h1a h1b r q]

/-! ## Three pieces laid side by side -/

section Concat3
variable {α : Type} {n a b c t : Nat}
  (y₁ : (⟨2, ![n, a]⟩ : Shape).Idx → α) (y₂ : (⟨2, ![n, b]⟩ : Shape).Idx → α) (y₃ : (⟨2, ![n, c]⟩ : Shape).Idx → α)
  (hc : Shape.Concatenates [⟨2, ![n, a]⟩, ⟨2, ![n, b]⟩, ⟨2, ![n, c]⟩] ⟨2, ![n, t]⟩ 1) (r : Fin n) (j : Fin t)

/-- A column inside the first piece reads the first piece there. -/
theorem concat3_first (hj : j.val < a) :
    concatenate ⟨2, ![n, t]⟩ 1 [⟨⟨2, ![n, a]⟩, y₁⟩, ⟨⟨2, ![n, b]⟩, y₂⟩, ⟨⟨2, ![n, c]⟩, y₃⟩] hc (ix2 r j) = y₁ (ix2 r ⟨j.val, hj⟩) :=
  concatenate_apply_piece (t := ⟨2, ![n, t]⟩) (1 : Fin 2) [⟨⟨2, ![n, a]⟩, y₁⟩, ⟨⟨2, ![n, b]⟩, y₂⟩, ⟨⟨2, ![n, c]⟩, y₃⟩] hc (ix2 r j) 0 (by show 0 < 3; omega) ⟨2, ![n, a]⟩ y₁ rfl rfl 0 rfl (ix2 r ⟨j.val, hj⟩)
    (fun ax hne => by
      match ax with
      | ⟨0, _⟩ => rfl
      | ⟨1, _⟩ => exact absurd rfl hne)
    (by show 0 + j.val = j.val; omega)

/-- A column inside the second piece reads the second piece at the column less the first piece's width. -/
theorem concat3_second (hj : a ≤ j.val) (hb : j.val - a < b) :
    concatenate ⟨2, ![n, t]⟩ 1 [⟨⟨2, ![n, a]⟩, y₁⟩, ⟨⟨2, ![n, b]⟩, y₂⟩, ⟨⟨2, ![n, c]⟩, y₃⟩] hc (ix2 r j) = y₂ (ix2 r ⟨j.val - a, hb⟩) :=
  concatenate_apply_piece (t := ⟨2, ![n, t]⟩) (1 : Fin 2) [⟨⟨2, ![n, a]⟩, y₁⟩, ⟨⟨2, ![n, b]⟩, y₂⟩, ⟨⟨2, ![n, c]⟩, y₃⟩] hc (ix2 r j) 1 (by show 1 < 3; omega) ⟨2, ![n, b]⟩ y₂ rfl rfl a (by simp) (ix2 r ⟨j.val - a, hb⟩)
    (fun ax hne => by
      match ax with
      | ⟨0, _⟩ => rfl
      | ⟨1, _⟩ => exact absurd rfl hne)
    (by show a + (j.val - a) = j.val; omega)

/-- A column past the first two pieces reads the third piece at the column less their widths. -/
theorem concat3_third (hj : a + b ≤ j.val) (hb : j.val - (a + b) < c) :
    concatenate ⟨2, ![n, t]⟩ 1 [⟨⟨2, ![n, a]⟩, y₁⟩, ⟨⟨2, ![n, b]⟩, y₂⟩, ⟨⟨2, ![n, c]⟩, y₃⟩] hc (ix2 r j) = y₃ (ix2 r ⟨j.val - (a + b), hb⟩) :=
  concatenate_apply_piece (t := ⟨2, ![n, t]⟩) (1 : Fin 2) [⟨⟨2, ![n, a]⟩, y₁⟩, ⟨⟨2, ![n, b]⟩, y₂⟩, ⟨⟨2, ![n, c]⟩, y₃⟩] hc (ix2 r j) 2 (by show 2 < 3; omega) ⟨2, ![n, c]⟩ y₃ rfl rfl (a + b) (by simp) (ix2 r ⟨j.val - (a + b), hb⟩)
    (fun ax hne => by
      match ax with
      | ⟨0, _⟩ => rfl
      | ⟨1, _⟩ => exact absurd rfl hne)
    (by show a + b + (j.val - (a + b)) = j.val; omega)

end Concat3

/-! ## The host's scatter-add as a program spells it -/

/-- The host's float scatter-add of rows at the exact values, at any sizes and for any dimension record that is the rows
    layout's: entry (n, k) is the operand's entry plus the sum, over the edges whose segment is n, of column k of their
    update rows. -/
theorem host_scatterAdd_rows_apply {N E D w : Nat} {φ : FTy}
    (r : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hr : r = SegmentSum.rowsDims N E D wf)
    (x : FVec Ideal ⟨2, ![N, D]⟩ φ) (idx : IVec ⟨2, ![E, 1]⟩ w) (upd : FVec Ideal ⟨2, ![E, D]⟩ φ) (n : Fin N) (k : Fin D) :
    Host.scatterAdd (F := Ideal) r x idx upd (ix2 n k)
      = x (ix2 n k) + ∑ e ∈ Finset.univ.filter (fun e : Fin E => SegmentSum.seg idx e = (n.val : Int)), upd (ix2 e k) := by
  subst hr
  have h : Host.scatterAdd (F := Ideal) (SegmentSum.rowsDims N E D wf) x idx upd
      = Ideal.hostScatterAdd (SegmentSum.rowsDims N E D wf) x idx upd := rfl
  exact (congrFun h (ix2 n k)).trans (SegmentSum.rows_apply wf x idx upd n k)

/-- The same for planes: updates of D × K entries into an operand with one plane per node; entry (n, d, k) is the operand's
    entry plus the sum, over the edges whose segment is n, of entry (d, k) of their update planes. -/
theorem host_scatterAdd_planes_apply {N E D K w : Nat} {φ : FTy}
    (r : ScatterDims ⟨3, ![N, D, K]⟩ ⟨2, ![E, 1]⟩ ⟨3, ![E, D, K]⟩)
    (wf : ScatterDims.WF ⟨3, ![N, D, K]⟩ ⟨2, ![E, 1]⟩ ⟨3, ![E, D, K]⟩ [1, 2] [0] [0] 1)
    (hr : r = SegmentSum3.planesDims N E D K wf)
    (x : FVec Ideal ⟨3, ![N, D, K]⟩ φ) (idx : IVec ⟨2, ![E, 1]⟩ w) (upd : FVec Ideal ⟨3, ![E, D, K]⟩ φ)
    (n : Fin N) (d : Fin D) (k : Fin K) :
    Host.scatterAdd (F := Ideal) r x idx upd (ix3 n d k)
      = x (ix3 n d k) + ∑ e ∈ Finset.univ.filter (fun e : Fin E => SegmentSum.seg idx e = (n.val : Int)), upd (ix3 e d k) := by
  subst hr
  have h : Host.scatterAdd (F := Ideal) (SegmentSum3.planesDims N E D K wf) x idx upd
      = Ideal.hostScatterAdd (SegmentSum3.planesDims N E D K wf) x idx upd := rfl
  exact (congrFun h (ix3 n d k)).trans (SegmentSum3.planes_apply wf x idx upd n d k)

/-! ## The reference's values, entry by entry -/

section Reference
variable (x0 : (⟨S50000x5, .f32⟩ : BufTy).Contents (Elt Ideal)) (x1 : (⟨S2x800000, .i32⟩ : BufTy).Contents (Elt Ideal)) (x2 : (⟨S800000x16, .f32⟩ : BufTy).Contents (Elt Ideal)) (x3 : (⟨S800000x3, .f32⟩ : BufTy).Contents (Elt Ideal)) (x4 : (⟨S5x64, .f32⟩ : BufTy).Contents (Elt Ideal)) (x5 : (⟨S64, .f32⟩ : BufTy).Contents (Elt Ideal))
  (x6 : (⟨S16x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S192x64, .f32⟩ : BufTy).Contents (Elt Ideal)) (x11 : (⟨S64, .f32⟩ : BufTy).Contents (Elt Ideal))
  (x12 : (⟨S64x64, .f32⟩ : BufTy).Contents (Elt Ideal)) (x13 : (⟨S64, .f32⟩ : BufTy).Contents (Elt Ideal)) (x14 : (⟨S128x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal))
  (x18 : (⟨S192x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal))

/-- The layer's inputs read off the reference's arguments; the three index columns are the column of row numbers the gather of
    f[i] reads, that of f[j], and the column of segment numbers of the two scatter-adds. -/
abbrev I : Spec.Inputs :=
  SpecArrays.inputs x0 x2 x3 x4 x5 x6 x7 x8 x9 x10 x11 x12 x13 x14 x15 x16 x17 x18 x19 x20 x21
    (val_main_v22 (F := Ideal) x1) (val_main_v29 (F := Ideal) x1) (val_main_v43 (F := Ideal) x1)

/-- The node embedding. -/
theorem ref_f (n : Fin 50000) (d : Fin 64) :
    val_main_v7 (F := Ideal) x0 x4 x5 (ix2 n d) = Spec.F (I x0 x1 x2 x3 x4 x5 x6 x7 x8 x9 x10 x11 x12 x13 x14 x15 x16 x17 x18 x19 x20 x21) n d :=
  LibRowOps.host_affine_apply dot_S50000x5_S5x64_S50000x64_1_0_0_1_n_n rfl none x0 x4 x5 bcast_S64_S1x64_1 bcast_S1x64_S50000x64_0_1 n d

/-- The embedded edge attribute: the third result. -/
theorem ref_ea (e : Fin 800000) (d : Fin 64) :
    val_main_v16 (F := Ideal) x2 x6 x7 x8 x9 (ix2 e d) = Spec.EA (I x0 x1 x2 x3 x4 x5 x6 x7 x8 x9 x10 x11 x12 x13 x14 x15 x16 x17 x18 x19 x20 x21) e d :=
  host_mlp_apply dot_S800000x16_S16x64_S800000x64_1_0_0_1_n_n rfl dot_S800000x64_S64x64_S800000x64_1_0_0_1_n_n rfl x2 x6 x7 x8 x9
    bcast_S64_S1x64_1 bcast_S1x64_S800000x64_0_1 bcast_S64_S1x64_1 bcast_S1x64_S800000x64_0_1 bcast_S_S800000x64
    (val_main_v11 (F := Ideal) x2 x6 x7) rfl e d

/-- The gathered row f[i(e)]. -/
theorem ref_fi (e : Fin 800000) (d : Fin 64) :
    val_main_v23 (F := Ideal) x0 x1 x4 x5 (ix2 e d) = Spec.F (I x0 x1 x2 x3 x4 x5 x6 x7 x8 x9 x10 x11 x12 x13 x14 x15 x16 x17 x18 x19 x20 x21) (Spec.Inputs.rowI (I x0 x1 x2 x3 x4 x5 x6 x7 x8 x9 x10 x11 x12 x13 x14 x15 x16 x17 x18 x19 x20 x21) e) d := by
  unfold val_main_v23
  refine (GatherRows.gather_rows_apply (N := 50000) (E := 800000) (D := 64) (by norm_num) gather_S50000x64_S800000x1_S800000x64_1_0_n_n_0_1_164_wf
    (val_main_v7 (F := Ideal) x0 x4 x5) (val_main_v22 (F := Ideal) x1) e d).trans ?_
  exact ref_f x0 x1 x2 x3 x4 x5 x6 x7 x8 x9 x10 x11 x12 x13 x14 x15 x16 x17 x18 x19 x20 x21 _ d

/-- The gathered row f[j(e)]. -/
theorem ref_fj (e : Fin 800000) (d : Fin 64) :
    val_main_v30 (F := Ideal) x0 x1 x4 x5 (ix2 e d) = Spec.F (I x0 x1 x2 x3 x4 x5 x6 x7 x8 x9 x10 x11 x12 x13 x14 x15 x16 x17 x18 x19 x20 x21) (Spec.Inputs.rowJ (I x0 x1 x2 x3 x4 x5 x6 x7 x8 x9 x10 x11 x12 x13 x14 x15 x16 x17 x18 x19 x20 x21) e) d := by
  unfold val_main_v30
  refine (GatherRows.gather_rows_apply (N := 50000) (E := 800000) (D := 64) (by norm_num) gather_S50000x64_S800000x1_S800000x64_1_0_n_n_0_1_164_wf
    (val_main_v7 (F := Ideal) x0 x4 x5) (val_main_v29 (F := Ideal) x1) e d).trans ?_
  exact ref_f x0 x1 x2 x3 x4 x5 x6 x7 x8 x9 x10 x11 x12 x13 x14 x15 x16 x17 x18 x19 x20 x21 _ d

/-- The 192 inputs of an edge's two message networks: f[i(e)], f[j(e)] and the embedded attribute side by side. -/
theorem ref_e (e : Fin 800000) (k : Fin 192) :
    val_main_v31 (F := Ideal) x0 x1 x2 x4 x5 x6 x7 x8 x9 (ix2 e k) = Spec.E (I x0 x1 x2 x3 x4 x5 x6 x7 x8 x9 x10 x11 x12 x13 x14 x15 x16 x17 x18 x19 x20 x21) e k := by
  unfold val_main_v31 Spec.E Spec.cat3
  have hk := k.isLt
  by_cases h1 : k.val < 64
  · rw [dif_pos h1]
    refine (concat3_first _ _ _ concatenates_S800000x64_S800000x64_S800000x64_S800000x192_d1 e k h1).trans ?_
    exact ref_fi x0 x1 x2 x3 x4 x5 x6 x7 x8 x9 x10 x11 x12 x13 x14 x15 x16 x17 x18 x19 x20 x21 e ⟨k.val, h1⟩
  · rw [dif_neg h1]
    by_cases h2 : k.val < 128
    · rw [dif_pos h2]
      refine (concat3_second _ _ _ concatenates_S800000x64_S800000x64_S800000x64_S800000x192_d1 e k (by omega) (by omega)).trans ?_
      exact ref_fj x0 x1 x2 x3 x4 x5 x6 x7 x8 x9 x10 x11 x12 x13 x14 x15 x16 x17 x18 x19 x20 x21 e ⟨k.val - 64, by omega⟩
    · rw [dif_neg h2]
      refine (concat3_third _ _ _ concatenates_S800000x64_S800000x64_S800000x64_S800000x192_d1 e k (by omega) (by omega)).trans ?_
      exact ref_ea x0 x1 x2 x3 x4 x5 x6 x7 x8 x9 x10 x11 x12 x13 x14 x15 x16 x17 x18 x19 x20 x21 e ⟨k.val - 128, by omega⟩

/-- The joined rows as a function of the column. -/
theorem ref_e_row (e : Fin 800000) :
    (fun q : Fin 192 => val_main_v31 (F := Ideal) x0 x1 x2 x4 x5 x6 x7 x8 x9 (ix2 e q)) = Spec.E (I x0 x1 x2 x3 x4 x5 x6 x7 x8 x9 x10 x11 x12 x13 x14 x15 x16 x17 x18 x19 x20 x21) e :=
  funext fun q => ref_e x0 x1 x2 x3 x4 x5 x6 x7 x8 x9 x10 x11 x12 x13 x14 x15 x16 x17 x18 x19 x20 x21 e q

/-- The scalar message network before its product with f[i(e)]. -/
theorem ref_s (e : Fin 800000) (d : Fin 64) :
    val_main_v40 (F := Ideal) x0 x1 x2 x4 x5 x6 x7 x8 x9 x10 x11 x12 x13 (ix2 e d)
      = Spec.mlp (Spec.E (I x0 x1 x2 x3 x4 x5 x6 x7 x8 x9 x10 x11 x12 x13 x14 x15 x16 x17 x18 x19 x20 x21) e) (Spec.Inputs.Ws1 (I x0 x1 x2 x3 x4 x5 x6 x7 x8 x9 x10 x11 x12 x13 x14 x15 x16 x17 x18 x19 x20 x21)) (Spec.Inputs.bs1 (I x0 x1 x2 x3 x4 x5 x6 x7 x8 x9 x10 x11 x12 x13 x14 x15 x16 x17 x18 x19 x20 x21)) (Spec.Inputs.Ws2 (I x0 x1 x2 x3 x4 x5 x6 x7 x8 x9 x10 x11 x12 x13 x14 x15 x16 x17 x18 x19 x20 x21)) (Spec.Inputs.bs2 (I x0 x1 x2 x3 x4 x5 x6 x7 x8 x9 x10 x11 x12 x13 x14 x15 x16 x17 x18 x19 x20 x21)) d := by
  refine (host_mlp_apply dot_S800000x192_S192x64_S800000x64_1_0_0_1_n_n rfl dot_S800000x64_S64x64_S800000x64_1_0_0_1_n_n rfl (val_main_v31 (F := Ideal) x0 x1 x2 x4 x5 x6 x7 x8 x9) x10 x11 x12 x13
    bcast_S64_S1x64_1 bcast_S1x64_S800000x64_0_1 bcast_S64_S1x64_1 bcast_S1x64_S800000x64_0_1 bcast_S_S800000x64
    (val_main_v35 (F := Ideal) x0 x1 x2 x4 x5 x6 x7 x8 x9 x10 x11) rfl e d).trans ?_
  exact congrArg (fun X => Spec.mlp X _ _ _ _ d) (ref_e_row x0 x1 x2 x3 x4 x5 x6 x7 x8 x9 x10 x11 x12 x13 x14 x15 x16 x17 x18 x19 x20 x21 e)

/-- The scalar message. -/
theorem ref_ms (e : Fin 800000) (d : Fin 64) :
    val_main_v41 (F := Ideal) x0 x1 x2 x4 x5 x6 x7 x8 x9 x10 x11 x12 x13 (ix2 e d) = Spec.MS (I x0 x1 x2 x3 x4 x5 x6 x7 x8 x9 x10 x11 x12 x13 x14 x15 x16 x17 x18 x19 x20 x21) e d := by
  rw [val_main_v41_apply, ref_s x0 x1 x2 x3 x4 x5 x6 x7 x8 x9 x10 x11 x12 x13 x14 x15 x16 x17 x18 x19 x20 x21 e d, ref_fi x0 x1 x2 x3 x4 x5 x6 x7 x8 x9 x10 x11 x12 x13 x14 x15 x16 x17 x18 x19 x20 x21 e d]
  rfl

/-- The vector message weight. -/
theorem ref_mv (e : Fin 800000) (d : Fin 64) :
    val_main_v64 (F := Ideal) x0 x1 x2 x4 x5 x6 x7 x8 x9 x18 x19 x20 x21 (ix2 e d) = Spec.MV (I x0 x1 x2 x3 x4 x5 x6 x7 x8 x9 x10 x11 x12 x13 x14 x15 x16 x17 x18 x19 x20 x21) e d := by
  refine (host_mlp_apply dot_S800000x192_S192x64_S800000x64_1_0_0_1_n_n rfl dot_S800000x64_S64x64_S800000x64_1_0_0_1_n_n rfl (val_main_v31 (F := Ideal) x0 x1 x2 x4 x5 x6 x7 x8 x9) x18 x19 x20 x21
    bcast_S64_S1x64_1 bcast_S1x64_S800000x64_0_1 bcast_S64_S1x64_1 bcast_S1x64_S800000x64_0_1 bcast_S_S800000x64
    (val_main_v59 (F := Ideal) x0 x1 x2 x4 x5 x6 x7 x8 x9 x18 x19) rfl e d).trans ?_
  exact congrArg (fun X => Spec.mlp X _ _ _ _ d) (ref_e_row x0 x1 x2 x3 x4 x5 x6 x7 x8 x9 x10 x11 x12 x13 x14 x15 x16 x17 x18 x19 x20 x21 e)

/-- The zero array the scalar messages are collected into. -/
theorem ref_zero2 (n : Fin 50000) (d : Fin 64) : (val_main_v42 (F := Ideal) (ix2 n d) : EReal) = 0 :=
  ((val_main_v42_apply (F := Ideal) (ix2 n d)).trans (val_main_cst_apply (F := Ideal) _)).trans Ideal.ofBits_zero_f32

/-- The scalar messages collected at the nodes: the scatter-add of the message rows into the zero array. -/
theorem ref_aggs (n : Fin 50000) (d : Fin 64) :
    val_main_v44 (F := Ideal) x0 x1 x2 x4 x5 x6 x7 x8 x9 x10 x11 x12 x13 (ix2 n d) = Spec.AGGS (I x0 x1 x2 x3 x4 x5 x6 x7 x8 x9 x10 x11 x12 x13 x14 x15 x16 x17 x18 x19 x20 x21) n d := by
  refine (host_scatterAdd_rows_apply scatter_S50000x64_S800000x1_S800000x64_1_0_0_1 scatter_S50000x64_S800000x1_S800000x64_1_0_0_1_wf rfl
    (val_main_v42 (F := Ideal)) (val_main_v43 (F := Ideal) x1) (val_main_v41 (F := Ideal) x0 x1 x2 x4 x5 x6 x7 x8 x9 x10 x11 x12 x13) n d).trans ?_
  refine (congrArg (· + _) (ref_zero2 n d)).trans ?_
  refine (zero_add _).trans ?_
  exact Finset.sum_congr rfl fun e _ => ref_ms x0 x1 x2 x3 x4 x5 x6 x7 x8 x9 x10 x11 x12 x13 x14 x15 x16 x17 x18 x19 x20 x21 e d

/-- The 128 inputs of the node network: the node's embedding and its collected messages side by side. -/
theorem ref_cat (n : Fin 50000) (k : Fin 128) :
    val_main_v45 (F := Ideal) x0 x1 x2 x4 x5 x6 x7 x8 x9 x10 x11 x12 x13 (ix2 n k) = Spec.cat2 (Spec.F (I x0 x1 x2 x3 x4 x5 x6 x7 x8 x9 x10 x11 x12 x13 x14 x15 x16 x17 x18 x19 x20 x21) n) (Spec.AGGS (I x0 x1 x2 x3 x4 x5 x6 x7 x8 x9 x10 x11 x12 x13 x14 x15 x16 x17 x18 x19 x20 x21) n) k := by
  unfold val_main_v45 Spec.cat2
  have hk := k.isLt
  by_cases h1 : k.val < 64
  · rw [dif_pos h1]
    refine (LibRows.concat_cols_left _ _ concatenates_S50000x64_S50000x64_S50000x128_d1 n k h1).trans ?_
    exact ref_f x0 x1 x2 x3 x4 x5 x6 x7 x8 x9 x10 x11 x12 x13 x14 x15 x16 x17 x18 x19 x20 x21 n ⟨k.val, h1⟩
  · rw [dif_neg h1]
    refine (LibRows.concat_cols_right _ _ concatenates_S50000x64_S50000x64_S50000x128_d1 n k (by omega) (by omega)).trans ?_
    exact ref_aggs x0 x1 x2 x3 x4 x5 x6 x7 x8 x9 x10 x11 x12 x13 x14 x15 x16 x17 x18 x19 x20 x21 n ⟨k.val - 64, by omega⟩

/-- The node update: the first result. -/
theorem ref_h0 (n : Fin 50000) (d : Fin 64) :
    val_main_v54 (F := Ideal) x0 x1 x2 x4 x5 x6 x7 x8 x9 x10 x11 x12 x13 x14 x15 x16 x17 (ix2 n d) = Spec.H0 (I x0 x1 x2 x3 x4 x5 x6 x7 x8 x9 x10 x11 x12 x13 x14 x15 x16 x17 x18 x19 x20 x21) n d := by
  refine (host_mlp_apply dot_S50000x128_S128x64_S50000x64_1_0_0_1_n_n rfl dot_S50000x64_S64x64_S50000x64_1_0_0_1_n_n rfl (val_main_v45 (F := Ideal) x0 x1 x2 x4 x5 x6 x7 x8 x9 x10 x11 x12 x13) x14 x15 x16 x17
    bcast_S64_S1x64_1 bcast_S1x64_S50000x64_0_1 bcast_S64_S1x64_1 bcast_S1x64_S50000x64_0_1 bcast_S_S50000x64
    (val_main_v49 (F := Ideal) x0 x1 x2 x4 x5 x6 x7 x8 x9 x10 x11 x12 x13 x14 x15) rfl n d).trans ?_
  have hrow : (fun q : Fin 128 => val_main_v45 (F := Ideal) x0 x1 x2 x4 x5 x6 x7 x8 x9 x10 x11 x12 x13 (ix2 n q)) = Spec.cat2 (Spec.F (I x0 x1 x2 x3 x4 x5 x6 x7 x8 x9 x10 x11 x12 x13 x14 x15 x16 x17 x18 x19 x20 x21) n) (Spec.AGGS (I x0 x1 x2 x3 x4 x5 x6 x7 x8 x9 x10 x11 x12 x13 x14 x15 x16 x17 x18 x19 x20 x21) n) :=
    funext fun q => ref_cat x0 x1 x2 x3 x4 x5 x6 x7 x8 x9 x10 x11 x12 x13 x14 x15 x16 x17 x18 x19 x20 x21 n q
  exact congrArg (fun X => Spec.mlp X _ _ _ _ d) hrow

/-- An edge's vector times its weight: entry (e, d, k) of the 64 × 3 planes the second scatter-add collects. -/
theorem ref_upd (e : Fin 800000) (d : Fin 64) (k : Fin 3) :
    val_main_v68 (F := Ideal) x0 x1 x2 x3 x4 x5 x6 x7 x8 x9 x18 x19 x20 x21 (ix3 e d k) = Spec.Inputs.vec (I x0 x1 x2 x3 x4 x5 x6 x7 x8 x9 x10 x11 x12 x13 x14 x15 x16 x17 x18 x19 x20 x21) e k * Spec.MV (I x0 x1 x2 x3 x4 x5 x6 x7 x8 x9 x10 x11 x12 x13 x14 x15 x16 x17 x18 x19 x20 x21) e d := by
  rw [val_main_v68_apply, val_main_v66_apply, val_main_v55_apply, val_main_v67_apply, val_main_v65_apply]
  have e1 : idx_main_v55 (idx_main_v66 (ix3 e d k)) = ix2 e k := funext fun a => Fin.ext (by
    match a with
    | ⟨0, _⟩ => rfl
    | ⟨1, _⟩ => rfl)
  have e2 : idx_main_v65 (idx_main_v67 (ix3 e d k)) = ix2 e d := funext fun a => Fin.ext (by
    match a with
    | ⟨0, _⟩ => rfl
    | ⟨1, _⟩ => rfl)
  rw [e1, e2, ref_mv x0 x1 x2 x3 x4 x5 x6 x7 x8 x9 x10 x11 x12 x13 x14 x15 x16 x17 x18 x19 x20 x21 e d]
  rfl

/-- The zero array the vector messages are collected into. -/
theorem ref_zero3 (n : Fin 50000) (d : Fin 64) (k : Fin 3) : (val_main_v69 (F := Ideal) (ix3 n d k) : EReal) = 0 :=
  ((val_main_v69_apply (F := Ideal) (ix3 n d k)).trans (val_main_cst_3_apply (F := Ideal) _)).trans Ideal.ofBits_zero_f32

/-- The vector messages collected at the nodes: the second result. -/
theorem ref_v0 (n : Fin 50000) (d : Fin 64) (k : Fin 3) :
    val_main_v71 (F := Ideal) x0 x1 x2 x3 x4 x5 x6 x7 x8 x9 x18 x19 x20 x21 (ix3 n d k) = Spec.V0 (I x0 x1 x2 x3 x4 x5 x6 x7 x8 x9 x10 x11 x12 x13 x14 x15 x16 x17 x18 x19 x20 x21) n d k := by
  refine (host_scatterAdd_planes_apply scatter_S50000x64x3_S800000x1_S800000x64x3_12_0_0_1 scatter_S50000x64x3_S800000x1_S800000x64x3_12_0_0_1_wf rfl
    (val_main_v69 (F := Ideal)) (val_main_v70 (F := Ideal) x1) (val_main_v68 (F := Ideal) x0 x1 x2 x3 x4 x5 x6 x7 x8 x9 x18 x19 x20 x21) n d k).trans ?_
  refine (congrArg (· + _) (ref_zero3 n d k)).trans ?_
  refine (zero_add _).trans ?_
  exact Finset.sum_congr rfl fun e _ => ref_upd x0 x1 x2 x3 x4 x5 x6 x7 x8 x9 x10 x11 x12 x13 x14 x15 x16 x17 x18 x19 x20 x21 e d k

end Reference

end Cert.RefEntries

end
-- ==== Proof.lean ====
/-
  The certificate of a graph-network layer: a Pallas kernel program (three kernels: node embedding, the fused edge
  networks, node update, with gathers and one merged scatter-add between them) against its plain jnp reference, at the
  ideal values.

  Both programs compute, for every node n and edge e (see Proof/Spec.lean): the node embedding f, the embedded edge
  attribute ea_e, the scalar message ms_e and vector weight mv_e from the joined row [f_i(e) | f_j(e) | ea_e], the per-node
  sums aggs_n and v0_n, and h0_n from [f_n | aggs_n].  They differ in three arrangements, none of which changes a value on
  the extended reals: the kernel applies each first layer on the joined row as three partial products added together
  (a sum of 192 terms is the sum of its three runs of 64); it lays the scalar and the three vector messages side by side
  and sums all 256 columns per node in one scatter-add where the reference sums a [E, 64] and a [E, 64, 3] array (the
  same sums, column by column); and it rounds intermediate values to a shorter float format, which is the identity at
  the ideal values.  The logistic gate x · σ(x) is one function in both.  No step needs the inputs to be finite.

  The frames are the generated ones (the reference's is its generated run with the results dropped); the ideal pass
  rewrote nothing, so the idealization claim is trivial.
-/
import proofs.«174115_j6777458393829_2_alg».proof.Defs
import proofs.«174115_j6777458393829_2_alg».proof.Proof.Gen.Kernel
import proofs.«174115_j6777458393829_2_alg».proof.Proof.Gen.Kernel.Frame
import proofs.«174115_j6777458393829_2_alg».proof.Proof.Gen.KernelIdeal
import proofs.«174115_j6777458393829_2_alg».proof.Proof.Gen.KernelIdeal.Frame
import proofs.«174115_j6777458393829_2_alg».proof.Proof.Gen.ReferenceIdeal
import proofs.«174115_j6777458393829_2_alg».proof.Proof.Gen.ReferenceIdeal.Run
import proofs.«174115_j6777458393829_2_alg».proof.Proof.Gen.ReferenceIdeal.Read
import proofs.«174115_j6777458393829_2_alg».proof.Proof.Gen.Pre_finite_inputs
import proofs.«174115_j6777458393829_2_alg».proof.Proof.KernelRun
import proofs.«174115_j6777458393829_2_alg».proof.Proof.KernelValue
import proofs.«174115_j6777458393829_2_alg».proof.Proof.RefEntries
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- With the two programs' argument arrays agreeing, the layer's inputs read off the reference's arrays are those read
    off the kernel program's: the arrays are equal, and the three index columns are the same operations of the edge list. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))) :
    Cert.RefEntries.I (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = Cert.KernelIdeal.KValue.I m c := by
  obtain ⟨h0, h1, h2, h3, h4, h5, h6, h7, h8, h9, h10, h11, h12, h13, h14, h15, h16, h17, h18, h19, h20, h21⟩ := hagree
  rw [h0, h1, h2, h3, h4, h5, h6, h7, h8, h9, h10, h11, h12, h13, h14, h15, h16, h17, h18, h19, h20, h21]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The two idealized programs end with equal results: each result of either, entry by entry, is the layer's value at
    that entry of the same inputs. -/
theorem algebraic : Cert.algebraic_KernelIdeal_ReferenceIdeal := by
  intro m ρ m' ρ' _ hagree
  refine ⟨fun c => Cert.KernelIdeal.Gen.W6 m ρ c (Proc.devRef .tc Cert.KernelIdeal.main_v38),
    fun c => Cert.KernelIdeal.Gen.W6 m ρ c (Proc.devRef .tc Cert.KernelIdeal.main_v35),
    fun c => Cert.KernelIdeal.Gen.W6 m ρ c (Proc.devRef .tc Cert.KernelIdeal.main_v27_0), ?_, ?_⟩
  · refine (θ_run Cert.KernelIdeal.defs _ _).mono (fun r h c =>
      ⟨h c Cert.KernelIdeal.main_v38 (by decide), h c Cert.KernelIdeal.main_v35 (by decide),
        h c Cert.KernelIdeal.main_v27_0 (by decide),
        (h c Cert.KernelIdeal.main_arg0 (by decide)).trans (Cert.KernelIdeal.Gen.W6_main_arg0 m ρ c),
        (h c Cert.KernelIdeal.main_arg1 (by decide)).trans (Cert.KernelIdeal.Gen.W6_main_arg1 m ρ c),
        (h c Cert.KernelIdeal.main_arg2 (by decide)).trans (Cert.KernelIdeal.Gen.W6_main_arg2 m ρ c),
        (h c Cert.KernelIdeal.main_arg3 (by decide)).trans (Cert.KernelIdeal.Gen.W6_main_arg3 m ρ c),
        (h c Cert.KernelIdeal.main_arg4 (by decide)).trans (Cert.KernelIdeal.Gen.W6_main_arg4 m ρ c),
        (h c Cert.KernelIdeal.main_arg5 (by decide)).trans (Cert.KernelIdeal.Gen.W6_main_arg5 m ρ c),
        (h c Cert.KernelIdeal.main_arg6 (by decide)).trans (Cert.KernelIdeal.Gen.W6_main_arg6 m ρ c),
        (h c Cert.KernelIdeal.main_arg7 (by decide)).trans (Cert.KernelIdeal.Gen.W6_main_arg7 m ρ c),
        (h c Cert.KernelIdeal.main_arg8 (by decide)).trans (Cert.KernelIdeal.Gen.W6_main_arg8 m ρ c),
        (h c Cert.KernelIdeal.main_arg9 (by decide)).trans (Cert.KernelIdeal.Gen.W6_main_arg9 m ρ c),
        (h c Cert.KernelIdeal.main_arg10 (by decide)).trans (Cert.KernelIdeal.Gen.W6_main_arg10 m ρ c),
        (h c Cert.KernelIdeal.main_arg11 (by decide)).trans (Cert.KernelIdeal.Gen.W6_main_arg11 m ρ c),
        (h c Cert.KernelIdeal.main_arg12 (by decide)).trans (Cert.KernelIdeal.Gen.W6_main_arg12 m ρ c),
        (h c Cert.KernelIdeal.main_arg13 (by decide)).trans (Cert.KernelIdeal.Gen.W6_main_arg13 m ρ c),
        (h c Cert.KernelIdeal.main_arg14 (by decide)).trans (Cert.KernelIdeal.Gen.W6_main_arg14 m ρ c),
        (h c Cert.KernelIdeal.main_arg15 (by decide)).trans (Cert.KernelIdeal.Gen.W6_main_arg15 m ρ c),
        (h c Cert.KernelIdeal.main_arg16 (by decide)).trans (Cert.KernelIdeal.Gen.W6_main_arg16 m ρ c),
        (h c Cert.KernelIdeal.main_arg17 (by decide)).trans (Cert.KernelIdeal.Gen.W6_main_arg17 m ρ c),
        (h c Cert.KernelIdeal.main_arg18 (by decide)).trans (Cert.KernelIdeal.Gen.W6_main_arg18 m ρ c),
        (h c Cert.KernelIdeal.main_arg19 (by decide)).trans (Cert.KernelIdeal.Gen.W6_main_arg19 m ρ c),
        (h c Cert.KernelIdeal.main_arg20 (by decide)).trans (Cert.KernelIdeal.Gen.W6_main_arg20 m ρ c),
        (h c Cert.KernelIdeal.main_arg21 (by decide)).trans (Cert.KernelIdeal.Gen.W6_main_arg21 m ρ c)⟩)
      (Cert.KernelIdeal.KRun.run_all m ρ)
  · refine (θ_run Cert.ReferenceIdeal.defs _ _).mono (fun r h c =>
      ⟨(h c).1.trans ?_, (h c).2.1.trans ?_, (h c).2.2.1.trans ?_, (h c).2.2.2⟩)
      (Cert.ReferenceIdeal.Value.run (F := Ideal) m' ρ')
    · funext i
      obtain ⟨n, d, rfl⟩ : ∃ (n : Fin 50000) (d : Fin 64), i = ix2 n d := ⟨i 0, i 1, eq_ix2 i⟩
      refine (congrFun (Cert.ReferenceIdeal.Read.val_main_v54_eq m' c) _).trans ?_
      refine (Cert.RefEntries.ref_h0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) n d).trans ?_
      rw [inputs_eq m m' c (hagree c)]
      exact (Cert.KernelIdeal.KValue.kh0 m ρ c n d).symm
    · funext i
      obtain ⟨n, d, k, rfl⟩ : ∃ (n : Fin 50000) (d : Fin 64) (k : Fin 3), i = ix3 n d k := ⟨i 0, i 1, i 2, eq_ix3 i⟩
      refine (congrFun (Cert.ReferenceIdeal.Read.val_main_v71_eq m' c) _).trans ?_
      refine (Cert.RefEntries.ref_v0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) n d k).trans ?_
      rw [inputs_eq m m' c (hagree c)]
      exact (Cert.KernelIdeal.KValue.kv0 m ρ c n d k).symm
    · funext i
      obtain ⟨e, d, rfl⟩ : ∃ (e : Fin 800000) (d : Fin 64), i = ix2 e d := ⟨i 0, i 1, eq_ix2 i⟩
      show Cert.ReferenceIdeal.Read.val_main_v16 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (ix2 e d) = _
      refine (Cert.RefEntries.ref_ea (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) e d).trans ?_
      rw [inputs_eq m m' c (hagree c)]
      exact (Cert.KernelIdeal.KValue.kea_out m ρ c e d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
